-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S64x96 : Shape := ⟨2, ![64, 96]⟩
abbrev S1x96 : Shape := ⟨2, ![1, 96]⟩
abbrev S216x64 : Shape := ⟨2, ![216, 64]⟩
abbrev S1x64 : Shape := ⟨2, ![1, 64]⟩
abbrev S256x120 : Shape := ⟨2, ![256, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S64x96 : S_.BroadcastsInDim S64x96 (![] : Fin 0 → Fin S64x96.rank)
  reducesTo_S64x96_S_d0_1 : S64x96.ReducesTo [0, 1] S_
  bcast_S_S1x96 : S_.BroadcastsInDim S1x96 (![] : Fin 0 → Fin S1x96.rank)
  reducesTo_S1x96_S_d0_1 : S1x96.ReducesTo [0, 1] S_
  bcast_S_S216x64 : S_.BroadcastsInDim S216x64 (![] : Fin 0 → Fin S216x64.rank)
  reducesTo_S216x64_S_d0_1 : S216x64.ReducesTo [0, 1] S_
  bcast_S_S1x64 : S_.BroadcastsInDim S1x64 (![] : Fin 0 → Fin S1x64.rank)
  reducesTo_S1x64_S_d0_1 : S1x64.ReducesTo [0, 1] S_
  bcast_S_S256x120 : S_.BroadcastsInDim S256x120 (![] : Fin 0 → Fin S256x120.rank)
  reducesTo_S256x120_S_d0_1 : S256x120.ReducesTo [0, 1] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S1x84 : S_.BroadcastsInDim S1x84 (![] : Fin 0 → Fin S1x84.rank)
  reducesTo_S1x84_S_d0_1 : S1x84.ReducesTo [0, 1] S_
  bcast_S_S84x128 : S_.BroadcastsInDim S84x128 (![] : Fin 0 → Fin S84x128.rank)
  reducesTo_S84x128_S_d0_1 : S84x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S120x84 .f32) (main_arg8 : FVec F S1x84 .f32) (main_arg9 : FVec F S84x128 .f32) (main_arg10 : FVec F S1x128 .f32) (main_v33 : IVec S_ 1) : IVec S_ 1 :=
  let main_v34 : FVec F S120x84 .f32 := Host.absf main_arg7
  let main_cst_12 : FVec F S_ .f32 := constant S_ .f32 0x7F800000#32
  let main_v35 : FVec F S120x84 .f32 := broadcastInDim S120x84 ![] bcast_S_S120x84 main_cst_12
  let main_v36 : IVec S120x84 1 := cmpf .olt main_v34 main_v35
  let main_c_13 : IVec S_ 1 := constantI S_ 1 1#1
  let main_v37 : IVec S_ 1 := (fun x v => Host.reduce IntOp.andi x v reducesTo_S120x84_S_d0_1 h_S_) main_v36 main_c_13
  let main_v38 : IVec S_ 1 := andi main_v33 main_v37
  let main_v39 : FVec F S1x84 .f32 := Host.absf main_arg8
  let main_cst_14 : FVec F S_ .f32 := constant S_ .f32 0x7F800000#32
  let main_v40 : FVec F S1x84 .f32 := broadcastInDim S1x84 ![] bcast_S_S1x84 main_cst_14
  let main_v41 : IVec S1x84 1 := cmpf .olt main_v39 main_v40
  let main_c_15 : IVec S_ 1 := constantI S_ 1 1#1
  let main_v42 : IVec S_ 1 := (fun x v => Host.reduce IntOp.andi x v reducesTo_S1x84_S_d0_1 h_S_) main_v41 main_c_15
  let main_v43 : IVec S_ 1 := andi main_v38 main_v42
  let main_v44 : FVec F S84x128 .f32 := Host.absf main_arg9
  let main_cst_16 : FVec F S_ .f32 := constant S_ .f32 0x7F800000#32
  let main_v45 : FVec F S84x128 .f32 := broadcastInDim S84x128 ![] bcast_S_S84x128 main_cst_16
  let main_v46 : IVec S84x128 1 := cmpf .olt main_v44 main_v45
  let main_c_17 : IVec S_ 1 := constantI S_ 1 1#1
  let main_v47 : IVec S_ 1 := (fun x v => Host.reduce IntOp.andi x v reducesTo_S84x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S1x64 .f32) (main_arg5 : FVec F S256x120 .f32) (main_arg6 : FVec F S1x120 .f32) (main_arg7 : FVec F S120x84 .f32) (main_arg8 : FVec F S1x84 .f32) (main_arg9 : FVec F S84x128 .f32) (main_arg10 : FVec F S1x128 .f32) (main_v13 : IVec S_ 1) (main_v16 : IVec S216x64 1) : IVec S_ 1 :=
  let main_c_5 : IVec S_ 1 := constantI S_ 1 1#1
  let main_v17 : IVec S_ 1 := (fun x v => Host.reduce IntOp.andi x v reducesTo_S216x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S256x120 .f32 := Host.absf main_arg5
  let main_cst_8 : FVec F S_ .f32 := constant S_ .f32 0x7F800000#32
  let main_v25 : FVec F S256x120 .f32 := broadcastInDim S256x120 ![] bcast_S_S256x120 main_cst_8
  let main_v26 : IVec S256x120 1 := cmpf .olt main_v24 main_v25
  let main_c_9 : IVec S_ 1 := constantI S_ 1 1#1
  let main_v27 : IVec S_ 1 := (fun x v => Host.reduce IntOp.andi x v reducesTo_S256x120_S_d0_1 h_S_) main_v26 main_c_9
  let main_v28 : IVec S_ 1 := andi main_v23 main_v27
  let main_v29 : FVec F S1x120 .f32 := Host.absf main_arg6
  let main_cst_10 : FVec F S_ .f32 := constant S_ .f32 0x7F800000#32
  let main_v30 : FVec F S1x120 .f32 := broadcastInDim S1x120 ![] bcast_S_S1x120 main_cst_10
  let main_v31 : IVec S1x120 1 := cmpf .olt main_v29 main_v30
  let main_c_11 : IVec S_ 1 := constantI S_ 1 1#1
  let main_v32 : IVec S_ 1 := (fun x v => Host.reduce IntOp.andi x v reducesTo_S1x120_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1x28x28 .f32) (main_arg1 : FVec F S64x96 .f32) (main_arg2 : FVec F S1x96 .f32) (main_arg3 : FVec F S216x64 .f32) (main_arg4 : FVec F S1x64 .f32) (main_arg5 : FVec F S256x120 .f32) (main_arg6 : FVec F S1x120 .f32) (main_arg7 : FVec F S120x84 .f32) (main_arg8 : FVec F S1x84 .f32) (main_arg9 : FVec F S84x128 .f32) (main_arg10 : FVec F S1x128 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S64x96 .f32 := Host.absf main_arg1
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S1x96 .f32 := Host.absf main_arg2
  let main_cst_2 : FVec F S_ .f32 := constant S_ .f32 0x7F800000#32
  let main_v10 : FVec F S1x96 .f32 := broadcastInDim S1x96 ![] bcast_S_S1x96 main_cst_2
  let main_v11 : IVec S1x96 1 := cmpf .olt main_v9 main_v10
  let main_c_3 : IVec S_ 1 := constantI S_ 1 1#1
  let main_v12 : IVec S_ 1 := (fun x v => Host.reduce IntOp.andi x v reducesTo_S1x96_S_d0_1 h_S_) main_v11 main_c_3
  let main_v13 : IVec S_ 1 := andi main_v8 main_v12
  let main_v14 : FVec F S216x64 .f32 := Host.absf main_arg3
  let main_cst_4 : FVec F S_ .f32 := constant S_ .f32 0x7F800000#32
  let main_v15 : FVec F S216x64 .f32 := broadcastInDim S216x64 ![] bcast_S_S216x64 main_cst_4
  let main_v16 : IVec S216x64 1 := cmpf .olt main_v14 main_v15
  fn_part1 (F := F) main_arg4 main_arg5 main_arg6 main_arg7 main_arg8 main_arg9 main_arg10 main_v13 main_v16
-- ==== Kernel.lean ====
abbrev S16384x1x28x28 : Shape := ⟨4, ![16384, 1, 28, 28]⟩
abbrev S64x96 : Shape := ⟨2, ![64, 96]⟩
abbrev S1x96 : Shape := ⟨2, ![1, 96]⟩
abbrev S216x64 : Shape := ⟨2, ![216, 64]⟩
abbrev S1x64 : Shape := ⟨2, ![1, 64]⟩
abbrev S256x120 : Shape := ⟨2, ![256, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S16384x28x28 : Shape := ⟨3, ![16384, 28, 28]⟩
abbrev S16384x7x4x7x4 : Shape := ⟨5, ![16384, 7, 4, 7, 4]⟩
abbrev S7x7x4x4x16384 : Shape := ⟨5, ![7, 7, 4, 4, 16384]⟩
abbrev S7x7x16x16384 : Shape := ⟨4, ![7, 7, 16, 16384]⟩
abbrev S64x4x4x6 : Shape := ⟨4, ![64, 4, 4, 6]⟩
abbrev S4x4x6x64 : Shape := ⟨4, ![4, 4, 6, 64]⟩
abbrev S4x24x64 : Shape := ⟨3, ![4, 24, 64]⟩
abbrev S_ : Shape := ⟨0, ![]⟩
abbrev S4x32x64 : Shape := ⟨3, ![4, 32, 64]⟩
abbrev S128x64 : Shape := ⟨2, ![128, 64]⟩
abbrev S4x4x6 : Shape := ⟨3, ![4, 4, 6]⟩
abbrev S4x24 : Shape := ⟨2, ![4, 24]⟩
abbrev S4x32 : Shape := ⟨2, ![4, 32]⟩
abbrev S128x1 : Shape := ⟨2, ![128, 1]⟩
abbrev S9x24x64 : Shape := ⟨3, ![9, 24, 64]⟩
abbrev S9x32x64 : Shape := ⟨3, ![9, 32, 64]⟩
abbrev S288x64 : Shape := ⟨2, ![288, 64]⟩
abbrev S64x288 : Shape := ⟨2, ![64, 288]⟩
abbrev S64x1 : Shape := ⟨2, ![64, 1]⟩
abbrev S120x256 : Shape := ⟨2, ![120, 256]⟩
abbrev S120x1 : Shape := ⟨2, ![120, 1]⟩
abbrev S84x120 : Shape := ⟨2, ![84, 120]⟩
abbrev S84x1 : Shape := ⟨2, ![84, 1]⟩
abbrev S128x84 : Shape := ⟨2, ![128, 84]⟩
abbrev S128x16384 : Shape := ⟨2, ![128, 16384]⟩
abbrev S7x7x16x256 : Shape := ⟨4, ![7, 7, 16, 256]⟩
abbrev S128x256 : Shape := ⟨2, ![128, 256]⟩
abbrev S1x1x16x256 : Shape := ⟨4, ![1, 1, 16, 256]⟩
abbrev S16x256 : Shape := ⟨2, ![16, 256]⟩
abbrev S16x9216 : Shape := ⟨2, ![16, 9216]⟩
abbrev S64x9216 : Shape := ⟨2, ![64, 9216]⟩
abbrev S128x9216 : Shape := ⟨2, ![128, 9216]⟩
abbrev S4x32x9216 : Shape := ⟨3, ![4, 32, 9216]⟩
abbrev S1x32x9216 : Shape := ⟨3, ![1, 32, 9216]⟩
abbrev S32x9216 : Shape := ⟨2, ![32, 9216]⟩
abbrev S32x256 : Shape := ⟨2, ![32, 256]⟩
abbrev S32x4096 : Shape := ⟨2, ![32, 4096]⟩
abbrev S288x4096 : Shape := ⟨2, ![288, 4096]⟩
abbrev S64x4096 : Shape := ⟨2, ![64, 4096]⟩
abbrev S4x16x4096 : Shape := ⟨3, ![4, 16, 4096]⟩
abbrev S1x16x4096 : Shape := ⟨3, ![1, 16, 4096]⟩
abbrev S16x4096 : Shape := ⟨2, ![16, 4096]⟩
abbrev S256x256 : Shape := ⟨2, ![256, 256]⟩
abbrev S84x256 : Shape := ⟨2, ![84, 256]⟩
abbrev S16384x128 : Shape := ⟨2, ![16384, 128]⟩
abbrev S16384x10 : Shape := ⟨2, ![16384, 10]⟩

abbrev nBuf : Space → Nat
  | .hbm => 51
  | .vmem => 14
  | .smem => 0
  | _ => 0

abbrev bufTy : (tb : Table) → Fin (tcTables nBuf tb) → BufTy
  | .hbm, ⟨0, _⟩ => ⟨S16384x1x28x28, .f32⟩
  | .hbm, ⟨1, _⟩ => ⟨S64x96, .f32⟩
  | .hbm, ⟨2, _⟩ => ⟨S1x96, .f32⟩
  | .hbm, ⟨3, _⟩ => ⟨S216x64, .f32⟩
  | .hbm, ⟨4, _⟩ => ⟨S1x64, .f32⟩
  | .hbm, ⟨5, _⟩ => ⟨S256x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x128, .f32⟩
  | .hbm, ⟨10, _⟩ => ⟨S1x128, .f32⟩
  | .hbm, ⟨11, _⟩ => ⟨S16384x1x28x28, .bf16⟩
  | .hbm, ⟨12, _⟩ => ⟨S16384x28x28, .bf16⟩
  | .hbm, ⟨13, _⟩ => ⟨S16384x7x4x7x4, .bf16⟩
  | .hbm, ⟨14, _⟩ => ⟨S7x7x4x4x16384, .bf16⟩
  | .hbm, ⟨15, _⟩ => ⟨S7x7x16x16384, .bf16⟩
  | .hbm, ⟨16, _⟩ => ⟨S64x4x4x6, .f32⟩
  | .hbm, ⟨17, _⟩ => ⟨S4x4x6x64, .f32⟩
  | .hbm, ⟨18, _⟩ => ⟨S4x24x64, .f32⟩
  | .hbm, ⟨19, _⟩ => ⟨S_, .i32⟩
  | .hbm, ⟨20, _⟩ => ⟨S_, .f32⟩
  | .hbm, ⟨21, _⟩ => ⟨S4x32x64, .f32⟩
  | .hbm, ⟨22, _⟩ => ⟨S128x64, .f32⟩
  | .hbm, ⟨23, _⟩ => ⟨S128x64, .bf16⟩
  | .hbm, ⟨24, _⟩ => ⟨S4x4x6, .f32⟩
  | .hbm, ⟨25, _⟩ => ⟨S4x4x6, .f32⟩
  | .hbm, ⟨26, _⟩ => ⟨S4x24, .f32⟩
  | .hbm, ⟨27, _⟩ => ⟨S_, .i32⟩
  | .hbm, ⟨28, _⟩ => ⟨S_, .f32⟩
  | .hbm, ⟨29, _⟩ => ⟨S4x32, .f32⟩
  | .hbm, ⟨30, _⟩ => ⟨S128x1, .f32⟩
  | .hbm, ⟨31, _⟩ => ⟨S9x24x64, .f32⟩
  | .hbm, ⟨32, _⟩ => ⟨S_, .i32⟩
  | .hbm, ⟨33, _⟩ => ⟨S_, .f32⟩
  | .hbm, ⟨34, _⟩ => ⟨S9x32x64, .f32⟩
  | .hbm, ⟨35, _⟩ => ⟨S288x64, .f32⟩
  | .hbm, ⟨36, _⟩ => ⟨S64x288, .f32⟩
  | .hbm, ⟨37, _⟩ => ⟨S64x288, .bf16⟩
  | .hbm, ⟨38, _⟩ => ⟨S64x1, .f32⟩
  | .hbm, ⟨39, _⟩ => ⟨S120x256, .f32⟩
  | .hbm, ⟨40, _⟩ => ⟨S120x256, .bf16⟩
  | .hbm, ⟨41, _⟩ => ⟨S120x1, .f32⟩
  | .hbm, ⟨42, _⟩ => ⟨S84x120, .f32⟩
  | .hbm, ⟨43, _⟩ => ⟨S84x120, .bf16⟩
  | .hbm, ⟨44, _⟩ => ⟨S84x1, .f32⟩
  | .hbm, ⟨45, _⟩ => ⟨S128x84, .f32⟩
  | .hbm, ⟨46, _⟩ => ⟨S128x84, .bf16⟩
  | .hbm, ⟨47, _⟩ => ⟨S128x1, .f32⟩
  | .hbm, ⟨48, _⟩ => ⟨S128x16384, .f32⟩
  | .hbm, ⟨49, _⟩ => ⟨S16384x128, .f32⟩
  | .hbm, ⟨50, _⟩ => ⟨S16384x10, .f32⟩
  | .local _ .vmem, ⟨0, _⟩ => ⟨S7x7x16x256, .bf16⟩
  | .local _ .vmem, ⟨1, _⟩ => ⟨S7x7x16x256, .bf16⟩
  | .local _ .vmem, ⟨2, _⟩ => ⟨S128x64, .bf16⟩
  | .local _ .vmem, ⟨3, _⟩ => ⟨S128x1, .f32⟩
  | .local _ .vmem, ⟨4, _⟩ => ⟨S64x288, .bf16⟩
  | .local _ .vmem, ⟨5, _⟩ => ⟨S64x1, .f32⟩
  | .local _ .vmem, ⟨6, _⟩ => ⟨S120x256, .bf16⟩
  | .local _ .vmem, ⟨7, _⟩ => ⟨S120x1, .f32⟩
  | .local _ .vmem, ⟨8, _⟩ => ⟨S84x120, .bf16⟩
  | .local _ .vmem, ⟨9, _⟩ => ⟨S84x1, .f32⟩
  | .local _ .vmem, ⟨10, _⟩ => ⟨S128x84, .bf16⟩
  | .local _ .vmem, ⟨11, _⟩ => ⟨S128x1, .f32⟩
  | .local _ .vmem, ⟨12, _⟩ => ⟨S128x256, .f32⟩
  | .local _ .vmem, ⟨13, _⟩ => ⟨S128x256, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x7x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S120x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S120x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S84x120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S84x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x84 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S16384x1x28x28_S16384x28x28 : S16384x1x28x28.ShapeCasts S16384x28x28
  shapeCasts_S16384x28x28_S16384x7x4x7x4 : S16384x28x28.ShapeCasts S16384x7x4x7x4
  transposes_S16384x7x4x7x4_S7x7x4x4x16384_1_3_2_4_0 : S16384x7x4x7x4.Transposes [1, 3, 2, 4, 0] S7x7x4x4x16384
  shapeCasts_S7x7x4x4x16384_S7x7x16x16384 : S7x7x4x4x16384.ShapeCasts S7x7x16x16384
  shapeCasts_S64x96_S64x4x4x6 : S64x96.ShapeCasts S64x4x4x6
  transposes_S64x4x4x6_S4x4x6x64_2_1_3_0 : S64x4x4x6.Transposes [2, 1, 3, 0] S4x4x6x64
  shapeCasts_S4x4x6x64_S4x24x64 : S4x4x6x64.ShapeCasts S4x24x64
  pads_S4x24x64_S4x32x64_000_080_000 : S4x24x64.Pads (![0, 0, 0] : Fin 3 → Nat) ![0, 8, 0] ![0, 0, 0] S4x32x64
  h_S_ : 0 < S_.numel
  shapeCasts_S4x32x64_S128x64 : S4x32x64.ShapeCasts S128x64
  shapeCasts_S1x96_S4x4x6 : S1x96.ShapeCasts S4x4x6
  transposes_S4x4x6_S4x4x6_1_0_2 : S4x4x6.Transposes [1, 0, 2] S4x4x6
  shapeCasts_S4x4x6_S4x24 : S4x4x6.ShapeCasts S4x24
  pads_S4x24_S4x32_000_080 : S4x24.Pads (![0, 0] : Fin 2 → Nat) ![0, 8] ![0, 0] S4x32
  shapeCasts_S4x32_S128x1 : S4x32.ShapeCasts S128x1
  shapeCasts_S216x64_S9x24x64 : S216x64.ShapeCasts S9x24x64
  pads_S9x24x64_S9x32x64_000_080_000 : S9x24x64.Pads (![0, 0, 0] : Fin 3 → Nat) ![0, 8, 0] ![0, 0, 0] S9x32x64
  shapeCasts_S9x32x64_S288x64 : S9x32x64.ShapeCasts S288x64
  transposes_S288x64_S64x288_1_0 : S288x64.Transposes [1, 0] S64x288
  shapeCasts_S1x64_S64x1 : S1x64.ShapeCasts S64x1
  transposes_S256x120_S120x256_1_0 : S256x120.Transposes [1, 0] S120x256
  shapeCasts_S1x120_S120x1 : S1x120.ShapeCasts S120x1
  transposes_S120x84_S84x120_1_0 : S120x84.Transposes [1, 0] S84x120
  shapeCasts_S1x84_S84x1 : S1x84.ShapeCasts S84x1
  transposes_S84x128_S128x84_1_0 : S84x128.Transposes [1, 0] S128x84
  shapeCasts_S1x128_S128x1 : S1x128.ShapeCasts S128x1
  inb_S7x7x16x256_S7x7x16x256_0_0_0_0 : ∀ a, (![0, 0, 0, 0] : Fin 4 → Nat) a + S7x7x16x256.size a ≤ S7x7x16x256.size a
  h_S7x7x16x256 : 0 < S7x7x16x256.numel
  shapeCasts_S7x7x16x256_S7x7x16x256 : S7x7x16x256.ShapeCasts S7x7x16x256
  slices_S7x7x16x256_o0_0_0_0_S1x1x16x256 : S7x7x16x256.Slices ![0, 0, 0, 0] S1x1x16x256
  shapeCasts_S1x1x16x256_S16x256 : S1x1x16x256.ShapeCasts S16x256
  slices_S7x7x16x256_o0_1_0_0_S1x1x16x256 : S7x7x16x256.Slices ![0, 1, 0, 0] S1x1x16x256
  slices_S7x7x16x256_o0_2_0_0_S1x1x16x256 : S7x7x16x256.Slices ![0, 2, 0, 0] S1x1x16x256
  slices_S7x7x16x256_o0_3_0_0_S1x1x16x256 : S7x7x16x256.Slices ![0, 3, 0, 0] S1x1x16x256
  slices_S7x7x16x256_o0_4_0_0_S1x1x16x256 : S7x7x16x256.Slices ![0, 4, 0, 0] S1x1x16x256
  slices_S7x7x16x256_o0_5_0_0_S1x1x16x256 : S7x7x16x256.Slices ![0, 5, 0, 0] S1x1x16x256
  slices_S7x7x16x256_o1_0_0_0_S1x1x16x256 : S7x7x16x256.Slices ![1, 0, 0, 0] S1x1x16x256
  slices_S7x7x16x256_o1_1_0_0_S1x1x16x256 : S7x7x16x256.Slices ![1, 1, 0, 0] S1x1x16x256
  slices_S7x7x16x256_o1_2_0_0_S1x1x16x256 : S7x7x16x256.Slices ![1, 2, 0, 0] S1x1x16x256
  slices_S7x7x16x256_o1_3_0_0_S1x1x16x256 : S7x7x16x256.Slices ![1, 3, 0, 0] S1x1x16x256
  slices_S7x7x16x256_o1_4_0_0_S1x1x16x256 : S7x7x16x256.Slices ![1, 4, 0, 0] S1x1x16x256
  slices_S7x7x16x256_o1_5_0_0_S1x1x16x256 : S7x7x16x256.Slices ![1, 5, 0, 0] S1x1x16x256
  slices_S7x7x16x256_o2_0_0_0_S1x1x16x256 : S7x7x16x256.Slices ![2, 0, 0, 0] S1x1x16x256
  slices_S7x7x16x256_o2_1_0_0_S1x1x16x256 : S7x7x16x256.Slices ![2, 1, 0, 0] S1x1x16x256
  slices_S7x7x16x256_o2_2_0_0_S1x1x16x256 : S7x7x16x256.Slices ![2, 2, 0, 0] S1x1x16x256
  slices_S7x7x16x256_o2_3_0_0_S1x1x16x256 : S7x7x16x256.Slices ![2, 3, 0, 0] S1x1x16x256
  slices_S7x7x16x256_o2_4_0_0_S1x1x16x256 : S7x7x16x256.Slices ![2, 4, 0, 0] S1x1x16x256
  slices_S7x7x16x256_o2_5_0_0_S1x1x16x256 : S7x7x16x256.Slices ![2, 5, 0, 0] S1x1x16x256
  slices_S7x7x16x256_o3_0_0_0_S1x1x16x256 : S7x7x16x256.Slices ![3, 0, 0, 0] S1x1x16x256
  slices_S7x7x16x256_o3_1_0_0_S1x1x16x256 : S7x7x16x256.Slices ![3, 1, 0, 0] S1x1x16x256
  slices_S7x7x16x256_o3_2_0_0_S1x1x16x256 : S7x7x16x256.Slices ![3, 2, 0, 0] S1x1x16x256
  slices_S7x7x16x256_o3_3_0_0_S1x1x16x256 : S7x7x16x256.Slices ![3, 3, 0, 0] S1x1x16x256
  slices_S7x7x16x256_o3_4_0_0_S1x1x16x256 : S7x7x16x256.Slices ![3, 4, 0, 0] S1x1x16x256
  slices_S7x7x16x256_o3_5_0_0_S1x1x16x256 : S7x7x16x256.Slices ![3, 5, 0, 0] S1x1x16x256
  slices_S7x7x16x256_o4_0_0_0_S1x1x16x256 : S7x7x16x256.Slices ![4, 0, 0, 0] S1x1x16x256
  slices_S7x7x16x256_o4_1_0_0_S1x1x16x256 : S7x7x16x256.Slices ![4, 1, 0, 0] S1x1x16x256
  slices_S7x7x16x256_o4_2_0_0_S1x1x16x256 : S7x7x16x256.Slices ![4, 2, 0, 0] S1x1x16x256
  slices_S7x7x16x256_o4_3_0_0_S1x1x16x256 : S7x7x16x256.Slices ![4, 3, 0, 0] S1x1x16x256
  slices_S7x7x16x256_o4_4_0_0_S1x1x16x256 : S7x7x16x256.Slices ![4, 4, 0, 0] S1x1x16x256
  slices_S7x7x16x256_o4_5_0_0_S1x1x16x256 : S7x7x16x256.Slices ![4, 5, 0, 0] S1x1x16x256
  slices_S7x7x16x256_o5_0_0_0_S1x1x16x256 : S7x7x16x256.Slices ![5, 0, 0, 0] S1x1x16x256
  slices_S7x7x16x256_o5_1_0_0_S1x1x16x256 : S7x7x16x256.Slices ![5, 1, 0, 0] S1x1x16x256
  slices_S7x7x16x256_o5_2_0_0_S1x1x16x256 : S7x7x16x256.Slices ![5, 2, 0, 0] S1x1x16x256
  slices_S7x7x16x256_o5_3_0_0_S1x1x16x256 : S7x7x16x256.Slices ![5, 3, 0, 0] S1x1x16x256
  slices_S7x7x16x256_o5_4_0_0_S1x1x16x256 : S7x7x16x256.Slices ![5, 4, 0, 0] S1x1x16x256
  slices_S7x7x16x256_o5_5_0_0_S1x1x16x256 : S7x7x16x256.Slices ![5, 5, 0, 0] S1x1x16x256
  concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x9216_d1 : Shape.Concatenates (S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: S16x256 :: []) S16x9216 1
  slices_S7x7x16x256_o0_6_0_0_S1x1x16x256 : S7x7x16x256.Slices ![0, 6, 0, 0] S1x1x16x256
  slices_S7x7x16x256_o1_6_0_0_S1x1x16x256 : S7x7x16x256.Slices ![1, 6, 0, 0] S1x1x16x256
  slices_S7x7x16x256_o2_6_0_0_S1x1x16x256 : S7x7x16x256.Slices ![2, 6, 0, 0] S1x1x16x256
  slices_S7x7x16x256_o3_6_0_0_S1x1x16x256 : S7x7x16x256.Slices ![3, 6, 0, 0] S1x1x16x256
  slices_S7x7x16x256_o4_6_0_0_S1x1x16x256 : S7x7x16x256.Slices ![4, 6, 0, 0] S1x1x16x256
  slices_S7x7x16x256_o5_6_0_0_S1x1x16x256 : S7x7x16x256.Slices ![5, 6, 0, 0] S1x1x16x256
  slices_S7x7x16x256_o6_0_0_0_S1x1x16x256 : S7x7x16x256.Slices ![6, 0, 0, 0] S1x1x16x256
  slices_S7x7x16x256_o6_1_0_0_S1x1x16x256 : S7x7x16x256.Slices ![6, 1, 0, 0] S1x1x16x256
  slices_S7x7x16x256_o6_2_0_0_S1x1x16x256 : S7x7x16x256.Slices ![6, 2, 0, 0] S1x1x16x256
  slices_S7x7x16x256_o6_3_0_0_S1x1x16x256 : S7x7x16x256.Slices ![6, 3, 0, 0] S1x1x16x256
  slices_S7x7x16x256_o6_4_0_0_S1x1x16x256 : S7x7x16x256.Slices ![6, 4, 0, 0] S1x1x16x256
  slices_S7x7x16x256_o6_5_0_0_S1x1x16x256 : S7x7x16x256.Slices ![6, 5, 0, 0] S1x1x16x256
  slices_S7x7x16x256_o6_6_0_0_S1x1x16x256 : S7x7x16x256.Slices ![6, 6, 0, 0] S1x1x16x256
  concatenates_S16x9216_S16x9216_S16x9216_S16x9216_S64x9216_d0 : Shape.Concatenates [S16x9216, S16x9216, S16x9216, S16x9216] S64x9216 0
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x9216 : S128x1.Broadcasts S128x9216
  shapeCasts_S128x9216_S4x32x9216 : S128x9216.ShapeCasts S4x32x9216
  slices_S4x32x9216_o0_0_0_S1x32x9216 : S4x32x9216.Slices ![0, 0, 0] S1x32x9216
  shapeCasts_S1x32x9216_S32x9216 : S1x32x9216.ShapeCasts S32x9216
  slices_S4x32x9216_o1_0_0_S1x32x9216 : S4x32x9216.Slices ![1, 0, 0] S1x32x9216
  slices_S4x32x9216_o2_0_0_S1x32x9216 : S4x32x9216.Slices ![2, 0, 0] S1x32x9216
  slices_S4x32x9216_o3_0_0_S1x32x9216 : S4x32x9216.Slices ![3, 0, 0] S1x32x9216
  slices_S32x9216_o0_0_S32x256 : S32x9216.Slices ![0, 0] S32x256
  slices_S32x9216_o0_256_S32x256 : S32x9216.Slices ![0, 256] S32x256
  slices_S32x9216_o0_512_S32x256 : S32x9216.Slices ![0, 512] S32x256
  slices_S32x9216_o0_768_S32x256 : S32x9216.Slices ![0, 768] S32x256
  slices_S32x9216_o0_1536_S32x256 : S32x9216.Slices ![0, 1536] S32x256
  slices_S32x9216_o0_1792_S32x256 : S32x9216.Slices ![0, 1792] S32x256
  slices_S32x9216_o0_2048_S32x256 : S32x9216.Slices ![0, 2048] S32x256
  slices_S32x9216_o0_2304_S32x256 : S32x9216.Slices ![0, 2304] S32x256
  slices_S32x9216_o0_3072_S32x256 : S32x9216.Slices ![0, 3072] S32x256
  slices_S32x9216_o0_3328_S32x256 : S32x9216.Slices ![0, 3328] S32x256
  slices_S32x9216_o0_3584_S32x256 : S32x9216.Slices ![0, 3584] S32x256
  slices_S32x9216_o0_3840_S32x256 : S32x9216.Slices ![0, 3840] S32x256
  slices_S32x9216_o0_4608_S32x256 : S32x9216.Slices ![0, 4608] S32x256
  slices_S32x9216_o0_4864_S32x256 : S32x9216.Slices ![0, 4864] S32x256
  slices_S32x9216_o0_5120_S32x256 : S32x9216.Slices ![0, 5120] S32x256
  slices_S32x9216_o0_5376_S32x256 : S32x9216.Slices ![0, 5376] S32x256
  concatenates_S32x256_S32x256_S32x256_S32x256_S32x256_S32x256_S32x256_S32x256_S32x256_S32x256_S32x256_S32x256_S32x256_S32x256_S32x256_S32x256_S32x4096_d1 : Shape.Concatenates [S32x256, S32x256, S32x256, S32x256, S32x256, S32x256, S32x256, S32x256, S32x256, S32x256, S32x256, S32x256, S32x256, S32x256, S32x256, S32x256] S32x4096 1
  slices_S32x9216_o0_1024_S32x256 : S32x9216.Slices ![0, 1024] S32x256
  slices_S32x9216_o0_2560_S32x256 : S32x9216.Slices ![0, 2560] S32x256
  slices_S32x9216_o0_4096_S32x256 : S32x9216.Slices ![0, 4096] S32x256
  slices_S32x9216_o0_5632_S32x256 : S32x9216.Slices ![0, 5632] S32x256
  slices_S32x9216_o0_1280_S32x256 : S32x9216.Slices ![0, 1280] S32x256
  slices_S32x9216_o0_2816_S32x256 : S32x9216.Slices ![0, 2816] S32x256
  slices_S32x9216_o0_4352_S32x256 : S32x9216.Slices ![0, 4352] S32x256
  slices_S32x9216_o0_5888_S32x256 : S32x9216.Slices ![0, 5888] S32x256
  slices_S32x9216_o0_6144_S32x256 : S32x9216.Slices ![0, 6144] S32x256
  slices_S32x9216_o0_6400_S32x256 : S32x9216.Slices ![0, 6400] S32x256
  slices_S32x9216_o0_6656_S32x256 : S32x9216.Slices ![0, 6656] S32x256
  slices_S32x9216_o0_6912_S32x256 : S32x9216.Slices ![0, 6912] S32x256
  slices_S32x9216_o0_7168_S32x256 : S32x9216.Slices ![0, 7168] S32x256
  slices_S32x9216_o0_7424_S32x256 : S32x9216.Slices ![0, 7424] S32x256
  slices_S32x9216_o0_7680_S32x256 : S32x9216.Slices ![0, 7680] S32x256
  slices_S32x9216_o0_7936_S32x256 : S32x9216.Slices ![0, 7936] S32x256
  slices_S32x9216_o0_8192_S32x256 : S32x9216.Slices ![0, 8192] S32x256
  slices_S32x9216_o0_8448_S32x256 : S32x9216.Slices ![0, 8448] S32x256
  slices_S32x9216_o0_8704_S32x256 : S32x9216.Slices ![0, 8704] S32x256
  slices_S32x9216_o0_8960_S32x256 : S32x9216.Slices ![0, 8960] S32x256
  concatenates_S32x4096_S32x4096_S32x4096_S32x4096_S32x4096_S32x4096_S32x4096_S32x4096_S32x4096_S288x4096_d0 : Shape.Concatenates [S32x4096, S32x4096, S32x4096, S32x4096, S32x4096, S32x4096, S32x4096, S32x4096, S32x4096] S288x4096 0
  inb_S64x288_S64x288_0_0 : ∀ a, (![0, 0] : Fin 2 → Nat) a + S64x288.size a ≤ S64x288.size a
  h_S64x288 : 0 < S64x288.numel
  shapeCasts_S64x288_S64x288 : S64x288.ShapeCasts S64x288
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  shapeCasts_S64x4096_S4x16x4096 : S64x4096.ShapeCasts S4x16x4096
  slices_S4x16x4096_o0_0_0_S1x16x4096 : S4x16x4096.Slices ![0, 0, 0] S1x16x4096
  shapeCasts_S1x16x4096_S16x4096 : S1x16x4096.ShapeCasts S16x4096
  slices_S4x16x4096_o1_0_0_S1x16x4096 : S4x16x4096.Slices ![1, 0, 0] S1x16x4096
  slices_S4x16x4096_o2_0_0_S1x16x4096 : S4x16x4096.Slices ![2, 0, 0] S1x16x4096
  slices_S4x16x4096_o3_0_0_S1x16x4096 : S4x16x4096.Slices ![3, 0, 0] S1x16x4096
  slices_S16x4096_o0_0_S16x256 : S16x4096.Slices ![0, 0] S16x256
  slices_S16x4096_o0_256_S16x256 : S16x4096.Slices ![0, 256] S16x256
  slices_S16x4096_o0_512_S16x256 : S16x4096.Slices ![0, 512] S16x256
  slices_S16x4096_o0_768_S16x256 : S16x4096.Slices ![0, 768] S16x256
  slices_S16x4096_o0_1024_S16x256 : S16x4096.Slices ![0, 1024] S16x256
  slices_S16x4096_o0_1280_S16x256 : S16x4096.Slices ![0, 1280] S16x256
  slices_S16x4096_o0_1536_S16x256 : S16x4096.Slices ![0, 1536] S16x256
  slices_S16x4096_o0_1792_S16x256 : S16x4096.Slices ![0, 1792] S16x256
  slices_S16x4096_o0_2048_S16x256 : S16x4096.Slices ![0, 2048] S16x256
  slices_S16x4096_o0_2304_S16x256 : S16x4096.Slices ![0, 2304] S16x256
  slices_S16x4096_o0_2560_S16x256 : S16x4096.Slices ![0, 2560] S16x256
  slices_S16x4096_o0_2816_S16x256 : S16x4096.Slices ![0, 2816] S16x256
  slices_S16x4096_o0_3072_S16x256 : S16x4096.Slices ![0, 3072] S16x256
  slices_S16x4096_o0_3328_S16x256 : S16x4096.Slices ![0, 3328] S16x256
  slices_S16x4096_o0_3584_S16x256 : S16x4096.Slices ![0, 3584] S16x256
  slices_S16x4096_o0_3840_S16x256 : S16x4096.Slices ![0, 3840] S16x256
  concatenates_S16x256_S16x256_S16x256_S16x256_S16x256_S16x256_S16x256_S16x256_S16x256_S16x256_S16x256_S16x256_S16x256_S16x256_S16x256_S16x256_S256x256_d0 : Shape.Concatenates [S16x256, S16x256, S16x256, S16x256, S16x256, S16x256, S16x256, S16x256, S16x256, S16x256, S16x256, S16x256, S16x256, S16x256, S16x256, S16x256] S256x256 0
  inb_S120x256_S120x256_0_0 : ∀ a, (![0, 0] : Fin 2 → Nat) a + S120x256.size a ≤ S120x256.size a
  h_S120x256 : 0 < S120x256.numel
  shapeCasts_S120x256_S120x256 : S120x256.ShapeCasts S120x256
  inb_S120x1_S120x1_0_0 : ∀ a, (![0, 0] : Fin 2 → Nat) a + S120x1.size a ≤ S120x1.size a
  h_S120x1 : 0 < S120x1.numel
  shapeCasts_S120x1_S120x1 : S120x1.ShapeCasts S120x1
  broadcasts_S120x1_S120x256 : S120x1.Broadcasts S120x256
  inb_S84x120_S84x120_0_0 : ∀ a, (![0, 0] : Fin 2 → Nat) a + S84x120.size a ≤ S84x120.size a
  h_S84x120 : 0 < S84x120.numel
  shapeCasts_S84x120_S84x120 : S84x120.ShapeCasts S84x120
  inb_S84x1_S84x1_0_0 : ∀ a, (![0, 0] : Fin 2 → Nat) a + S84x1.size a ≤ S84x1.size a
  h_S84x1 : 0 < S84x1.numel
  shapeCasts_S84x1_S84x1 : S84x1.ShapeCasts S84x1
  broadcasts_S84x1_S84x256 : S84x1.Broadcasts S84x256
  inb_S128x84_S128x84_0_0 : ∀ a, (![0, 0] : Fin 2 → Nat) a + S128x84.size a ≤ S128x84.size a
  h_S128x84 : 0 < S128x84.numel
  shapeCasts_S128x84_S128x84 : S128x84.ShapeCasts S128x84
  broadcasts_S128x1_S128x256 : S128x1.Broadcasts S128x256
  inb_S128x256_S128x256_0_0 : ∀ a, (![0, 0] : Fin 2 → Nat) a + S128x256.size a ≤ S128x256.size a
  h_S128x256 : 0 < S128x256.numel
  transposes_S128x16384_S16384x128_1_0 : S128x16384.Transposes [1, 0] S16384x128
  slices_S16384x128_S16384x10_0_0 : S16384x128.Slices ![0, 0] S16384x10
  dot_S128x64_S64x9216_S128x9216_1_0_0_1_n_n_wf : DotDims.WF S128x64 S64x9216 S128x9216 [1] [0] [0] [1] [] []
  dot_S64x288_S288x4096_S64x4096_1_0_0_1_n_n_wf : DotDims.WF S64x288 S288x4096 S64x4096 [1] [0] [0] [1] [] []
  dot_S120x256_S256x256_S120x256_1_0_0_1_n_n_wf : DotDims.WF S120x256 S256x256 S120x256 [1] [0] [0] [1] [] []
  dot_S84x120_S120x256_S84x256_1_0_0_1_n_n_wf : DotDims.WF S84x120 S120x256 S84x256 [1] [0] [0] [1] [] []
  dot_S128x84_S84x256_S128x256_1_0_0_1_n_n_wf : DotDims.WF S128x84 S84x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x16x256.size a ≤ S7x7x16x16384.size a
  hwx0_0 : ∀ i : grid0.Coords, EltTy.bits .bf16 = 32 ∨ (Rect.block (s := S7x7x16x16384) S7x7x16x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x288.size a ≤ S64x288.size a
  hwx0_3 : ∀ i : grid0.Coords, EltTy.bits .bf16 = 32 ∨ (Rect.block (s := S64x288) S64x288.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S120x256.size a ≤ S120x256.size a
  hwx0_5 : ∀ i : grid0.Coords, EltTy.bits .bf16 = 32 ∨ (Rect.block (s := S120x256) S120x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S120x1.size a ≤ S120x1.size a
  hwx0_6 : ∀ i : grid0.Coords, EltTy.bits .f32 = 32 ∨ (Rect.block (s := S120x1) S120x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S84x120.size a ≤ S84x120.size a
  hwx0_7 : ∀ i : grid0.Coords, EltTy.bits .bf16 = 32 ∨ (Rect.block (s := S84x120) S84x120.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S84x1.size a ≤ S84x1.size a
  hwx0_8 : ∀ i : grid0.Coords, EltTy.bits .f32 = 32 ∨ (Rect.block (s := S84x1) S84x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x84.size a ≤ S128x84.size a
  hwx0_9 : ∀ i : grid0.Coords, EltTy.bits .bf16 = 32 ∨ (Rect.block (s := S128x84) S128x84.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S128x16384.size a
  hwx0_11 : ∀ i : grid0.Coords, EltTy.bits .f32 = 32 ∨ (Rect.block (s := S128x16384) S128x256.size (cc0_transform_11 i) (hinb0_11 i)).WholeWords (EltTy.packing .f32)

variable [Facts₀]

def dot_S128x64_S64x9216_S128x9216_1_0_0_1_n_n : DotDims S128x64 S64x9216 S128x9216 where
  lhsContracting := [1]
  rhsContracting := [0]
  lhsNonContracting := [0]
  rhsNonContracting := [1]
  lhsBatch := []
  rhsBatch := []
  wf := dot_S128x64_S64x9216_S128x9216_1_0_0_1_n_n_wf
def dot_S64x288_S288x4096_S64x4096_1_0_0_1_n_n : DotDims S64x288 S288x4096 S64x4096 where
  lhsContracting := [1]
  rhsContracting := [0]
  lhsNonContracting := [0]
  rhsNonContracting := [1]
  lhsBatch := []
  rhsBatch := []
  wf := dot_S64x288_S288x4096_S64x4096_1_0_0_1_n_n_wf
def dot_S120x256_S256x256_S120x256_1_0_0_1_n_n : DotDims S120x256 S256x256 S120x256 where
  lhsContracting := [1]
  rhsContracting := [0]
  lhsNonContracting := [0]
  rhsNonContracting := [1]
  lhsBatch := []
  rhsBatch := []
  wf := dot_S120x256_S256x256_S120x256_1_0_0_1_n_n_wf
def dot_S84x120_S120x256_S84x256_1_0_0_1_n_n : DotDims S84x120 S120x256 S84x256 where
  lhsContracting := [1]
  rhsContracting := [0]
  lhsNonContracting := [0]
  rhsNonContracting := [1]
  lhsBatch := []
  rhsBatch := []
  wf := dot_S84x120_S120x256_S84x256_1_0_0_1_n_n_wf
def dot_S128x84_S84x256_S128x256_1_0_0_1_n_n : DotDims S128x84 S84x256 S128x256 where
  lhsContracting := [1]
  rhsContracting := [0]
  lhsNonContracting := [0]
  rhsNonContracting := [1]
  lhsBatch := []
  rhsBatch := []
  wf := dot_S128x84_S84x256_S128x256_1_0_0_1_n_n_wf

abbrev win0_0 : Pipeline.Window sig grid0 :=
  Pipeline.Window.ofSpec (Memref.whole main_v4) S7x7x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S120x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S120x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S84x120.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S84x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S128x84.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S128x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S64x96 : Shape := ⟨2, ![64, 96]⟩
abbrev S1x96 : Shape := ⟨2, ![1, 96]⟩
abbrev S216x64 : Shape := ⟨2, ![216, 64]⟩
abbrev S1x64 : Shape := ⟨2, ![1, 64]⟩
abbrev S256x120 : Shape := ⟨2, ![256, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S_ : Shape := ⟨0, ![]⟩
abbrev S16384x7x4x7x4 : Shape := ⟨5, ![16384, 7, 4, 7, 4]⟩
abbrev S7x7x16384x4x4 : Shape := ⟨5, ![7, 7, 16384, 4, 4]⟩
abbrev S7x7x16384x16 : Shape := ⟨4, ![7, 7, 16384, 16]⟩
abbrev S16384x128 : Shape := ⟨2, ![16384, 128]⟩
abbrev S7x7x8x16 : Shape := ⟨4, ![7, 7, 8, 16]⟩
abbrev S8x128 : Shape := ⟨2, ![8, 128]⟩
abbrev S6x6x8x16 : Shape := ⟨4, ![6, 6, 8, 16]⟩
abbrev S6x6x8x64 : Shape := ⟨4, ![6, 6, 8, 64]⟩
abbrev S288x64 : Shape := ⟨2, ![288, 64]⟩
abbrev S288x96 : Shape := ⟨2, ![288, 96]⟩
abbrev S288x6 : Shape := ⟨2, ![288, 6]⟩
abbrev S288x24 : Shape := ⟨2, ![288, 24]⟩
abbrev S6x6x8x24 : Shape := ⟨4, ![6, 6, 8, 24]⟩
abbrev S4x4x8x24 : Shape := ⟨4, ![4, 4, 8, 24]⟩
abbrev S4x4x8x216 : Shape := ⟨4, ![4, 4, 8, 216]⟩
abbrev S128x216 : Shape := ⟨2, ![128, 216]⟩
abbrev S128x64 : Shape := ⟨2, ![128, 64]⟩
abbrev S128x16 : Shape := ⟨2, ![128, 16]⟩
abbrev S16x8x16 : Shape := ⟨3, ![16, 8, 16]⟩
abbrev S1x8x16 : Shape := ⟨3, ![1, 8, 16]⟩
abbrev S8x16 : Shape := ⟨2, ![8, 16]⟩
abbrev S8x256 : Shape := ⟨2, ![8, 256]⟩
abbrev S8x120 : Shape := ⟨2, ![8, 120]⟩
abbrev S8x84 : Shape := ⟨2, ![8, 84]⟩
abbrev S16384x10 : Shape := ⟨2, ![16384, 10]⟩

abbrev nBuf : Space → Nat
  | .hbm => 19
  | .vmem => 14
  | .smem => 0
  | _ => 0

abbrev bufTy : (tb : Table) → Fin (tcTables nBuf tb) → BufTy
  | .hbm, ⟨0, _⟩ => ⟨S16384x1x28x28, .f32⟩
  | .hbm, ⟨1, _⟩ => ⟨S64x96, .f32⟩
  | .hbm, ⟨2, _⟩ => ⟨S1x96, .f32⟩
  | .hbm, ⟨3, _⟩ => ⟨S216x64, .f32⟩
  | .hbm, ⟨4, _⟩ => ⟨S1x64, .f32⟩
  | .hbm, ⟨5, _⟩ => ⟨S256x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S16384x1x28x28, .f32⟩
  | .hbm, ⟨14, _⟩ => ⟨S16384x7x4x7x4, .f32⟩
  | .hbm, ⟨15, _⟩ => ⟨S7x7x16384x4x4, .f32⟩
  | .hbm, ⟨16, _⟩ => ⟨S7x7x16384x16, .f32⟩
  | .hbm, ⟨17, _⟩ => ⟨S16384x128, .f32⟩
  | .hbm, ⟨18, _⟩ => ⟨S16384x10, .f32⟩
  | .local _ .vmem, ⟨0, _⟩ => ⟨S7x7x8x16, .f32⟩
  | .local _ .vmem, ⟨1, _⟩ => ⟨S7x7x8x16, .f32⟩
  | .local _ .vmem, ⟨2, _⟩ => ⟨S64x96, .f32⟩
  | .local _ .vmem, ⟨3, _⟩ => ⟨S1x96, .f32⟩
  | .local _ .vmem, ⟨4, _⟩ => ⟨S216x64, .f32⟩
  | .local _ .vmem, ⟨5, _⟩ => ⟨S1x64, .f32⟩
  | .local _ .vmem, ⟨6, _⟩ => ⟨S256x120, .f32⟩
  | .local _ .vmem, ⟨7, _⟩ => ⟨S1x120, .f32⟩
  | .local _ .vmem, ⟨8, _⟩ => ⟨S120x84, .f32⟩
  | .local _ .vmem, ⟨9, _⟩ => ⟨S1x84, .f32⟩
  | .local _ .vmem, ⟨10, _⟩ => ⟨S84x128, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![2048], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S216x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  pads_S16384x1x28x28_S16384x1x28x28_000_000_000_000 : S16384x1x28x28.Pads (![0, 0, 0, 0] : Fin 4 → Nat) ![0, 0, 0, 0] ![0, 0, 0, 0] S16384x1x28x28
  h_S_ : 0 < S_.numel
  shapeCasts_S16384x1x28x28_S16384x7x4x7x4 : S16384x1x28x28.ShapeCasts S16384x7x4x7x4
  transposes_S16384x7x4x7x4_S7x7x16384x4x4_1_3_0_2_4 : S16384x7x4x7x4.Transposes [1, 3, 0, 2, 4] S7x7x16384x4x4
  shapeCasts_S7x7x16384x4x4_S7x7x16384x16 : S7x7x16384x4x4.ShapeCasts S7x7x16384x16
  inb_S7x7x8x16_S7x7x8x16_0_0_0_0 : ∀ a, (![0, 0, 0, 0] : Fin 4 → Nat) a + S7x7x8x16.size a ≤ S7x7x8x16.size a
  h_S7x7x8x16 : 0 < S7x7x8x16.numel
  shapeCasts_S7x7x8x16_S7x7x8x16 : S7x7x8x16.ShapeCasts S7x7x8x16
  slices_S7x7x8x16_o0_0_0_0_S6x6x8x16 : S7x7x8x16.Slices ![0, 0, 0, 0] S6x6x8x16
  slices_S7x7x8x16_o0_1_0_0_S6x6x8x16 : S7x7x8x16.Slices ![0, 1, 0, 0] S6x6x8x16
  slices_S7x7x8x16_o1_0_0_0_S6x6x8x16 : S7x7x8x16.Slices ![1, 0, 0, 0] S6x6x8x16
  slices_S7x7x8x16_o1_1_0_0_S6x6x8x16 : S7x7x8x16.Slices ![1, 1, 0, 0] S6x6x8x16
  concatenates_S6x6x8x16_S6x6x8x16_S6x6x8x16_S6x6x8x16_S6x6x8x64_d3 : Shape.Concatenates [S6x6x8x16, S6x6x8x16, S6x6x8x16, S6x6x8x16] S6x6x8x64 3
  shapeCasts_S6x6x8x64_S288x64 : S6x6x8x64.ShapeCasts S288x64
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  broadcasts_S1x96_S288x96 : S1x96.Broadcasts S288x96
  slices_S288x96_o0_0_S288x6 : S288x96.Slices ![0, 0] S288x6
  slices_S288x96_o0_6_S288x6 : S288x96.Slices ![0, 6] S288x6
  slices_S288x96_o0_12_S288x6 : S288x96.Slices ![0, 12] S288x6
  slices_S288x96_o0_18_S288x6 : S288x96.Slices ![0, 18] S288x6
  slices_S288x96_o0_24_S288x6 : S288x96.Slices ![0, 24] S288x6
  slices_S288x96_o0_30_S288x6 : S288x96.Slices ![0, 30] S288x6
  slices_S288x96_o0_36_S288x6 : S288x96.Slices ![0, 36] S288x6
  slices_S288x96_o0_42_S288x6 : S288x96.Slices ![0, 42] S288x6
  slices_S288x96_o0_48_S288x6 : S288x96.Slices ![0, 48] S288x6
  slices_S288x96_o0_54_S288x6 : S288x96.Slices ![0, 54] S288x6
  slices_S288x96_o0_60_S288x6 : S288x96.Slices ![0, 60] S288x6
  slices_S288x96_o0_66_S288x6 : S288x96.Slices ![0, 66] S288x6
  slices_S288x96_o0_72_S288x6 : S288x96.Slices ![0, 72] S288x6
  slices_S288x96_o0_78_S288x6 : S288x96.Slices ![0, 78] S288x6
  slices_S288x96_o0_84_S288x6 : S288x96.Slices ![0, 84] S288x6
  slices_S288x96_o0_90_S288x6 : S288x96.Slices ![0, 90] S288x6
  concatenates_S288x6_S288x6_S288x6_S288x6_S288x24_d1 : Shape.Concatenates [S288x6, S288x6, S288x6, S288x6] S288x24 1
  shapeCasts_S288x24_S6x6x8x24 : S288x24.ShapeCasts S6x6x8x24
  slices_S6x6x8x24_o0_0_0_0_S4x4x8x24 : S6x6x8x24.Slices ![0, 0, 0, 0] S4x4x8x24
  slices_S6x6x8x24_o0_1_0_0_S4x4x8x24 : S6x6x8x24.Slices ![0, 1, 0, 0] S4x4x8x24
  slices_S6x6x8x24_o0_2_0_0_S4x4x8x24 : S6x6x8x24.Slices ![0, 2, 0, 0] S4x4x8x24
  slices_S6x6x8x24_o1_0_0_0_S4x4x8x24 : S6x6x8x24.Slices ![1, 0, 0, 0] S4x4x8x24
  slices_S6x6x8x24_o1_1_0_0_S4x4x8x24 : S6x6x8x24.Slices ![1, 1, 0, 0] S4x4x8x24
  slices_S6x6x8x24_o1_2_0_0_S4x4x8x24 : S6x6x8x24.Slices ![1, 2, 0, 0] S4x4x8x24
  slices_S6x6x8x24_o2_0_0_0_S4x4x8x24 : S6x6x8x24.Slices ![2, 0, 0, 0] S4x4x8x24
  slices_S6x6x8x24_o2_1_0_0_S4x4x8x24 : S6x6x8x24.Slices ![2, 1, 0, 0] S4x4x8x24
  slices_S6x6x8x24_o2_2_0_0_S4x4x8x24 : S6x6x8x24.Slices ![2, 2, 0, 0] S4x4x8x24
  concatenates_S4x4x8x24_S4x4x8x24_S4x4x8x24_S4x4x8x24_S4x4x8x24_S4x4x8x24_S4x4x8x24_S4x4x8x24_S4x4x8x24_S4x4x8x216_d3 : Shape.Concatenates [S4x4x8x24, S4x4x8x24, S4x4x8x24, S4x4x8x24, S4x4x8x24, S4x4x8x24, S4x4x8x24, S4x4x8x24, S4x4x8x24] S4x4x8x216 3
  shapeCasts_S4x4x8x216_S128x216 : S4x4x8x216.ShapeCasts S128x216
  inb_S216x64_S216x64_0_0 : ∀ a, (![0, 0] : Fin 2 → Nat) a + S216x64.size a ≤ S216x64.size a
  h_S216x64 : 0 < S216x64.numel
  inb_S1x64_S1x64_0_0 : ∀ a, (![0, 0] : Fin 2 → Nat) a + S1x64.size a ≤ S1x64.size a
  h_S1x64 : 0 < S1x64.numel
  broadcasts_S1x64_S128x64 : S1x64.Broadcasts S128x64
  slices_S128x64_o0_0_S128x16 : S128x64.Slices ![0, 0] S128x16
  slices_S128x64_o0_16_S128x16 : S128x64.Slices ![0, 16] S128x16
  slices_S128x64_o0_32_S128x16 : S128x64.Slices ![0, 32] S128x16
  slices_S128x64_o0_48_S128x16 : S128x64.Slices ![0, 48] S128x16
  shapeCasts_S128x16_S16x8x16 : S128x16.ShapeCasts S16x8x16
  slices_S16x8x16_o0_0_0_S1x8x16 : S16x8x16.Slices ![0, 0, 0] S1x8x16
  shapeCasts_S1x8x16_S8x16 : S1x8x16.ShapeCasts S8x16
  slices_S16x8x16_o1_0_0_S1x8x16 : S16x8x16.Slices ![1, 0, 0] S1x8x16
  slices_S16x8x16_o2_0_0_S1x8x16 : S16x8x16.Slices ![2, 0, 0] S1x8x16
  slices_S16x8x16_o3_0_0_S1x8x16 : S16x8x16.Slices ![3, 0, 0] S1x8x16
  slices_S16x8x16_o4_0_0_S1x8x16 : S16x8x16.Slices ![4, 0, 0] S1x8x16
  slices_S16x8x16_o5_0_0_S1x8x16 : S16x8x16.Slices ![5, 0, 0] S1x8x16
  slices_S16x8x16_o6_0_0_S1x8x16 : S16x8x16.Slices ![6, 0, 0] S1x8x16
  slices_S16x8x16_o7_0_0_S1x8x16 : S16x8x16.Slices ![7, 0, 0] S1x8x16
  slices_S16x8x16_o8_0_0_S1x8x16 : S16x8x16.Slices ![8, 0, 0] S1x8x16
  slices_S16x8x16_o9_0_0_S1x8x16 : S16x8x16.Slices ![9, 0, 0] S1x8x16
  slices_S16x8x16_o10_0_0_S1x8x16 : S16x8x16.Slices ![10, 0, 0] S1x8x16
  slices_S16x8x16_o11_0_0_S1x8x16 : S16x8x16.Slices ![11, 0, 0] S1x8x16
  slices_S16x8x16_o12_0_0_S1x8x16 : S16x8x16.Slices ![12, 0, 0] S1x8x16
  slices_S16x8x16_o13_0_0_S1x8x16 : S16x8x16.Slices ![13, 0, 0] S1x8x16
  slices_S16x8x16_o14_0_0_S1x8x16 : S16x8x16.Slices ![14, 0, 0] S1x8x16
  slices_S16x8x16_o15_0_0_S1x8x16 : S16x8x16.Slices ![15, 0, 0] S1x8x16
  concatenates_S8x16_S8x16_S8x16_S8x16_S8x16_S8x16_S8x16_S8x16_S8x16_S8x16_S8x16_S8x16_S8x16_S8x16_S8x16_S8x16_S8x256_d1 : Shape.Concatenates [S8x16, S8x16, S8x16, S8x16, S8x16, S8x16, S8x16, S8x16, S8x16, S8x16, S8x16, S8x16, S8x16, S8x16, S8x16, S8x16] S8x256 1
  inb_S256x120_S256x120_0_0 : ∀ a, (![0, 0] : Fin 2 → Nat) a + S256x120.size a ≤ S256x120.size a
  h_S256x120 : 0 < S256x120.numel
  inb_S1x120_S1x120_0_0 : ∀ a, (![0, 0] : Fin 2 → Nat) a + S1x120.size a ≤ S1x120.size a
  h_S1x120 : 0 < S1x120.numel
  broadcasts_S1x120_S8x120 : S1x120.Broadcasts S8x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S8x84 : S1x84.Broadcasts S8x84
  inb_S84x128_S84x128_0_0 : ∀ a, (![0, 0] : Fin 2 → Nat) a + S84x128.size a ≤ S84x128.size a
  h_S84x128 : 0 < S84x128.numel
  inb_S1x128_S1x128_0_0 : ∀ a, (![0, 0] : Fin 2 → Nat) a + S1x128.size a ≤ S1x128.size a
  h_S1x128 : 0 < S1x128.numel
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16384x128_S16384x10_0_0 : S16384x128.Slices ![0, 0] S16384x10
  dot_S288x64_S64x96_S288x96_1_0_0_1_n_n_wf : DotDims.WF S288x64 S64x96 S288x96 [1] [0] [0] [1] [] []
  dot_S128x216_S216x64_S128x64_1_0_0_1_n_n_wf : DotDims.WF S128x216 S216x64 S128x64 [1] [0] [0] [1] [] []
  dot_S8x256_S256x120_S8x120_1_0_0_1_n_n_wf : DotDims.WF S8x256 S256x120 S8x120 [1] [0] [0] [1] [] []
  dot_S8x120_S120x84_S8x84_1_0_0_1_n_n_wf : DotDims.WF S8x120 S120x84 S8x84 [1] [0] [0] [1] [] []
  dot_S8x84_S84x128_S8x128_1_0_0_1_n_n_wf : DotDims.WF S8x84 S84x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x8x16.size a ≤ S7x7x16384x16.size a
  hwx0_0 : ∀ i : grid0.Coords, EltTy.bits .f32 = 32 ∨ (Rect.block (s := S7x7x16384x16) S7x7x8x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S216x64.size a ≤ S216x64.size a
  hwx0_3 : ∀ i : grid0.Coords, EltTy.bits .f32 = 32 ∨ (Rect.block (s := S216x64) S216x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x120.size a ≤ S256x120.size a
  hwx0_5 : ∀ i : grid0.Coords, EltTy.bits .f32 = 32 ∨ (Rect.block (s := S256x120) S256x120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .f32 = 32 ∨ (Rect.block (s := S120x84) S120x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .f32 = 32 ∨ (Rect.block (s := S84x128) S84x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S16384x128.size a
  hwx0_11 : ∀ i : grid0.Coords, EltTy.bits .f32 = 32 ∨ (Rect.block (s := S16384x128) S8x128.size (cc0_transform_11 i) (hinb0_11 i)).WholeWords (EltTy.packing .f32)

variable [Facts₀]

def dot_S288x64_S64x96_S288x96_1_0_0_1_n_n : DotDims S288x64 S64x96 S288x96 where
  lhsContracting := [1]
  rhsContracting := [0]
  lhsNonContracting := [0]
  rhsNonContracting := [1]
  lhsBatch := []
  rhsBatch := []
  wf := dot_S288x64_S64x96_S288x96_1_0_0_1_n_n_wf
def dot_S128x216_S216x64_S128x64_1_0_0_1_n_n : DotDims S128x216 S216x64 S128x64 where
  lhsContracting := [1]
  rhsContracting := [0]
  lhsNonContracting := [0]
  rhsNonContracting := [1]
  lhsBatch := []
  rhsBatch := []
  wf := dot_S128x216_S216x64_S128x64_1_0_0_1_n_n_wf
def dot_S8x256_S256x120_S8x120_1_0_0_1_n_n : DotDims S8x256 S256x120 S8x120 where
  lhsContracting := [1]
  rhsContracting := [0]
  lhsNonContracting := [0]
  rhsNonContracting := [1]
  lhsBatch := []
  rhsBatch := []
  wf := dot_S8x256_S256x120_S8x120_1_0_0_1_n_n_wf
def dot_S8x120_S120x84_S8x84_1_0_0_1_n_n : DotDims S8x120 S120x84 S8x84 where
  lhsContracting := [1]
  rhsContracting := [0]
  lhsNonContracting := [0]
  rhsNonContracting := [1]
  lhsBatch := []
  rhsBatch := []
  wf := dot_S8x120_S120x84_S8x84_1_0_0_1_n_n_wf
def dot_S8x84_S84x128_S8x128_1_0_0_1_n_n : DotDims S8x84 S84x128 S8x128 where
  lhsContracting := [1]
  rhsContracting := [0]
  lhsNonContracting := [0]
  rhsNonContracting := [1]
  lhsBatch := []
  rhsBatch := []
  wf := dot_S8x84_S84x128_S8x128_1_0_0_1_n_n_wf

abbrev win0_0 : Pipeline.Window sig grid0 :=
  Pipeline.Window.ofSpec (Memref.whole main_v3) S7x7x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S216x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S8x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  LeNet-5 on one 28×28 image, as a function of the image and the packed weights, on the extended reals.

  The image is read in 4×4 tiles: tile (hh, ww) holds the sixteen pixels (4hh + t / 4, 4ww + t % 4), t < 16.
  First convolution: a 6×6 grid of output blocks (ph, pw); block (ph, pw) sees the 8×8 pixels of the four tiles
  (ph + u, pw + v), u, v < 2, as 64 taps k = (2u + v)·16 + t, and the packed matrix w1 [64, 96] gives, for column
  g·24 + d·6 + co, the value at pooled pixel g < 4 of the block, position d < 4 inside the 2×2 pooling window, channel
  co < 6. Pooling takes the maximum over d, then the rectifier. The second convolution sees, for each of the 4×4
  output blocks (qh, qw), the 3×3 pooled blocks (qh + u, qw + v) as 216 taps k = (3u + v)·24 + j; w2 [216, 64] has
  columns d·16 + co, pooled over d again. The sixteen blocks' sixteen channels are the 256 features, k = (4qh + qw)·16
  + co, followed by three dense layers, the first two rectified.
-/
import Idealize.ShloMosaic.Lib.ValueIdx
import Idealize.ShloMosaic.PureOps.Ideal

noncomputable section

namespace Cert.LeNet

open Idealize.ShloMosaic Idealize.ShloMosaic.ValueIdx

/-- An array of extended reals over a shape. -/
abbrev Arr (s : Shape) : Type := s.Idx → EReal

/-- One image as its 7×7 tiles of sixteen pixels. -/
abbrev Tiles : Type := Fin 7 → Fin 7 → Fin 16 → EReal

/-- Image n of the batch in tiles: tile (hh, ww), entry t is pixel (4hh + t / 4, 4ww + t % 4). -/
def tile (x : Arr ⟨4, ![16384, 1, 28, 28]⟩) (n : Fin 16384) : Tiles := fun hh ww t =>
  x (ix4 n (0 : Fin 1) (⟨4 * hh.val + t.val / 4, by omega⟩ : Fin 28) (⟨4 * ww.val + t.val % 4, by omega⟩ : Fin 28))

section OneImage

variable (T : Tiles) (w1 : Arr ⟨2, ![64, 96]⟩) (b1 : Arr ⟨2, ![1, 96]⟩) (w2 : Arr ⟨2, ![216, 64]⟩) (b2 : Arr ⟨2, ![1, 64]⟩)
  (wf1 : Arr ⟨2, ![256, 120]⟩) (bf1 : Arr ⟨2, ![1, 120]⟩) (wf2 : Arr ⟨2, ![120, 84]⟩) (bf2 : Arr ⟨2, ![1, 84]⟩)
  (wf3 : Arr ⟨2, ![84, 128]⟩) (bf3 : Arr ⟨2, ![1, 128]⟩)

/-- Tap k of the 8×8 receptive field of first-layer block (ph, pw). -/
def patch1 (ph pw : Fin 6) (k : Fin 64) : EReal :=
  T (⟨k.val / 32 + ph.val, by omega⟩ : Fin 7) (⟨k.val / 16 % 2 + pw.val, by omega⟩ : Fin 7) (⟨k.val % 16, by omega⟩ : Fin 16)

/-- First convolution with bias: column col of block (ph, pw). -/
def conv1 (ph pw : Fin 6) (col : Fin 96) : EReal :=
  (∑ k : Fin 64, patch1 T ph pw k * w1 (ix2 k col)) + b1 (ix2 (0 : Fin 1) col)

/-- First pooling and rectifier: entry j = 6g + co of block (ph, pw) is the maximum over the four window positions. -/
def pool1 (ph pw : Fin 6) (j : Fin 24) : EReal :=
  max (max (max (conv1 T w1 b1 ph pw (⟨j.val / 6 * 24 + j.val % 6, by omega⟩ : Fin 96))
                (conv1 T w1 b1 ph pw (⟨j.val / 6 * 24 + 6 + j.val % 6, by omega⟩ : Fin 96)))
           (max (conv1 T w1 b1 ph pw (⟨j.val / 6 * 24 + 12 + j.val % 6, by omega⟩ : Fin 96))
                (conv1 T w1 b1 ph pw (⟨j.val / 6 * 24 + 18 + j.val % 6, by omega⟩ : Fin 96)))) 0

/-- Tap k of the 3×3 pooled blocks under second-layer block (qh, qw). -/
def patch2 (qh qw : Fin 4) (k : Fin 216) : EReal :=
  pool1 T w1 b1 (⟨k.val / 72 + qh.val, by omega⟩ : Fin 6) (⟨k.val / 24 % 3 + qw.val, by omega⟩ : Fin 6) (⟨k.val % 24, by omega⟩ : Fin 24)

/-- Second convolution with bias. -/
def conv2 (qh qw : Fin 4) (col : Fin 64) : EReal :=
  (∑ k : Fin 216, patch2 T w1 b1 qh qw k * w2 (ix2 k col)) + b2 (ix2 (0 : Fin 1) col)

/-- Second pooling and rectifier. -/
def pool2 (qh qw : Fin 4) (co : Fin 16) : EReal :=
  max (max (max (conv2 T w1 b1 w2 b2 qh qw (⟨co.val, by omega⟩ : Fin 64))
                (conv2 T w1 b1 w2 b2 qh qw (⟨16 + co.val, by omega⟩ : Fin 64)))
           (max (conv2 T w1 b1 w2 b2 qh qw (⟨32 + co.val, by omega⟩ : Fin 64))
                (conv2 T w1 b1 w2 b2 qh qw (⟨48 + co.val, by omega⟩ : Fin 64)))) 0

/-- The 256 features: k = (4qh + qw)·16 + co. -/
def feat (k : Fin 256) : EReal :=
  pool2 T w1 b1 w2 b2 (⟨k.val / 64, by omega⟩ : Fin 4) (⟨k.val / 16 % 4, by omega⟩ : Fin 4) (⟨k.val % 16, by omega⟩ : Fin 16)

/-- First dense layer, rectified. -/
def dense1 (o : Fin 120) : EReal :=
  max ((∑ k : Fin 256, feat T w1 b1 w2 b2 k * wf1 (ix2 k o)) + bf1 (ix2 (0 : Fin 1) o)) 0

/-- Second dense layer, rectified. -/
def dense2 (o : Fin 84) : EReal :=
  max ((∑ k : Fin 120, dense1 T w1 b1 w2 b2 wf1 bf1 k * wf2 (ix2 k o)) + bf2 (ix2 (0 : Fin 1) o)) 0

/-- Third dense layer: the 128 (padded) logits of the image. -/
def logit (o : Fin 128) : EReal :=
  (∑ k : Fin 84, dense2 T w1 b1 w2 b2 wf1 bf1 wf2 bf2 k * wf3 (ix2 k o)) + bf3 (ix2 (0 : Fin 1) o)

end OneImage

/-- The network's result: the first ten logits of every image. -/
def result (x : Arr ⟨4, ![16384, 1, 28, 28]⟩) (w1 : Arr ⟨2, ![64, 96]⟩) (b1 : Arr ⟨2, ![1, 96]⟩) (w2 : Arr ⟨2, ![216, 64]⟩)
    (b2 : Arr ⟨2, ![1, 64]⟩) (wf1 : Arr ⟨2, ![256, 120]⟩) (bf1 : Arr ⟨2, ![1, 120]⟩) (wf2 : Arr ⟨2, ![120, 84]⟩)
    (bf2 : Arr ⟨2, ![1, 84]⟩) (wf3 : Arr ⟨2, ![84, 128]⟩) (bf3 : Arr ⟨2, ![1, 128]⟩) : Arr ⟨2, ![16384, 10]⟩ := fun i =>
  logit (tile x (i 0)) w1 b1 w2 b2 wf1 bf1 wf2 bf2 wf3 bf3 (⟨(i 1).val, Nat.lt_of_lt_of_le (idx2_lt1 i) (by norm_num)⟩ : Fin 128)

end Cert.LeNet

end
-- ==== Proof.KernelBlockStmt.lean ====
/-
  What one grid point of the transposed kernel computes, as a statement: if the staged blocks hold the image tiles of the
  point's 256 images (image l in lane l), the first convolution's matrix and bias re-laid with rows d·32 + j (j < 24
  the entry 6g + co, the eight rows after them zero), the second convolution's matrix transposed with columns
  uv·32 + j (again padded from 24 to 32 with zeros), and the dense layers' matrices transposed and biases as columns,
  then entry (o, l) of the output block is logit o of image l.
-/
import proofs.«103082_g2000604803448687_pallaspilot1_85_11_alg».proof.Proof.Gen.KernelIdeal.Frame
import proofs.«103082_g2000604803448687_pallaspilot1_85_11_alg».proof.Proof.Spec

noncomputable section

namespace Cert.KernelIdeal.Body

open Idealize.ShloMosaic Idealize.ShloMosaic.ValueIdx Cert.KernelIdeal Cert.LeNet

/-- The staged blocks hold the tiles of the point's images and the re-laid weights. -/
structure Staged (x0 : Vec Ideal S7x7x16x256 .bf16) (x1 : Vec Ideal S128x64 .bf16) (x2 : Vec Ideal S128x1 .f32)
    (x3 : Vec Ideal S64x288 .bf16) (x4 : Vec Ideal S64x1 .f32) (x5 : Vec Ideal S120x256 .bf16) (x6 : Vec Ideal S120x1 .f32)
    (x7 : Vec Ideal S84x120 .bf16) (x8 : Vec Ideal S84x1 .f32) (x9 : Vec Ideal S128x84 .bf16) (x10 : Vec Ideal S128x1 .f32)
    (T : Fin 256 → Tiles) (w1 : Arr ⟨2, ![64, 96]⟩) (b1 : Arr ⟨2, ![1, 96]⟩) (w2 : Arr ⟨2, ![216, 64]⟩) (b2 : Arr ⟨2, ![1, 64]⟩)
    (wf1 : Arr ⟨2, ![256, 120]⟩) (bf1 : Arr ⟨2, ![1, 120]⟩) (wf2 : Arr ⟨2, ![120, 84]⟩) (bf2 : Arr ⟨2, ![1, 84]⟩)
    (wf3 : Arr ⟨2, ![84, 128]⟩) (bf3 : Arr ⟨2, ![1, 128]⟩) : Prop where
  hx : ∀ (hh ww : Fin 7) (t : Fin 16) (l : Fin 256), x0 (ix4 hh ww t l) = T l hh ww t
  hw1 : ∀ (d : Fin 4) (j : Fin 32) (k : Fin 64), x1 (ix2 (⟨d.val * 32 + j.val, by omega⟩ : Fin 128) k)
      = if h : j.val < 24 then w1 (ix2 k (⟨j.val / 6 * 24 + d.val * 6 + j.val % 6, by omega⟩ : Fin 96)) else 0
  hb1 : ∀ (d : Fin 4) (j : Fin 32), x2 (ix2 (⟨d.val * 32 + j.val, by omega⟩ : Fin 128) (0 : Fin 1))
      = if h : j.val < 24 then b1 (ix2 (0 : Fin 1) (⟨j.val / 6 * 24 + d.val * 6 + j.val % 6, by omega⟩ : Fin 96)) else 0
  hw2 : ∀ (col : Fin 64) (uv : Fin 9) (j : Fin 32), x3 (ix2 col (⟨uv.val * 32 + j.val, by omega⟩ : Fin 288))
      = if h : j.val < 24 then w2 (ix2 (⟨uv.val * 24 + j.val, by omega⟩ : Fin 216) col) else 0
  hb2 : ∀ col : Fin 64, x4 (ix2 col (0 : Fin 1)) = b2 (ix2 (0 : Fin 1) col)
  hwf1 : ∀ (o : Fin 120) (k : Fin 256), x5 (ix2 o k) = wf1 (ix2 k o)
  hbf1 : ∀ o : Fin 120, x6 (ix2 o (0 : Fin 1)) = bf1 (ix2 (0 : Fin 1) o)
  hwf2 : ∀ (o : Fin 84) (k : Fin 120), x7 (ix2 o k) = wf2 (ix2 k o)
  hbf2 : ∀ o : Fin 84, x8 (ix2 o (0 : Fin 1)) = bf2 (ix2 (0 : Fin 1) o)
  hwf3 : ∀ (o : Fin 128) (k : Fin 84), x9 (ix2 o k) = wf3 (ix2 k o)
  hbf3 : ∀ o : Fin 128, x10 (ix2 o (0 : Fin 1)) = bf3 (ix2 (0 : Fin 1) o)

/-- Entry (o, l) of the block one grid point leaves is logit o of the point's image l. -/
def BlockSpec : Prop :=
  ∀ (x0 : Vec Ideal S7x7x16x256 .bf16) (x1 : Vec Ideal S128x64 .bf16) (x2 : Vec Ideal S128x1 .f32)
    (x3 : Vec Ideal S64x288 .bf16) (x4 : Vec Ideal S64x1 .f32) (x5 : Vec Ideal S120x256 .bf16) (x6 : Vec Ideal S120x1 .f32)
    (x7 : Vec Ideal S84x120 .bf16) (x8 : Vec Ideal S84x1 .f32) (x9 : Vec Ideal S128x84 .bf16) (x10 : Vec Ideal S128x1 .f32)
    (T : Fin 256 → Tiles) (w1 : Arr ⟨2, ![64, 96]⟩) (b1 : Arr ⟨2, ![1, 96]⟩) (w2 : Arr ⟨2, ![216, 64]⟩) (b2 : Arr ⟨2, ![1, 64]⟩)
    (wf1 : Arr ⟨2, ![256, 120]⟩) (bf1 : Arr ⟨2, ![1, 120]⟩) (wf2 : Arr ⟨2, ![120, 84]⟩) (bf2 : Arr ⟨2, ![1, 84]⟩)
    (wf3 : Arr ⟨2, ![84, 128]⟩) (bf3 : Arr ⟨2, ![1, 128]⟩),
    Staged x0 x1 x2 x3 x4 x5 x6 x7 x8 x9 x10 T w1 b1 w2 b2 wf1 bf1 wf2 bf2 wf3 bf3 →
    ∀ (o : Fin 128) (l : Fin 256),
      Gen.out0_11 (F := Ideal) x0 x1 x2 x3 x4 x5 x6 x7 x8 x9 x10 (ix2 o l) = logit (T l) w1 b1 w2 b2 wf1 bf1 wf2 bf2 wf3 bf3 o

end Cert.KernelIdeal.Body

end
-- ==== Proof.Lanes.lean ====
/-
  The transposed arrangement's intermediate arrays, as functions. Images sit in lanes: column c of the first stage is
  block (c / 256) / 6, (c / 256) % 6 of image c % 256; the pooled first stage has 32 rows (24 entries and 8 padding rows);
  the second stage's 288 taps are r = (3u + v)·32 + j, column (4qh + qw)·256 + l.
-/
import Idealize.ShloMosaic.Lib.ValueIdx
import Idealize.ShloMosaic.PureOps.Ideal

noncomputable section

namespace Cert.LeNet.Lanes

open Idealize.ShloMosaic Idealize.ShloMosaic.ValueIdx

abbrev A2 (a b : ℕ) : Type := (⟨2, ![a, b]⟩ : Shape).Idx → EReal

/-- First-stage patches: row k = (2u + v)·16 + t, column c, read from the 7×7×16×256 tile block. -/
def patch1 (X : (⟨4, ![7, 7, 16, 256]⟩ : Shape).Idx → EReal) (k : Fin 64) (c : Fin 9216) : EReal :=
  X (ix4 (⟨k.val / 32 + c.val / 256 / 6, by omega⟩ : Fin 7) (⟨k.val / 16 % 2 + c.val / 256 % 6, by omega⟩ : Fin 7)
    (⟨k.val % 16, by omega⟩ : Fin 16) (⟨c.val % 256, by omega⟩ : Fin 256))

/-- First convolution with bias, rows of the re-laid matrix. -/
def conv1 (P : A2 64 9216) (W : A2 128 64) (B : A2 128 1) (row : Fin 128) (c : Fin 9216) : EReal :=
  (∑ k : Fin 64, W (ix2 row k) * P (ix2 k c)) + B (ix2 row (0 : Fin 1))

/-- First pooling over the four 32-row groups, and the rectifier. -/
def pool1 (P : A2 64 9216) (W : A2 128 64) (B : A2 128 1) (j : Fin 32) (c : Fin 9216) : EReal :=
  max (max (max (conv1 P W B (⟨j.val, by omega⟩ : Fin 128) c) (conv1 P W B (⟨32 + j.val, by omega⟩ : Fin 128) c))
           (max (conv1 P W B (⟨64 + j.val, by omega⟩ : Fin 128) c) (conv1 P W B (⟨96 + j.val, by omega⟩ : Fin 128) c))) 0

/-- Second-stage patches from the pooled first stage S [32, 9216]: row r = (3u + v)·32 + j, column c = (4qh + qw)·256 + l
    reads S at row j, column ((u + qh)·6 + (v + qw))·256 + l. -/
def patch2 (S : A2 32 9216) (r : Fin 288) (c : Fin 4096) : EReal :=
  S (ix2 (⟨r.val % 32, by omega⟩ : Fin 32)
    (⟨((r.val / 96 + c.val / 256 / 4) * 6 + (r.val / 32 % 3 + c.val / 256 % 4)) * 256 + c.val % 256, by omega⟩ : Fin 9216))

/-- Second convolution with bias. -/
def conv2 (S : A2 32 9216) (W : A2 64 288) (B : A2 64 1) (row : Fin 64) (c : Fin 4096) : EReal :=
  (∑ r : Fin 288, W (ix2 row r) * patch2 S r c) + B (ix2 row (0 : Fin 1))

/-- Second pooling over the four 16-row groups, and the rectifier. -/
def pool2 (S : A2 32 9216) (W : A2 64 288) (B : A2 64 1) (co : Fin 16) (c : Fin 4096) : EReal :=
  max (max (max (conv2 S W B (⟨co.val, by omega⟩ : Fin 64) c) (conv2 S W B (⟨16 + co.val, by omega⟩ : Fin 64) c))
           (max (conv2 S W B (⟨32 + co.val, by omega⟩ : Fin 64) c) (conv2 S W B (⟨48 + co.val, by omega⟩ : Fin 64) c))) 0

/-- The 256 feature rows k = s·16 + co of image l: the pooled second stage at row co, column s·256 + l. -/
def feat (S : A2 32 9216) (W : A2 64 288) (B : A2 64 1) (k : Fin 256) (l : Fin 256) : EReal :=
  pool2 S W B (⟨k.val % 16, by omega⟩ : Fin 16) (⟨k.val / 16 * 256 + l.val, by omega⟩ : Fin 4096)

/-- First dense layer with bias, before the rectifier. -/
def pre1 (S : A2 32 9216) (W : A2 64 288) (B : A2 64 1) (Wf : A2 120 256) (Bf : A2 120 1) (o : Fin 120) (l : Fin 256) : EReal :=
  (∑ k : Fin 256, Wf (ix2 o k) * feat S W B k l) + Bf (ix2 o (0 : Fin 1))

/-- Second dense layer from the first one's values before its rectifier. -/
def dense2 (H : A2 120 256) (Wf : A2 84 120) (Bf : A2 84 1) (o : Fin 84) (l : Fin 256) : EReal :=
  max ((∑ k : Fin 120, Wf (ix2 o k) * max (H (ix2 k l)) 0) + Bf (ix2 o (0 : Fin 1))) 0

/-- Third dense layer. -/
def logit (H : A2 120 256) (Wf2 : A2 84 120) (Bf2 : A2 84 1) (Wf3 : A2 128 84) (Bf3 : A2 128 1) (o : Fin 128) (l : Fin 256) : EReal :=
  (∑ k : Fin 84, Wf3 (ix2 o k) * dense2 H Wf2 Bf2 k l) + Bf3 (ix2 o (0 : Fin 1))

end Cert.LeNet.Lanes

end
-- ==== Proof.LibLanes.lean ====
/-
  Arrays of one shape laid side by side, read at an entry.

  Pieces [R, K] concatenated along the second axis give [R, n]: entry (r, c) is entry (r, c % K) of piece c / K.
  Pieces [K, C] concatenated along the first axis give [n, C]: entry (r, c) is entry (r % K, c) of piece r / K.
  A list written out as a 6×6 or 4×4 grid in row-major order has, at position k, the grid's entry (k / 6, k % 6),
  resp. (k / 4, k % 4); and a list of nine as a 3×3 grid likewise.
-/
import Idealize.ShloMosaic.Lib.Pipeline.Value
import Idealize.ShloMosaic.Lib.ValueIdx

noncomputable section

namespace Cert.LibLanes

open Idealize.ShloMosaic Idealize.ShloMosaic.ValueIdx

variable {α : Type}

/-- Pieces [R, K] side by side along the second axis. -/
theorem concat_lanes_apply {R K n : ℕ} (L : List ((⟨2, ![R, K]⟩ : Shape).Idx → α))
    (h : Shape.Concatenates ((L.map fun y => (⟨⟨2, ![R, K]⟩, y⟩ : (s : Shape) × (s.Idx → α))).map (·.1)) ⟨2, ![R, n]⟩ 1)
    (r : Fin R) (c : Fin n) (hK : 0 < K) (hc : c.val / K < L.length) :
    concatenate ⟨2, ![R, n]⟩ 1 (L.map fun y => (⟨⟨2, ![R, K]⟩, y⟩ : (s : Shape) × (s.Idx → α))) h (ix2 r c)
      = L[c.val / K] (ix2 r (⟨c.val % K, Nat.mod_lt _ hK⟩ : Fin K)) := by
  refine concatenate_apply_piece (1 : Fin 2) _ h (ix2 r c) (c.val / K) (by simpa using hc) ⟨2, ![R, K]⟩ (L[c.val / K])
    (by simp) rfl (K * (c.val / K)) ?_ (ix2 r (⟨c.val % K, Nat.mod_lt _ hK⟩ : Fin K)) ?_ ?_
  · have hk : min (c.val / K) L.length = c.val / K := Nat.min_eq_left (Nat.le_of_lt hc)
    simp only [List.map_take, List.map_map]
    have : ∀ M : List ((⟨2, ![R, K]⟩ : Shape).Idx → α),
        (List.map ((fun s : Shape => if h : s.rank = (⟨2, ![R, n]⟩ : Shape).rank then s.size ((1 : Fin 2).cast h.symm) else 0) ∘
          (fun x : (s : Shape) × (s.Idx → α) => x.1) ∘ fun y => (⟨⟨2, ![R, K]⟩, y⟩ : (s : Shape) × (s.Idx → α))) M).sum = K * M.length := by
      intro M
      induction M with
      | nil => simp
      | cons y M ih =>
        rw [List.map_cons, List.sum_cons, ih, List.length_cons]
        show K + K * M.length = K * (M.length + 1)
        ring
    rw [← List.map_take]
    exact (this _).trans (by rw [List.length_take, hk])
  · intro b hb
    match b with
    | ⟨0, _⟩ => rfl
    | ⟨1, _⟩ => exact absurd rfl hb
  · show K * (c.val / K) + c.val % K = c.val
    exact Nat.div_add_mod _ _

/-- Pieces [K, C] on top of each other along the first axis. -/
theorem concat_rows_apply {K C n : ℕ} (L : List ((⟨2, ![K, C]⟩ : Shape).Idx → α))
    (h : Shape.Concatenates ((L.map fun y => (⟨⟨2, ![K, C]⟩, y⟩ : (s : Shape) × (s.Idx → α))).map (·.1)) ⟨2, ![n, C]⟩ 0)
    (r : Fin n) (c : Fin C) (hK : 0 < K) (hr : r.val / K < L.length) :
    concatenate ⟨2, ![n, C]⟩ 0 (L.map fun y => (⟨⟨2, ![K, C]⟩, y⟩ : (s : Shape) × (s.Idx → α))) h (ix2 r c)
      = L[r.val / K] (ix2 (⟨r.val % K, Nat.mod_lt _ hK⟩ : Fin K) c) := by
  refine concatenate_apply_piece (0 : Fin 2) _ h (ix2 r c) (r.val / K) (by simpa using hr) ⟨2, ![K, C]⟩ (L[r.val / K])
    (by simp) rfl (K * (r.val / K)) ?_ (ix2 (⟨r.val % K, Nat.mod_lt _ hK⟩ : Fin K) c) ?_ ?_
  · have hk : min (r.val / K) L.length = r.val / K := Nat.min_eq_left (Nat.le_of_lt hr)
    simp only [List.map_take, List.map_map]
    have : ∀ M : List ((⟨2, ![K, C]⟩ : Shape).Idx → α),
        (List.map ((fun s : Shape => if h : s.rank = (⟨2, ![n, C]⟩ : Shape).rank then s.size ((0 : Fin 2).cast h.symm) else 0) ∘
          (fun x : (s : Shape) × (s.Idx → α) => x.1) ∘ fun y => (⟨⟨2, ![K, C]⟩, y⟩ : (s : Shape) × (s.Idx → α))) M).sum = K * M.length := by
      intro M
      induction M with
      | nil => simp
      | cons y M ih =>
        rw [List.map_cons, List.sum_cons, ih, List.length_cons]
        show K + K * M.length = K * (M.length + 1)
        ring
    rw [← List.map_take]
    exact (this _).trans (by rw [List.length_take, hk])
  · intro b hb
    match b with
    | ⟨0, _⟩ => exact absurd rfl hb
    | ⟨1, _⟩ => rfl
  · show K * (r.val / K) + r.val % K = r.val
    exact Nat.div_add_mod _ _

/-- Position k of a 6×6 grid written out row by row. -/
theorem get_grid6 {β : Type} (f : ℕ → ℕ → β) (k : ℕ) (hk : k < 36) :
    (f 0 0 :: f 0 1 :: f 0 2 :: f 0 3 :: f 0 4 :: f 0 5 :: f 1 0 :: f 1 1 :: f 1 2 :: f 1 3 :: f 1 4 :: f 1 5 :: f 2 0 :: f 2 1 :: f 2 2 :: f 2 3 :: f 2 4 :: f 2 5 :: f 3 0 :: f 3 1 :: f 3 2 :: f 3 3 :: f 3 4 :: f 3 5 :: f 4 0 :: f 4 1 :: f 4 2 :: f 4 3 :: f 4 4 :: f 4 5 :: f 5 0 :: f 5 1 :: f 5 2 :: f 5 3 :: f 5 4 :: f 5 5 :: [])[k]'(by simpa using hk)
      = f (k / 6) (k % 6) := by
  interval_cases k <;> rfl

/-- Position k of a 4×4 grid written out row by row. -/
theorem get_grid4 {β : Type} (f : ℕ → ℕ → β) (k : ℕ) (hk : k < 16) :
    (f 0 0 :: f 0 1 :: f 0 2 :: f 0 3 :: f 1 0 :: f 1 1 :: f 1 2 :: f 1 3 :: f 2 0 :: f 2 1 :: f 2 2 :: f 2 3 :: f 3 0 :: f 3 1 :: f 3 2 :: f 3 3 :: [])[k]'(by simpa using hk) = f (k / 4) (k % 4) := by
  interval_cases k <;> rfl

/-- Position k of a 3×3 grid written out row by row. -/
theorem get_grid3 {β : Type} (f : ℕ → ℕ → β) (k : ℕ) (hk : k < 9) :
    [f 0 0, f 0 1, f 0 2, f 1 0, f 1 1, f 1 2, f 2 0, f 2 1, f 2 2][k]'(by simpa using hk) = f (k / 3) (k % 3) := by
  interval_cases k <;> rfl

/-- Position k of a 2×2 grid written out row by row. -/
theorem get_grid2 {β : Type} (f : ℕ → ℕ → β) (k : ℕ) (hk : k < 4) :
    [f 0 0, f 0 1, f 1 0, f 1 1][k]'(by simpa using hk) = f (k / 2) (k % 2) := by
  interval_cases k <;> rfl

/-- Position k of a list of sixteen written out in order. -/
theorem get_row16 {β : Type} (f : ℕ → β) (k : ℕ) (hk : k < 16) :
    (f 0 :: f 1 :: f 2 :: f 3 :: f 4 :: f 5 :: f 6 :: f 7 :: f 8 :: f 9 :: f 10 :: f 11 :: f 12 :: f 13 :: f 14 :: f 15 :: [])[k]'(by simpa using hk) = f k := by
  interval_cases k <;> rfl

end Cert.LibLanes

end
-- ==== Proof.BodyTile.lean ====
/-
  The first stage's patch rows in the transposed arrangement. The tile block X [7, 7, 16, 256] holds, for the point's
  256 images (one per lane), the 7×7 tiles of sixteen pixels. For each of the four tile offsets (u, v), u, v < 2, the
  thirty-six tiles (u + ph, v + pw), ph, pw < 6, each a [16, 256] array, are laid side by side along the lanes; the
  four [16, 9216] arrays are stacked along the rows. So row k = (2u + v)·16 + t, column c = (6ph + pw)·256 + l holds
  entry (u + ph, v + pw, t, l) of X.
-/
import proofs.«103082_g2000604803448687_pallaspilot1_85_11_alg».proof.Proof.Gen.KernelIdeal.Skeleton
import proofs.«103082_g2000604803448687_pallaspilot1_85_11_alg».proof.Proof.Lanes
import proofs.«103082_g2000604803448687_pallaspilot1_85_11_alg».proof.Proof.LibLanes
import Idealize.ShloMosaic.Lib.Pipeline.Value

set_option maxRecDepth 16384

noncomputable section

namespace Cert.KernelIdeal.Body

open Idealize.ShloMosaic Idealize.ShloMosaic.ValueIdx Cert.KernelIdeal Cert.KernelIdeal.Gen Cert.LeNet

/-- Tile (a, b) of the block as a [16, 256] array (zero outside the 7×7 tiles). -/
def tileAt (X : Vec Ideal S7x7x16x256 .bf16) (a b : ℕ) : S16x256.Idx → EReal :=
  if h : a < 7 ∧ b < 7 then fun i => X (ix4 (⟨a, h.1⟩ : Fin 7) (⟨b, h.2⟩ : Fin 7) (i 0) (i 1)) else fun _ => 0

/-- A unit slice of the block at tile (a, b), recast as [16, 256], is that tile. -/
theorem slice_eq (X : Vec Ideal S7x7x16x256 .bf16) (a b : ℕ) (h : S7x7x16x256.Slices ![a, b, 0, 0] S1x1x16x256)
    (h' : S1x1x16x256.ShapeCasts S16x256) :
    shapeCast S16x256 (extractStridedSlice S1x1x16x256 ![a, b, 0, 0] X h) h' = tileAt X a b := by
  have ha : a + 1 ≤ 7 := h.2 (0 : Fin 4)
  have hb : b + 1 ≤ 7 := h.2 (1 : Fin 4)
  funext i
  obtain ⟨r, l, rfl⟩ : ∃ (r : Fin 16) (l : Fin 256), i = ix2 r l := ⟨i 0, i 1, eq_ix2 i⟩
  unfold tileAt
  rw [dif_pos ⟨by omega, by omega⟩]
  rw [shapeCast_apply _ h' (ix2 r l) (ix4 (0 : Fin 1) (0 : Fin 1) r l) (by
    rw [Shape.rowMajor_val_four, Shape.rowMajor_val_two]
    show (((0 : ℕ) * 1 + 0) * 16 + r.val) * 256 + l.val = r.val * 256 + l.val
    omega)]
  exact extractStridedSlice_apply _ _ h _ (ix4 (⟨a, by omega⟩ : Fin 7) (⟨b, by omega⟩ : Fin 7) r l) (by
    intro ax
    match ax with
    | ⟨0, _⟩ => rfl
    | ⟨1, _⟩ => rfl
    | ⟨2, _⟩ => show r.val = 0 + r.val; omega
    | ⟨3, _⟩ => show l.val = 0 + l.val; omega)

/-- The thirty-six tiles at offset (u, v) side by side along the lanes. -/
def lanes36 (X : Vec Ideal S7x7x16x256 .bf16) (u v : ℕ) : S16x9216.Idx → EReal :=
  concatenate S16x9216 1 (⟨S16x256, tileAt X (u + 0) (v + 0)⟩ :: ⟨S16x256, tileAt X (u + 0) (v + 1)⟩ :: ⟨S16x256, tileAt X (u + 0) (v + 2)⟩ :: ⟨S16x256, tileAt X (u + 0) (v + 3)⟩ :: ⟨S16x256, tileAt X (u + 0) (v + 4)⟩ :: ⟨S16x256, tileAt X (u + 0) (v + 5)⟩ :: ⟨S16x256, tileAt X (u + 1) (v + 0)⟩ :: ⟨S16x256, tileAt X (u + 1) (v + 1)⟩ :: ⟨S16x256, tileAt X (u + 1) (v + 2)⟩ :: ⟨S16x256, tileAt X (u + 1) (v + 3)⟩ :: ⟨S16x256, tileAt X (u + 1) (v + 4)⟩ :: ⟨S16x256, tileAt X (u + 1) (v + 5)⟩ :: ⟨S16x256, tileAt X (u + 2) (v + 0)⟩ :: ⟨S16x256, tileAt X (u + 2) (v + 1)⟩ :: ⟨S16x256, tileAt X (u + 2) (v + 2)⟩ :: ⟨S16x256, tileAt X (u + 2) (v + 3)⟩ :: ⟨S16x256, tileAt X (u + 2) (v + 4)⟩ :: ⟨S16x256, tileAt X (u + 2) (v + 5)⟩ :: ⟨S16x256, tileAt X (u + 3) (v + 0)⟩ :: ⟨S16x256, tileAt X (u + 3) (v + 1)⟩ :: ⟨S16x256, tileAt X (u + 3) (v + 2)⟩ :: ⟨S16x256, tileAt X (u + 3) (v + 3)⟩ :: ⟨S16x256, tileAt X (u + 3) (v + 4)⟩ :: ⟨S16x256, tileAt X (u + 3) (v + 5)⟩ :: ⟨S16x256, tileAt X (u + 4) (v + 0)⟩ :: ⟨S16x256, tileAt X (u + 4) (v + 1)⟩ :: ⟨S16x256, tileAt X (u + 4) (v + 2)⟩ :: ⟨S16x256, tileAt X (u + 4) (v + 3)⟩ :: ⟨S16x256, tileAt X (u + 4) (v + 4)⟩ :: ⟨S16x256, tileAt X (u + 4) (v + 5)⟩ :: ⟨S16x256, tileAt X (u + 5) (v + 0)⟩ :: ⟨S16x256, tileAt X (u + 5) (v + 1)⟩ :: ⟨S16x256, tileAt X (u + 5) (v + 2)⟩ :: ⟨S16x256, tileAt X (u + 5) (v + 3)⟩ :: ⟨S16x256, tileAt X (u + 5) (v + 4)⟩ :: ⟨S16x256, tileAt X (u + 5) (v + 5)⟩ :: []) concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x9216_d1

/-- Entry (t, c) of the thirty-six tiles side by side: tile (u + (c / 256) / 6, v + (c / 256) % 6) at (t, c % 256). -/
theorem lanes36_apply (X : Vec Ideal S7x7x16x256 .bf16) (u v : ℕ) (t : Fin 16) (c : Fin 9216) :
    lanes36 X u v (ix2 t c)
      = tileAt X (u + c.val / 256 / 6) (v + c.val / 256 % 6) (ix2 t (⟨c.val % 256, Nat.mod_lt _ (by omega)⟩ : Fin 256)) := by
  have hc : c.val / 256 < 36 := by have := c.isLt; omega
  have key := LibLanes.concat_lanes_apply (K := 256)
    (tileAt X (u + 0) (v + 0) :: tileAt X (u + 0) (v + 1) :: tileAt X (u + 0) (v + 2) :: tileAt X (u + 0) (v + 3) :: tileAt X (u + 0) (v + 4) :: tileAt X (u + 0) (v + 5) :: tileAt X (u + 1) (v + 0) :: tileAt X (u + 1) (v + 1) :: tileAt X (u + 1) (v + 2) :: tileAt X (u + 1) (v + 3) :: tileAt X (u + 1) (v + 4) :: tileAt X (u + 1) (v + 5) :: tileAt X (u + 2) (v + 0) :: tileAt X (u + 2) (v + 1) :: tileAt X (u + 2) (v + 2) :: tileAt X (u + 2) (v + 3) :: tileAt X (u + 2) (v + 4) :: tileAt X (u + 2) (v + 5) :: tileAt X (u + 3) (v + 0) :: tileAt X (u + 3) (v + 1) :: tileAt X (u + 3) (v + 2) :: tileAt X (u + 3) (v + 3) :: tileAt X (u + 3) (v + 4) :: tileAt X (u + 3) (v + 5) :: tileAt X (u + 4) (v + 0) :: tileAt X (u + 4) (v + 1) :: tileAt X (u + 4) (v + 2) :: tileAt X (u + 4) (v + 3) :: tileAt X (u + 4) (v + 4) :: tileAt X (u + 4) (v + 5) :: tileAt X (u + 5) (v + 0) :: tileAt X (u + 5) (v + 1) :: tileAt X (u + 5) (v + 2) :: tileAt X (u + 5) (v + 3) :: tileAt X (u + 5) (v + 4) :: tileAt X (u + 5) (v + 5) :: [])
    concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x9216_d1 t c (by omega) (by simpa using hc)
  rw [LibLanes.get_grid6 (fun a b => tileAt X (u + a) (v + b)) (c.val / 256) hc] at key
  exact key

end Cert.KernelIdeal.Body

end
-- ==== Proof.BodyPatch1.lean ====
/-
  The first stage's patch matrix in the transposed arrangement: for each of the four tile offsets (u, v), u, v < 2, the
  thirty-six tiles (u + ph, v + pw) side by side along the lanes, the four [16, 9216] arrays stacked along the rows.
  Row k = (2u + v)·16 + t, column c = (6ph + pw)·256 + l holds entry (u + ph, v + pw, t, l) of the tile block.
-/
import proofs.«103082_g2000604803448687_pallaspilot1_85_11_alg».proof.Proof.BodyTile

set_option maxRecDepth 16384

noncomputable section

namespace Cert.KernelIdeal.Body

open Idealize.ShloMosaic Idealize.ShloMosaic.ValueIdx Cert.KernelIdeal Cert.KernelIdeal.Gen Cert.LeNet

/-- The block recast to its own shape is the block. -/
theorem recast_eq (X : Vec Ideal S7x7x16x256 .bf16) : k0_pay2 (F := Ideal) X = X := by
  simp only [k0_pay2, shapeCast_self]

/-- A unit slice at tile (a, b), recast as [16, 256], is that tile. -/
theorem slice_eq' (X : FVec Ideal S7x7x16x256 .bf16) (a b : ℕ) (h : S7x7x16x256.Slices ![a, b, 0, 0] S1x1x16x256)
    (h' : S1x1x16x256.ShapeCasts S16x256) :
    shapeCast S16x256 (extractStridedSlice S1x1x16x256 ![a, b, 0, 0] X h) h' = tileAt X a b := slice_eq X a b h h'

/-- The patch matrix as the body builds it from the block. -/
def P1 (X : Vec Ideal S7x7x16x256 .bf16) : FVec Ideal S64x9216 .bf16 :=
  (k0_pay74 (k0_pay2 X) (k0_pay30 (k0_pay2 X) (k0_pay3 X) (k0_pay4 X) (k0_pay5 X) (k0_pay6 X) (k0_pay7 X) (k0_pay8 X) (k0_pay9 X) (k0_pay10 X) (k0_pay11 X) (k0_pay12 X) (k0_pay13 X) (k0_pay14 X) (k0_pay15 X) (k0_pay16 X) (k0_pay17 X) (k0_pay18 X) (k0_pay19 X) (k0_pay20 X) (k0_pay21 X) (k0_pay22 X) (k0_pay23 X) (k0_pay24 X) (k0_pay25 X) (k0_pay26 X) (k0_pay27 X) (k0_pay28 X) (k0_pay29 X)) (k0_pay51 (k0_pay2 X) (k0_pay31 (k0_pay2 X)) (k0_pay32 (k0_pay2 X)) (k0_pay33 (k0_pay2 X)) (k0_pay34 (k0_pay2 X)) (k0_pay35 (k0_pay2 X)) (k0_pay36 (k0_pay2 X)) (k0_pay37 (k0_pay2 X)) (k0_pay38 (k0_pay2 X)) (k0_pay39 (k0_pay2 X)) (k0_pay40 (k0_pay2 X)) (k0_pay41 (k0_pay2 X)) (k0_pay42 (k0_pay2 X)) (k0_pay43 (k0_pay2 X)) (k0_pay44 (k0_pay2 X)) (k0_pay45 (k0_pay2 X)) (k0_pay46 (k0_pay2 X)) (k0_pay47 (k0_pay2 X)) (k0_pay48 (k0_pay2 X)) (k0_pay49 (k0_pay2 X)) (k0_pay50 (k0_pay2 X))) (k0_pay66 (k0_pay2 X) (k0_pay52 (k0_pay2 X)) (k0_pay53 (k0_pay2 X)) (k0_pay54 (k0_pay2 X)) (k0_pay55 (k0_pay2 X)) (k0_pay56 (k0_pay2 X)) (k0_pay57 (k0_pay2 X)) (k0_pay58 (k0_pay2 X)) (k0_pay59 (k0_pay2 X)) (k0_pay60 (k0_pay2 X)) (k0_pay61 (k0_pay2 X)) (k0_pay62 (k0_pay2 X)) (k0_pay63 (k0_pay2 X)) (k0_pay64 (k0_pay2 X)) (k0_pay65 (k0_pay2 X))) (k0_pay67 (k0_pay2 X)) (k0_pay68 (k0_pay2 X)) (k0_pay69 (k0_pay2 X)) (k0_pay70 (k0_pay2 X)) (k0_pay71 (k0_pay2 X)) (k0_pay72 (k0_pay2 X)) (k0_pay73 (k0_pay2 X)))

/-- The patch matrix is the four lane arrays stacked along the rows. -/
theorem P1_eq (X : Vec Ideal S7x7x16x256 .bf16) :
    P1 X = concatenate S64x9216 0 [⟨S16x9216, lanes36 X 0 0⟩, ⟨S16x9216, lanes36 X 0 1⟩, ⟨S16x9216, lanes36 X 1 0⟩, ⟨S16x9216, lanes36 X 1 1⟩]
      concatenates_S16x9216_S16x9216_S16x9216_S16x9216_S64x9216_d0 := by
  unfold P1 lanes36
  simp only [k0_pay74, k0_pay30, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay51, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay66, k0_pay52, k0_pay53, k0_pay54, k0_pay55, k0_pay56, k0_pay57, k0_pay58, k0_pay59, k0_pay60, k0_pay61, k0_pay62, k0_pay63, k0_pay64, k0_pay65, k0_pay67, k0_pay68, k0_pay69, k0_pay70, k0_pay71, k0_pay72, k0_pay73]
  congr 1
  refine congrArg₂ List.cons ?_ (congrArg₂ List.cons ?_ (congrArg₂ List.cons ?_ (congrArg₂ List.cons ?_ rfl))) <;>
    refine congrArg (Sigma.mk S16x9216) ?_ <;> congr 1 <;> simp only [recast_eq, slice_eq']

/-- Entry (k, c) of the patch matrix. -/
theorem patch1_apply (X : Vec Ideal S7x7x16x256 .bf16) (k : Fin 64) (c : Fin 9216) :
    P1 X (ix2 k c) = Lanes.patch1 X k c := by
  have hk : k.val / 16 < 4 := by have := k.isLt; omega
  rw [P1_eq]
  have key := LibLanes.concat_rows_apply (K := 16) [lanes36 X 0 0, lanes36 X 0 1, lanes36 X 1 0, lanes36 X 1 1]
    concatenates_S16x9216_S16x9216_S16x9216_S16x9216_S64x9216_d0 k c (by omega) (by simpa using hk)
  rw [LibLanes.get_grid2 (fun u v => lanes36 X u v) (k.val / 16) hk] at key
  refine key.trans ?_
  rw [lanes36_apply]
  unfold tileAt Lanes.patch1
  have hc := c.isLt
  have hk' := k.isLt
  rw [dif_pos ⟨by omega, by omega⟩]
  refine congrArg X (funext fun ax => Fin.ext ?_)
  match ax with
  | ⟨0, _⟩ => show k.val / 16 / 2 + c.val / 256 / 6 = k.val / 32 + c.val / 256 / 6; omega
  | ⟨1, _⟩ => show k.val / 16 % 2 + c.val / 256 % 6 = k.val / 16 % 2 + c.val / 256 % 6; rfl
  | ⟨2, _⟩ => rfl
  | ⟨3, _⟩ => rfl

end Cert.KernelIdeal.Body

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.BodyPool1.lean ====
/-
  The first convolution and its pooling in the transposed arrangement: the product of the re-laid matrix [128, 64]
  with the patch matrix [64, 9216] plus the bias column, cut into four groups of 32 rows whose entrywise maximum,
  rectified, is the pooled first stage [32, 9216].
-/
import proofs.«103082_g2000604803448687_pallaspilot1_85_11_alg».proof.Proof.Gen.KernelIdeal.Skeleton
import proofs.«103082_g2000604803448687_pallaspilot1_85_11_alg».proof.Proof.Lanes
import proofs.«103082_g2000604803448687_pallaspilot1_85_11_alg».proof.Proof.LibMatProduct
import proofs.«103082_g2000604803448687_pallaspilot1_85_11_alg».proof.Proof.LibKeepdims
import Idealize.ShloMosaic.Lib.Pipeline.Value

noncomputable section

namespace Cert.KernelIdeal.Body

open Idealize.ShloMosaic Idealize.ShloMosaic.ValueIdx Cert.KernelIdeal Cert.KernelIdeal.Gen Cert.LeNet

/-- Row group d of a [128, 9216] array recast as [4, 32, 9216]: its entry (j, c) is the array's entry (32d + j, c). -/
theorem group32_apply {α : Type} (y : S128x9216.Idx → α) (d : ℕ) (hd : d < 4) (h1 : S128x9216.ShapeCasts S4x32x9216)
    (h2 : S4x32x9216.Slices ![d, 0, 0] S1x32x9216) (h3 : S1x32x9216.ShapeCasts S32x9216) (j : Fin 32) (c : Fin 9216) :
    shapeCast S32x9216 (extractStridedSlice S1x32x9216 ![d, 0, 0] (shapeCast S4x32x9216 y h1) h2) h3 (ix2 j c)
      = y (ix2 (⟨d * 32 + j.val, by omega⟩ : Fin 128) c) := by
  rw [shapeCast_apply _ h3 (ix2 j c) (ix3 (0 : Fin 1) j c) (by
    rw [Shape.rowMajor_val_three, Shape.rowMajor_val_two]
    show ((0 : ℕ) * 32 + j.val) * 9216 + c.val = j.val * 9216 + c.val
    omega)]
  rw [extractStridedSlice_apply _ _ h2 (ix3 (0 : Fin 1) j c) (ix3 (⟨d, hd⟩ : Fin 4) j c) (by
    intro a
    match a with
    | ⟨0, _⟩ => rfl
    | ⟨1, _⟩ => show j.val = 0 + j.val; omega
    | ⟨2, _⟩ => show c.val = 0 + c.val; omega)]
  exact shapeCast_apply _ h1 _ _ (by
    rw [Shape.rowMajor_val_two, Shape.rowMajor_val_three]
    show (d * 32 + j.val) * 9216 + c.val = (d * 32 + j.val) * 9216 + c.val
    rfl)

/-- The pooled first stage at (j, c). -/
theorem pool1_apply (P : FVec Ideal S64x9216 .bf16) (W : Vec Ideal S128x64 .bf16) (B : Vec Ideal S128x1 .f32)
    (j : Fin 32) (c : Fin 9216) :
    k0_pay75 (F := Ideal) P W B (ix2 j c) = Lanes.pool1 P W B j c := by
  have hrow : ∀ row : Fin 128,
      addf (matmul dot_S128x64_S64x9216_S128x9216_1_0_0_1_n_n none (shapeCast S128x64 W shapeCasts_S128x64_S128x64 : FVec Ideal S128x64 .bf16) P
          (constant (F := Ideal) S128x9216 .f32 0x00000000#32))
        (broadcastTo S128x9216 (shapeCast S128x1 B shapeCasts_S128x1_S128x1 : FVec Ideal S128x1 .f32) broadcasts_S128x1_S128x9216) (ix2 row c)
        = Lanes.conv1 P W B row c := by
    intro row
    rw [addf_apply, shapeCast_self, shapeCast_self, LibKeepdims.broadcastTo_a1_ab_apply]
    unfold Lanes.conv1
    congr 1
    exact LibMatProduct.matmul_zero_apply _ none rfl rfl rfl rfl rfl rfl W P row c
  unfold k0_pay75 Lanes.pool1
  simp only [truncf_apply, maximumf_apply, broadcast_apply]
  rw [group32_apply _ 0 (by omega), group32_apply _ 1 (by omega), group32_apply _ 2 (by omega), group32_apply _ 3 (by omega)]
  rw [hrow, hrow, hrow, hrow]
  simp only [LibKeepdims.scalar_ofBits, Ideal.ofBits_zero_f32]
  refine congrArg₂ max (congrArg₂ max (congrArg₂ max ?_ ?_) (congrArg₂ max ?_ ?_)) rfl <;>
    exact congrArg (fun r => Lanes.conv1 P W B r c) (Fin.ext (by first | rfl | (simp only []; omega)))

end Cert.KernelIdeal.Body

end
-- ==== Proof.BodyDense.lean ====
/-
  The last two dense layers in the transposed arrangement: from the first dense layer's values H [120, 256] before its
  rectifier, the rectified product with the second matrix [84, 120] plus its bias column, rectified again, then the
  product with the third matrix [128, 84] plus its bias column.
-/
import proofs.«103082_g2000604803448687_pallaspilot1_85_11_alg».proof.Proof.Gen.KernelIdeal.Skeleton
import proofs.«103082_g2000604803448687_pallaspilot1_85_11_alg».proof.Proof.Lanes
import proofs.«103082_g2000604803448687_pallaspilot1_85_11_alg».proof.Proof.LibMatProduct
import proofs.«103082_g2000604803448687_pallaspilot1_85_11_alg».proof.Proof.LibKeepdims
import Idealize.ShloMosaic.Lib.Pipeline.Value

noncomputable section

namespace Cert.KernelIdeal.Body

open Idealize.ShloMosaic Idealize.ShloMosaic.ValueIdx Cert.KernelIdeal Cert.KernelIdeal.Gen Cert.LeNet

/-- The output block at (o, l) from the first dense layer's values. -/
theorem logit_apply (H : FVec Ideal S120x256 .f32) (W2 : Vec Ideal S84x120 .bf16) (B2 : Vec Ideal S84x1 .f32)
    (W3 : Vec Ideal S128x84 .bf16) (B3 : Vec Ideal S128x1 .f32) (o : Fin 128) (l : Fin 256) :
    k0_pay1 (F := Ideal) H (Scalar.ofBits .f32 0x00000000#32) W2 B2 W3 B3 (ix2 o l) = Lanes.logit H W2 B2 W3 B3 o l := by
  unfold k0_pay1 Lanes.logit
  simp only [addf_apply, shapeCast_self, LibKeepdims.broadcastTo_a1_ab_apply]
  congr 1
  refine (LibMatProduct.matmul_zero_apply _ none rfl rfl rfl rfl rfl rfl W3 _ o l).trans ?_
  refine Finset.sum_congr rfl fun k _ => ?_
  congr 1
  unfold Lanes.dense2
  simp only [truncf_apply, maximumf_apply, broadcast_apply, addf_apply, LibKeepdims.broadcastTo_a1_ab_apply,
    LibKeepdims.scalar_ofBits, Ideal.ofBits_zero_f32]
  congr 2
  refine (LibMatProduct.matmul_zero_apply _ none rfl rfl rfl rfl rfl rfl W2 _ k l).trans ?_
  refine Finset.sum_congr rfl fun h _ => ?_
  simp only [truncf_apply, maximumf_apply, broadcast_apply, LibKeepdims.scalar_ofBits, Ideal.ofBits_zero_f32]

end Cert.KernelIdeal.Body

end
-- ==== Proof.LibBlockSum.lean ====
/-
  A sum over `a · b` positions cut into `a` consecutive blocks of `b`.

  The positions `0 … a·b − 1` are the pairs (block `k`, entry `j` of the block) at `b · k + j`; a sum over all positions is
  the sum over the blocks of the sums inside each block. Stated in any commutative additive monoid: only
  commutativity and associativity of `+` are used, so it holds on the extended reals with no finiteness assumption.
  This is the law by which a contraction accumulated block by block equals the whole contraction.
-/
import Mathlib

namespace Cert.LibBlockSum

/-- The position of entry `j` of block `k`, among `a` consecutive blocks of `b` positions each. -/
def pos {a b : ℕ} (k : Fin a) (j : Fin b) : Fin (a * b) := finProdFinEquiv (k, j)

/-- It is `b · k + j` (written `j + b · k`). -/
theorem pos_val {a b : ℕ} (k : Fin a) (j : Fin b) : (pos k j).val = j.val + b * k.val := rfl

/-- A sum over `Fin (a * b)` is the sum over the `a` blocks `k` of the sums over each block's `b` entries. -/
theorem sum_blocks {M : Type*} [AddCommMonoid M] {a b : ℕ} (f : Fin (a * b) → M) :
    ∑ h : Fin (a * b), f h = ∑ k : Fin a, ∑ j : Fin b, f (pos k j) :=
  (Fintype.sum_equiv finProdFinEquiv (fun p : Fin a × Fin b => f (pos p.1 p.2)) f (fun _ => rfl)).symm.trans
    (Fintype.sum_prod_type _)

end Cert.LibBlockSum
-- ==== Proof.LibPaddedSum.lean ====
/-
  A sum over blocks padded with zeros.

  Positions 0 … a·(b + p) − 1 cut into a blocks of b + p; if every block's last p entries are zero, the sum is the sum
  over the a blocks' first b entries, that is a sum over a·b positions. Only commutativity and associativity of + and
  0 + x = x are used.
-/
import proofs.«103082_g2000604803448687_pallaspilot1_85_11_alg».proof.Proof.LibBlockSum

namespace Cert.LibPaddedSum

open Cert.LibBlockSum

theorem sum_padded {M : Type*} [AddCommMonoid M] {a b p : ℕ} (f : Fin (a * (b + p)) → M) (g : Fin (a * b) → M)
    (hfg : ∀ (k : Fin a) (j : Fin b), f (pos k (Fin.castAdd p j)) = g (pos k j))
    (hz : ∀ (k : Fin a) (j : Fin p), f (pos k (Fin.natAdd b j)) = 0) :
    ∑ h, f h = ∑ h, g h := by
  rw [sum_blocks f, sum_blocks g]
  refine Finset.sum_congr rfl fun k _ => ?_
  rw [Fin.sum_univ_add]
  simp only [hfg, hz, Finset.sum_const_zero, add_zero]

end Cert.LibPaddedSum
-- ==== Proof.BodyBridge.lean ====
/-
  The transposed arrangement computes the network.

  With the tile block holding image l in lane l, the first convolution's matrix and bias re-laid with rows d·32 + j
  (j < 24 the pooled entry 6g + co at window position d, the other eight rows zero), the second convolution's matrix
  transposed with columns uv·32 + j (zero for j ≥ 24), the dense matrices transposed and the biases as columns, each
  stage of the lane arrangement is the corresponding stage of the network for the image of its lane: products commute,
  the padded rows contribute 0 · x = 0 to the second convolution's sums, and a sum over nine padded blocks of 32 is the
  sum over nine blocks of 24.
-/
import proofs.«103082_g2000604803448687_pallaspilot1_85_11_alg».proof.Proof.Spec
import proofs.«103082_g2000604803448687_pallaspilot1_85_11_alg».proof.Proof.Lanes
import proofs.«103082_g2000604803448687_pallaspilot1_85_11_alg».proof.Proof.LibPaddedSum

noncomputable section

namespace Cert.LeNet.Bridge

open Idealize.ShloMosaic Idealize.ShloMosaic.ValueIdx Cert.LeNet

/-- The arrays of one grid point hold the tiles of its images and the re-laid weights. -/
structure Laid (X : (⟨4, ![7, 7, 16, 256]⟩ : Shape).Idx → EReal) (W1t : Lanes.A2 128 64) (B1t : Lanes.A2 128 1)
    (W2t : Lanes.A2 64 288) (B2t : Lanes.A2 64 1) (Wf1t : Lanes.A2 120 256) (Bf1t : Lanes.A2 120 1)
    (Wf2t : Lanes.A2 84 120) (Bf2t : Lanes.A2 84 1) (Wf3t : Lanes.A2 128 84) (Bf3t : Lanes.A2 128 1)
    (T : Fin 256 → Tiles) (w1 : Arr ⟨2, ![64, 96]⟩) (b1 : Arr ⟨2, ![1, 96]⟩) (w2 : Arr ⟨2, ![216, 64]⟩) (b2 : Arr ⟨2, ![1, 64]⟩)
    (wf1 : Arr ⟨2, ![256, 120]⟩) (bf1 : Arr ⟨2, ![1, 120]⟩) (wf2 : Arr ⟨2, ![120, 84]⟩) (bf2 : Arr ⟨2, ![1, 84]⟩)
    (wf3 : Arr ⟨2, ![84, 128]⟩) (bf3 : Arr ⟨2, ![1, 128]⟩) : Prop where
  hx : ∀ (hh ww : Fin 7) (t : Fin 16) (l : Fin 256), X (ix4 hh ww t l) = T l hh ww t
  hw1 : ∀ (d : Fin 4) (j : Fin 32) (k : Fin 64), W1t (ix2 (⟨d.val * 32 + j.val, by omega⟩ : Fin 128) k)
      = if h : j.val < 24 then w1 (ix2 k (⟨j.val / 6 * 24 + d.val * 6 + j.val % 6, by omega⟩ : Fin 96)) else 0
  hb1 : ∀ (d : Fin 4) (j : Fin 32), B1t (ix2 (⟨d.val * 32 + j.val, by omega⟩ : Fin 128) (0 : Fin 1))
      = if h : j.val < 24 then b1 (ix2 (0 : Fin 1) (⟨j.val / 6 * 24 + d.val * 6 + j.val % 6, by omega⟩ : Fin 96)) else 0
  hw2 : ∀ (col : Fin 64) (uv : Fin 9) (j : Fin 32), W2t (ix2 col (⟨uv.val * 32 + j.val, by omega⟩ : Fin 288))
      = if h : j.val < 24 then w2 (ix2 (⟨uv.val * 24 + j.val, by omega⟩ : Fin 216) col) else 0
  hb2 : ∀ col : Fin 64, B2t (ix2 col (0 : Fin 1)) = b2 (ix2 (0 : Fin 1) col)
  hwf1 : ∀ (o : Fin 120) (k : Fin 256), Wf1t (ix2 o k) = wf1 (ix2 k o)
  hbf1 : ∀ o : Fin 120, Bf1t (ix2 o (0 : Fin 1)) = bf1 (ix2 (0 : Fin 1) o)
  hwf2 : ∀ (o : Fin 84) (k : Fin 120), Wf2t (ix2 o k) = wf2 (ix2 k o)
  hbf2 : ∀ o : Fin 84, Bf2t (ix2 o (0 : Fin 1)) = bf2 (ix2 (0 : Fin 1) o)
  hwf3 : ∀ (o : Fin 128) (k : Fin 84), Wf3t (ix2 o k) = wf3 (ix2 k o)
  hbf3 : ∀ o : Fin 128, Bf3t (ix2 o (0 : Fin 1)) = bf3 (ix2 (0 : Fin 1) o)

variable {X : (⟨4, ![7, 7, 16, 256]⟩ : Shape).Idx → EReal} {W1t : Lanes.A2 128 64} {B1t : Lanes.A2 128 1}
    {W2t : Lanes.A2 64 288} {B2t : Lanes.A2 64 1} {Wf1t : Lanes.A2 120 256} {Bf1t : Lanes.A2 120 1}
    {Wf2t : Lanes.A2 84 120} {Bf2t : Lanes.A2 84 1} {Wf3t : Lanes.A2 128 84} {Bf3t : Lanes.A2 128 1}
    {T : Fin 256 → Tiles} {w1 : Arr ⟨2, ![64, 96]⟩} {b1 : Arr ⟨2, ![1, 96]⟩} {w2 : Arr ⟨2, ![216, 64]⟩} {b2 : Arr ⟨2, ![1, 64]⟩}
    {wf1 : Arr ⟨2, ![256, 120]⟩} {bf1 : Arr ⟨2, ![1, 120]⟩} {wf2 : Arr ⟨2, ![120, 84]⟩} {bf2 : Arr ⟨2, ![1, 84]⟩}
    {wf3 : Arr ⟨2, ![84, 128]⟩} {bf3 : Arr ⟨2, ![1, 128]⟩}

/-- The lane, block row and block column of a first-stage column. -/
abbrev lane1 (c : Fin 9216) : Fin 256 := ⟨c.val % 256, by omega⟩
abbrev brow1 (c : Fin 9216) : Fin 6 := ⟨c.val / 256 / 6, by omega⟩
abbrev bcol1 (c : Fin 9216) : Fin 6 := ⟨c.val / 256 % 6, by omega⟩
/-- The lane, block row and block column of a second-stage column. -/
abbrev lane2 (c : Fin 4096) : Fin 256 := ⟨c.val % 256, by omega⟩
abbrev brow2 (c : Fin 4096) : Fin 4 := ⟨c.val / 256 / 4, by omega⟩
abbrev bcol2 (c : Fin 4096) : Fin 4 := ⟨c.val / 256 % 4, by omega⟩

/-- The pooled first stage of two images and blocks named by equal numbers. -/
theorem pool1_congr (T : Fin 256 → Tiles) (w1 : Arr ⟨2, ![64, 96]⟩) (b1 : Arr ⟨2, ![1, 96]⟩)
    {l l' : Fin 256} {ph ph' pw pw' : Fin 6} {j j' : Fin 24}
    (hl : l.val = l'.val) (h1 : ph.val = ph'.val) (h2 : pw.val = pw'.val) (h3 : j.val = j'.val) :
    pool1 (T l) w1 b1 ph pw j = pool1 (T l') w1 b1 ph' pw' j' := by
  obtain rfl := Fin.ext hl; obtain rfl := Fin.ext h1; obtain rfl := Fin.ext h2; obtain rfl := Fin.ext h3; rfl

/-- The pooled second stage likewise. -/
theorem pool2_congr (T : Fin 256 → Tiles) (w1 : Arr ⟨2, ![64, 96]⟩) (b1 : Arr ⟨2, ![1, 96]⟩) (w2 : Arr ⟨2, ![216, 64]⟩)
    (b2 : Arr ⟨2, ![1, 64]⟩) {l l' : Fin 256} {qh qh' qw qw' : Fin 4} {co co' : Fin 16}
    (hl : l.val = l'.val) (h1 : qh.val = qh'.val) (h2 : qw.val = qw'.val) (h3 : co.val = co'.val) :
    pool2 (T l) w1 b1 w2 b2 qh qw co = pool2 (T l') w1 b1 w2 b2 qh' qw' co' := by
  obtain rfl := Fin.ext hl; obtain rfl := Fin.ext h1; obtain rfl := Fin.ext h2; obtain rfl := Fin.ext h3; rfl

/-- The first-stage patches are the image's patches. -/
theorem patch1_eq (h : Laid X W1t B1t W2t B2t Wf1t Bf1t Wf2t Bf2t Wf3t Bf3t T w1 b1 w2 b2 wf1 bf1 wf2 bf2 wf3 bf3) (k : Fin 64) (c : Fin 9216) :
    Lanes.patch1 X k c = patch1 (T (lane1 c)) (brow1 c) (bcol1 c) k := by
  unfold Lanes.patch1 patch1
  exact h.hx _ _ _ _

/-- Row d·32 + j of the first convolution: column 24(j / 6) + 6d + j % 6 of the image's, or zero on a padding row. -/
theorem conv1_eq (h : Laid X W1t B1t W2t B2t Wf1t Bf1t Wf2t Bf2t Wf3t Bf3t T w1 b1 w2 b2 wf1 bf1 wf2 bf2 wf3 bf3) (P : Lanes.A2 64 9216) (hP : ∀ k c, P (ix2 k c) = Lanes.patch1 X k c)
    (d : Fin 4) (j : Fin 32) (c : Fin 9216) :
    Lanes.conv1 P W1t B1t (⟨d.val * 32 + j.val, by omega⟩ : Fin 128) c
      = if hj : j.val < 24 then conv1 (T (lane1 c)) w1 b1 (brow1 c) (bcol1 c)
          (⟨j.val / 6 * 24 + d.val * 6 + j.val % 6, by omega⟩ : Fin 96) else 0 := by
  unfold Lanes.conv1
  rw [h.hb1 d j]
  simp only [h.hw1 d j, hP, patch1_eq h]
  by_cases hj : j.val < 24
  · simp only [dif_pos hj]
    unfold conv1
    congr 1
    exact Finset.sum_congr rfl fun k _ => mul_comm _ _
  · simp only [dif_neg hj, zero_mul, Finset.sum_const_zero, add_zero]

/-- The pooled first stage: the image's on the 24 rows, zero on the padding rows. -/
theorem pool1_eq (h : Laid X W1t B1t W2t B2t Wf1t Bf1t Wf2t Bf2t Wf3t Bf3t T w1 b1 w2 b2 wf1 bf1 wf2 bf2 wf3 bf3) (P : Lanes.A2 64 9216) (hP : ∀ k c, P (ix2 k c) = Lanes.patch1 X k c)
    (j : Fin 32) (c : Fin 9216) :
    Lanes.pool1 P W1t B1t j c
      = if hj : j.val < 24 then pool1 (T (lane1 c)) w1 b1 (brow1 c) (bcol1 c) (⟨j.val, hj⟩ : Fin 24) else 0 := by
  unfold Lanes.pool1
  have r0 : (⟨j.val, by omega⟩ : Fin 128) = ⟨(⟨0, by omega⟩ : Fin 4).val * 32 + j.val, by omega⟩ := Fin.ext (by first | rfl | (simp only []; omega) | omega)
  have r1 : (⟨32 + j.val, by omega⟩ : Fin 128) = ⟨(⟨1, by omega⟩ : Fin 4).val * 32 + j.val, by omega⟩ := Fin.ext (by first | rfl | (simp only []; omega) | omega)
  have r2 : (⟨64 + j.val, by omega⟩ : Fin 128) = ⟨(⟨2, by omega⟩ : Fin 4).val * 32 + j.val, by omega⟩ := Fin.ext (by first | rfl | (simp only []; omega) | omega)
  have r3 : (⟨96 + j.val, by omega⟩ : Fin 128) = ⟨(⟨3, by omega⟩ : Fin 4).val * 32 + j.val, by omega⟩ := Fin.ext (by first | rfl | (simp only []; omega) | omega)
  rw [r0, r1, r2, r3, conv1_eq h P hP, conv1_eq h P hP, conv1_eq h P hP, conv1_eq h P hP]
  by_cases hj : j.val < 24
  · simp only [dif_pos hj]
    unfold pool1
    refine congrArg₂ max (congrArg₂ max (congrArg₂ max ?_ ?_) (congrArg₂ max ?_ ?_)) rfl <;>
      exact congrArg (conv1 (T (lane1 c)) w1 b1 (brow1 c) (bcol1 c)) (Fin.ext (by first | rfl | (simp only []; omega) | omega))
  · simp only [dif_neg hj, max_self]

/-- The second-stage patches: the image's on the 24 rows of each tap group, zero on its padding rows. -/
theorem patch2_eq (S : Lanes.A2 32 9216)
    (hS : ∀ (j : Fin 32) (c : Fin 9216), S (ix2 j c)
      = if hj : j.val < 24 then pool1 (T (lane1 c)) w1 b1 (brow1 c) (bcol1 c) (⟨j.val, hj⟩ : Fin 24) else 0)
    (uv : Fin 9) (j : Fin 32) (c : Fin 4096) :
    Lanes.patch2 S (⟨uv.val * 32 + j.val, by omega⟩ : Fin 288) c
      = if hj : j.val < 24 then patch2 (T (lane2 c)) w1 b1 (brow2 c) (bcol2 c) (⟨uv.val * 24 + j.val, by omega⟩ : Fin 216) else 0 := by
  unfold Lanes.patch2
  rw [hS]
  have hc := c.isLt
  have huv := uv.isLt
  by_cases hj : j.val < 24
  · rw [dif_pos (by first | rfl | (simp only []; omega) | omega), dif_pos hj]
    unfold patch2
    exact pool1_congr T w1 b1 (by first | rfl | (simp only []; omega) | omega) (by first | rfl | (simp only []; omega) | omega) (by first | rfl | (simp only []; omega) | omega) (by first | rfl | (simp only []; omega) | omega)
  · rw [dif_neg (by first | rfl | (simp only []; omega) | omega), dif_neg hj]

/-- The second convolution is the image's: the padded taps add nothing. -/
theorem conv2_eq (h : Laid X W1t B1t W2t B2t Wf1t Bf1t Wf2t Bf2t Wf3t Bf3t T w1 b1 w2 b2 wf1 bf1 wf2 bf2 wf3 bf3) (S : Lanes.A2 32 9216)
    (hS : ∀ (j : Fin 32) (c : Fin 9216), S (ix2 j c)
      = if hj : j.val < 24 then pool1 (T (lane1 c)) w1 b1 (brow1 c) (bcol1 c) (⟨j.val, hj⟩ : Fin 24) else 0)
    (col : Fin 64) (c : Fin 4096) :
    Lanes.conv2 S W2t B2t col c = conv2 (T (lane2 c)) w1 b1 w2 b2 (brow2 c) (bcol2 c) col := by
  unfold Lanes.conv2 conv2
  rw [h.hb2 col]
  congr 1
  refine LibPaddedSum.sum_padded (a := 9) (b := 24) (p := 8)
    (fun r : Fin 288 => W2t (ix2 col r) * Lanes.patch2 S r c)
    (fun k : Fin 216 => patch2 (T (lane2 c)) w1 b1 (brow2 c) (bcol2 c) k * w2 (ix2 k col)) ?_ ?_
  · intro uv j
    have e : (LibBlockSum.pos uv (Fin.castAdd 8 j) : Fin 288)
        = (⟨uv.val * 32 + (⟨j.val, by omega⟩ : Fin 32).val, by omega⟩ : Fin 288) :=
      Fin.ext (by rw [LibBlockSum.pos_val]; simp only [Fin.coe_castAdd]; omega)
    have e2 : (LibBlockSum.pos uv j : Fin 216) = (⟨uv.val * 24 + j.val, by omega⟩ : Fin 216) :=
      Fin.ext (by rw [LibBlockSum.pos_val]; show j.val + 24 * uv.val = uv.val * 24 + j.val; omega)
    show W2t (ix2 col (LibBlockSum.pos uv (Fin.castAdd 8 j))) * Lanes.patch2 S (LibBlockSum.pos uv (Fin.castAdd 8 j)) c = _
    rw [e, h.hw2 col uv ⟨j.val, by omega⟩, patch2_eq S hS uv ⟨j.val, by omega⟩ c, dif_pos j.isLt, dif_pos j.isLt, mul_comm]
    show _ = patch2 (T (lane2 c)) w1 b1 (brow2 c) (bcol2 c) (LibBlockSum.pos uv j) * w2 (ix2 (LibBlockSum.pos uv j) col)
    rw [e2]
  · intro uv j
    have e : (LibBlockSum.pos uv (Fin.natAdd 24 j) : Fin 288)
        = (⟨uv.val * 32 + (⟨24 + j.val, by omega⟩ : Fin 32).val, by omega⟩ : Fin 288) :=
      Fin.ext (by rw [LibBlockSum.pos_val]; simp only [Fin.coe_natAdd]; omega)
    show W2t (ix2 col (LibBlockSum.pos uv (Fin.natAdd 24 j))) * Lanes.patch2 S (LibBlockSum.pos uv (Fin.natAdd 24 j)) c = 0
    rw [e, h.hw2 col uv ⟨24 + j.val, by omega⟩, dif_neg (by first | rfl | (simp only []; omega) | omega), zero_mul]

/-- The pooled second stage is the image's. -/
theorem pool2_eq (h : Laid X W1t B1t W2t B2t Wf1t Bf1t Wf2t Bf2t Wf3t Bf3t T w1 b1 w2 b2 wf1 bf1 wf2 bf2 wf3 bf3) (S : Lanes.A2 32 9216)
    (hS : ∀ (j : Fin 32) (c : Fin 9216), S (ix2 j c)
      = if hj : j.val < 24 then pool1 (T (lane1 c)) w1 b1 (brow1 c) (bcol1 c) (⟨j.val, hj⟩ : Fin 24) else 0)
    (co : Fin 16) (c : Fin 4096) :
    Lanes.pool2 S W2t B2t co c = pool2 (T (lane2 c)) w1 b1 w2 b2 (brow2 c) (bcol2 c) co := by
  unfold Lanes.pool2 pool2
  rw [conv2_eq h S hS, conv2_eq h S hS, conv2_eq h S hS, conv2_eq h S hS]

/-- The features of lane l are the image's. -/
theorem feat_eq (h : Laid X W1t B1t W2t B2t Wf1t Bf1t Wf2t Bf2t Wf3t Bf3t T w1 b1 w2 b2 wf1 bf1 wf2 bf2 wf3 bf3) (S : Lanes.A2 32 9216)
    (hS : ∀ (j : Fin 32) (c : Fin 9216), S (ix2 j c)
      = if hj : j.val < 24 then pool1 (T (lane1 c)) w1 b1 (brow1 c) (bcol1 c) (⟨j.val, hj⟩ : Fin 24) else 0)
    (k : Fin 256) (l : Fin 256) :
    Lanes.feat S W2t B2t k l = feat (T l) w1 b1 w2 b2 k := by
  unfold Lanes.feat feat
  rw [pool2_eq h S hS]
  have hk := k.isLt
  have hl := l.isLt
  exact pool2_congr T w1 b1 w2 b2 (by first | rfl | (simp only []; omega) | omega) (by first | rfl | (simp only []; omega) | omega) (by first | rfl | (simp only []; omega) | omega) rfl

/-- The whole arrangement, from the patch matrix on, gives the image's logits. -/
theorem logit_eq (h : Laid X W1t B1t W2t B2t Wf1t Bf1t Wf2t Bf2t Wf3t Bf3t T w1 b1 w2 b2 wf1 bf1 wf2 bf2 wf3 bf3) (P : Lanes.A2 64 9216) (S : Lanes.A2 32 9216) (H : Lanes.A2 120 256)
    (hP : ∀ k c, P (ix2 k c) = Lanes.patch1 X k c)
    (hS : ∀ j c, S (ix2 j c) = Lanes.pool1 P W1t B1t j c)
    (hH : ∀ o l, H (ix2 o l) = Lanes.pre1 S W2t B2t Wf1t Bf1t o l) (o : Fin 128) (l : Fin 256) :
    Lanes.logit H Wf2t Bf2t Wf3t Bf3t o l = logit (T l) w1 b1 w2 b2 wf1 bf1 wf2 bf2 wf3 bf3 o := by
  have hS' : ∀ (j : Fin 32) (c : Fin 9216), S (ix2 j c)
      = if hj : j.val < 24 then pool1 (T (lane1 c)) w1 b1 (brow1 c) (bcol1 c) (⟨j.val, hj⟩ : Fin 24) else 0 :=
    fun j c => (hS j c).trans (pool1_eq h P hP j c)
  have h1 : ∀ k : Fin 120, max (H (ix2 k l)) 0 = dense1 (T l) w1 b1 w2 b2 wf1 bf1 k := by
    intro k
    rw [hH]
    unfold Lanes.pre1 dense1
    rw [h.hbf1 k]
    congr 2
    refine Finset.sum_congr rfl fun i _ => ?_
    rw [h.hwf1 k i, feat_eq h S hS' i l, mul_comm]
  have h2 : ∀ k : Fin 84, Lanes.dense2 H Wf2t Bf2t k l = dense2 (T l) w1 b1 w2 b2 wf1 bf1 wf2 bf2 k := by
    intro k
    unfold Lanes.dense2 dense2
    rw [h.hbf2 k]
    congr 2
    refine Finset.sum_congr rfl fun i _ => ?_
    rw [h.hwf2 k i, h1 i, mul_comm]
  unfold Lanes.logit logit
  rw [h.hbf3 o]
  congr 1
  refine Finset.sum_congr rfl fun i _ => ?_
  rw [h.hwf3 o i, h2 i, mul_comm]

end Cert.LeNet.Bridge

end
-- ==== Proof.TapSlice.lean ====
/-
  Lane slices of the pooled first stage and their concatenations, read at an entry.

  The pooled first stage is a matrix of 32 rows and 36 lane blocks of 256 images. A 256-lane slice at lane offset `off`
  reads, at (j, l), the matrix at (j, off + l). Sixteen such slices laid side by side along lanes give a matrix of
  4096 lanes whose lane n·256 + l is lane l of slice n; nine matrices of 32 rows stacked along rows give a matrix of
  288 rows whose row g·32 + j is row j of matrix g.
-/
import proofs.«103082_g2000604803448687_pallaspilot1_85_11_alg».proof.Proof.Gen.KernelIdeal.Skeleton
import Idealize.ShloMosaic.Lib.ValueIdx
import Idealize.ShloMosaic.Lib.Pipeline.Value
import proofs.«103082_g2000604803448687_pallaspilot1_85_11_alg».proof.Proof.Lanes

noncomputable section

namespace Cert.KernelIdeal.Taps

open Idealize.ShloMosaic Idealize.ShloMosaic.ValueIdx Cert.KernelIdeal Cert.KernelIdeal.Gen

variable {α : Type}

/-- Lane n·256 + l of a matrix of sixteen lane blocks. -/
def lane (n : Fin 16) (l : Fin 256) : Fin 4096 := ⟨n.val * 256 + l.val, by omega⟩

/-- Row g·32 + j of a matrix of nine row groups. -/
def row (g : Fin 9) (j : Fin 32) : Fin 288 := ⟨g.val * 32 + j.val, by omega⟩

/-- A 256-lane slice of the 32 × 9216 matrix at lane offset `off`, read at (j, l). -/
theorem slice_apply (s : S32x9216.Idx → α) (off : ℕ) (h : S32x9216.Slices ![0, off] S32x256) (hb : off + 256 ≤ 9216)
    (j : Fin 32) (l : Fin 256) :
    extractStridedSlice S32x256 ![0, off] s h (ix2 j l) = s (ix2 j (⟨off + l.val, by omega⟩ : Fin 9216)) := by
  refine extractStridedSlice_apply _ s h (ix2 j l) _ fun a => ?_
  match a with
  | ⟨0, _⟩ => show j.val = 0 + j.val; omega
  | ⟨1, _⟩ => rfl

/-- Sixteen 32 × 256 pieces side by side along lanes, read at (j, n·256 + l): piece n at (j, l). -/
theorem cat16_apply (x : Fin 16 → (S32x256.Idx → α))
    (h : Shape.Concatenates ([(⟨S32x256, x 0⟩ : (s : Shape) × (s.Idx → α)), (⟨S32x256, x 1⟩ : (s : Shape) × (s.Idx → α)), (⟨S32x256, x 2⟩ : (s : Shape) × (s.Idx → α)), (⟨S32x256, x 3⟩ : (s : Shape) × (s.Idx → α)), (⟨S32x256, x 4⟩ : (s : Shape) × (s.Idx → α)), (⟨S32x256, x 5⟩ : (s : Shape) × (s.Idx → α)), (⟨S32x256, x 6⟩ : (s : Shape) × (s.Idx → α)), (⟨S32x256, x 7⟩ : (s : Shape) × (s.Idx → α)), (⟨S32x256, x 8⟩ : (s : Shape) × (s.Idx → α)), (⟨S32x256, x 9⟩ : (s : Shape) × (s.Idx → α)), (⟨S32x256, x 10⟩ : (s : Shape) × (s.Idx → α)), (⟨S32x256, x 11⟩ : (s : Shape) × (s.Idx → α)), (⟨S32x256, x 12⟩ : (s : Shape) × (s.Idx → α)), (⟨S32x256, x 13⟩ : (s : Shape) × (s.Idx → α)), (⟨S32x256, x 14⟩ : (s : Shape) × (s.Idx → α)), (⟨S32x256, x 15⟩ : (s : Shape) × (s.Idx → α))].map (·.1)) S32x4096 1)
    (j : Fin 32) (n : Fin 16) (l : Fin 256) :
    concatenate S32x4096 1 [⟨S32x256, x 0⟩, ⟨S32x256, x 1⟩, ⟨S32x256, x 2⟩, ⟨S32x256, x 3⟩, ⟨S32x256, x 4⟩, ⟨S32x256, x 5⟩, ⟨S32x256, x 6⟩, ⟨S32x256, x 7⟩, ⟨S32x256, x 8⟩, ⟨S32x256, x 9⟩, ⟨S32x256, x 10⟩, ⟨S32x256, x 11⟩, ⟨S32x256, x 12⟩, ⟨S32x256, x 13⟩, ⟨S32x256, x 14⟩, ⟨S32x256, x 15⟩] h (ix2 j (lane n l)) = x n (ix2 j l) := by
  refine concatenate_ofFn_apply (t := S32x4096) (s₁ := S32x256) 1 x h rfl 256 rfl (ix2 j (lane n l)) n ?_ (ix2 j l) ?_ ?_
  · show (n.val * 256 + l.val) / 256 = n.val
    omega
  · show l.val = (n.val * 256 + l.val) % 256
    omega
  · intro b hb
    match b with
    | ⟨0, _⟩ => rfl
    | ⟨1, _⟩ => exact absurd rfl hb

/-- Lane offset of piece n = 4qh + qw of the group at window position (u, v): lane block (u + qh)·6 + (v + qw). -/
def off (u v : ℕ) (n : Fin 16) : ℕ := ((u + n.val / 4) * 6 + (v + n.val % 4)) * 256

theorem off_le (u v : ℕ) (hu : u < 3) (hv : v < 3) (n : Fin 16) : off u v n + 256 ≤ 9216 := by
  unfold off
  have := n.isLt
  omega

theorem off_slices (u v : ℕ) (hu : u < 3) (hv : v < 3) (n : Fin 16) : S32x9216.Slices ![0, off u v n] S32x256 :=
  ⟨rfl, fun a => match a with
    | ⟨0, _⟩ => Nat.le_of_eq (Nat.zero_add 32)
    | ⟨1, _⟩ => off_le u v hu hv n⟩

/-- Sixteen 256-lane slices of the 32 × 9216 matrix at lane offsets `o n`, side by side: at (j, n·256 + l) the matrix
    at (j, o n + l). -/
theorem group_apply (s : S32x9216.Idx → α) (o : Fin 16 → ℕ) (hs : ∀ n, S32x9216.Slices ![0, o n] S32x256)
    (hb : ∀ n, o n + 256 ≤ 9216)
    (h : Shape.Concatenates ([(⟨S32x256, extractStridedSlice S32x256 ![0, o 0] s (hs 0)⟩ : (s : Shape) × (s.Idx → α)), (⟨S32x256, extractStridedSlice S32x256 ![0, o 1] s (hs 1)⟩ : (s : Shape) × (s.Idx → α)), (⟨S32x256, extractStridedSlice S32x256 ![0, o 2] s (hs 2)⟩ : (s : Shape) × (s.Idx → α)), (⟨S32x256, extractStridedSlice S32x256 ![0, o 3] s (hs 3)⟩ : (s : Shape) × (s.Idx → α)), (⟨S32x256, extractStridedSlice S32x256 ![0, o 4] s (hs 4)⟩ : (s : Shape) × (s.Idx → α)), (⟨S32x256, extractStridedSlice S32x256 ![0, o 5] s (hs 5)⟩ : (s : Shape) × (s.Idx → α)), (⟨S32x256, extractStridedSlice S32x256 ![0, o 6] s (hs 6)⟩ : (s : Shape) × (s.Idx → α)), (⟨S32x256, extractStridedSlice S32x256 ![0, o 7] s (hs 7)⟩ : (s : Shape) × (s.Idx → α)), (⟨S32x256, extractStridedSlice S32x256 ![0, o 8] s (hs 8)⟩ : (s : Shape) × (s.Idx → α)), (⟨S32x256, extractStridedSlice S32x256 ![0, o 9] s (hs 9)⟩ : (s : Shape) × (s.Idx → α)), (⟨S32x256, extractStridedSlice S32x256 ![0, o 10] s (hs 10)⟩ : (s : Shape) × (s.Idx → α)), (⟨S32x256, extractStridedSlice S32x256 ![0, o 11] s (hs 11)⟩ : (s : Shape) × (s.Idx → α)), (⟨S32x256, extractStridedSlice S32x256 ![0, o 12] s (hs 12)⟩ : (s : Shape) × (s.Idx → α)), (⟨S32x256, extractStridedSlice S32x256 ![0, o 13] s (hs 13)⟩ : (s : Shape) × (s.Idx → α)), (⟨S32x256, extractStridedSlice S32x256 ![0, o 14] s (hs 14)⟩ : (s : Shape) × (s.Idx → α)), (⟨S32x256, extractStridedSlice S32x256 ![0, o 15] s (hs 15)⟩ : (s : Shape) × (s.Idx → α))].map (·.1)) S32x4096 1)
    (j : Fin 32) (n : Fin 16) (l : Fin 256) :
    concatenate S32x4096 1 [⟨S32x256, extractStridedSlice S32x256 ![0, o 0] s (hs 0)⟩, ⟨S32x256, extractStridedSlice S32x256 ![0, o 1] s (hs 1)⟩, ⟨S32x256, extractStridedSlice S32x256 ![0, o 2] s (hs 2)⟩, ⟨S32x256, extractStridedSlice S32x256 ![0, o 3] s (hs 3)⟩, ⟨S32x256, extractStridedSlice S32x256 ![0, o 4] s (hs 4)⟩, ⟨S32x256, extractStridedSlice S32x256 ![0, o 5] s (hs 5)⟩, ⟨S32x256, extractStridedSlice S32x256 ![0, o 6] s (hs 6)⟩, ⟨S32x256, extractStridedSlice S32x256 ![0, o 7] s (hs 7)⟩, ⟨S32x256, extractStridedSlice S32x256 ![0, o 8] s (hs 8)⟩, ⟨S32x256, extractStridedSlice S32x256 ![0, o 9] s (hs 9)⟩, ⟨S32x256, extractStridedSlice S32x256 ![0, o 10] s (hs 10)⟩, ⟨S32x256, extractStridedSlice S32x256 ![0, o 11] s (hs 11)⟩, ⟨S32x256, extractStridedSlice S32x256 ![0, o 12] s (hs 12)⟩, ⟨S32x256, extractStridedSlice S32x256 ![0, o 13] s (hs 13)⟩, ⟨S32x256, extractStridedSlice S32x256 ![0, o 14] s (hs 14)⟩, ⟨S32x256, extractStridedSlice S32x256 ![0, o 15] s (hs 15)⟩] h (ix2 j (lane n l))
      = s (ix2 j (⟨o n + l.val, by have := hb n; omega⟩ : Fin 9216)) :=
  (cat16_apply (fun k => extractStridedSlice S32x256 ![0, o k] s (hs k)) h j n l).trans (slice_apply s (o n) (hs n) (hb n) j l)

/-- Nine 32 × 4096 matrices stacked along rows, read at (g·32 + j, c): matrix g at (j, c). -/
theorem cat9_apply (x : Fin 9 → (S32x4096.Idx → α))
    (h : Shape.Concatenates ([(⟨S32x4096, x 0⟩ : (s : Shape) × (s.Idx → α)), (⟨S32x4096, x 1⟩ : (s : Shape) × (s.Idx → α)), (⟨S32x4096, x 2⟩ : (s : Shape) × (s.Idx → α)), (⟨S32x4096, x 3⟩ : (s : Shape) × (s.Idx → α)), (⟨S32x4096, x 4⟩ : (s : Shape) × (s.Idx → α)), (⟨S32x4096, x 5⟩ : (s : Shape) × (s.Idx → α)), (⟨S32x4096, x 6⟩ : (s : Shape) × (s.Idx → α)), (⟨S32x4096, x 7⟩ : (s : Shape) × (s.Idx → α)), (⟨S32x4096, x 8⟩ : (s : Shape) × (s.Idx → α))].map (·.1)) S288x4096 0)
    (g : Fin 9) (j : Fin 32) (c : Fin 4096) :
    concatenate S288x4096 0 [⟨S32x4096, x 0⟩, ⟨S32x4096, x 1⟩, ⟨S32x4096, x 2⟩, ⟨S32x4096, x 3⟩, ⟨S32x4096, x 4⟩, ⟨S32x4096, x 5⟩, ⟨S32x4096, x 6⟩, ⟨S32x4096, x 7⟩, ⟨S32x4096, x 8⟩] h (ix2 (row g j) c) = x g (ix2 j c) := by
  refine concatenate_ofFn_apply (t := S288x4096) (s₁ := S32x4096) 0 x h rfl 32 rfl (ix2 (row g j) c) g ?_ (ix2 j c) ?_ ?_
  · show (g.val * 32 + j.val) / 32 = g.val
    omega
  · show j.val = (g.val * 32 + j.val) % 32
    omega
  · intro b hb
    match b with
    | ⟨0, _⟩ => exact absurd rfl hb
    | ⟨1, _⟩ => rfl

/-- The group of window position (u, v) is row group 3u + v. -/
def grp (u v : Fin 3) : Fin 9 := ⟨3 * u.val + v.val, by omega⟩

/-- The lane of the pooled first stage that lane n·256 + l of the group at window position (u, v) reads. -/
def src (u v : Fin 3) (n : Fin 16) (l : Fin 256) : Fin 9216 :=
  ⟨off u.val v.val n + l.val, by have := off_le u.val v.val u.isLt v.isLt n; omega⟩

/-- The group at window position (u, v), read at (j, n·256 + l). -/
theorem window_apply (s : S32x9216.Idx → α) (u v : Fin 3)
    (h : Shape.Concatenates ([(⟨S32x256, extractStridedSlice S32x256 ![0, off u.val v.val 0] s (off_slices u.val v.val u.isLt v.isLt 0)⟩ : (s : Shape) × (s.Idx → α)), (⟨S32x256, extractStridedSlice S32x256 ![0, off u.val v.val 1] s (off_slices u.val v.val u.isLt v.isLt 1)⟩ : (s : Shape) × (s.Idx → α)), (⟨S32x256, extractStridedSlice S32x256 ![0, off u.val v.val 2] s (off_slices u.val v.val u.isLt v.isLt 2)⟩ : (s : Shape) × (s.Idx → α)), (⟨S32x256, extractStridedSlice S32x256 ![0, off u.val v.val 3] s (off_slices u.val v.val u.isLt v.isLt 3)⟩ : (s : Shape) × (s.Idx → α)), (⟨S32x256, extractStridedSlice S32x256 ![0, off u.val v.val 4] s (off_slices u.val v.val u.isLt v.isLt 4)⟩ : (s : Shape) × (s.Idx → α)), (⟨S32x256, extractStridedSlice S32x256 ![0, off u.val v.val 5] s (off_slices u.val v.val u.isLt v.isLt 5)⟩ : (s : Shape) × (s.Idx → α)), (⟨S32x256, extractStridedSlice S32x256 ![0, off u.val v.val 6] s (off_slices u.val v.val u.isLt v.isLt 6)⟩ : (s : Shape) × (s.Idx → α)), (⟨S32x256, extractStridedSlice S32x256 ![0, off u.val v.val 7] s (off_slices u.val v.val u.isLt v.isLt 7)⟩ : (s : Shape) × (s.Idx → α)), (⟨S32x256, extractStridedSlice S32x256 ![0, off u.val v.val 8] s (off_slices u.val v.val u.isLt v.isLt 8)⟩ : (s : Shape) × (s.Idx → α)), (⟨S32x256, extractStridedSlice S32x256 ![0, off u.val v.val 9] s (off_slices u.val v.val u.isLt v.isLt 9)⟩ : (s : Shape) × (s.Idx → α)), (⟨S32x256, extractStridedSlice S32x256 ![0, off u.val v.val 10] s (off_slices u.val v.val u.isLt v.isLt 10)⟩ : (s : Shape) × (s.Idx → α)), (⟨S32x256, extractStridedSlice S32x256 ![0, off u.val v.val 11] s (off_slices u.val v.val u.isLt v.isLt 11)⟩ : (s : Shape) × (s.Idx → α)), (⟨S32x256, extractStridedSlice S32x256 ![0, off u.val v.val 12] s (off_slices u.val v.val u.isLt v.isLt 12)⟩ : (s : Shape) × (s.Idx → α)), (⟨S32x256, extractStridedSlice S32x256 ![0, off u.val v.val 13] s (off_slices u.val v.val u.isLt v.isLt 13)⟩ : (s : Shape) × (s.Idx → α)), (⟨S32x256, extractStridedSlice S32x256 ![0, off u.val v.val 14] s (off_slices u.val v.val u.isLt v.isLt 14)⟩ : (s : Shape) × (s.Idx → α)), (⟨S32x256, extractStridedSlice S32x256 ![0, off u.val v.val 15] s (off_slices u.val v.val u.isLt v.isLt 15)⟩ : (s : Shape) × (s.Idx → α))].map (·.1)) S32x4096 1)
    (j : Fin 32) (n : Fin 16) (l : Fin 256) :
    concatenate S32x4096 1 [⟨S32x256, extractStridedSlice S32x256 ![0, off u.val v.val 0] s (off_slices u.val v.val u.isLt v.isLt 0)⟩, ⟨S32x256, extractStridedSlice S32x256 ![0, off u.val v.val 1] s (off_slices u.val v.val u.isLt v.isLt 1)⟩, ⟨S32x256, extractStridedSlice S32x256 ![0, off u.val v.val 2] s (off_slices u.val v.val u.isLt v.isLt 2)⟩, ⟨S32x256, extractStridedSlice S32x256 ![0, off u.val v.val 3] s (off_slices u.val v.val u.isLt v.isLt 3)⟩, ⟨S32x256, extractStridedSlice S32x256 ![0, off u.val v.val 4] s (off_slices u.val v.val u.isLt v.isLt 4)⟩, ⟨S32x256, extractStridedSlice S32x256 ![0, off u.val v.val 5] s (off_slices u.val v.val u.isLt v.isLt 5)⟩, ⟨S32x256, extractStridedSlice S32x256 ![0, off u.val v.val 6] s (off_slices u.val v.val u.isLt v.isLt 6)⟩, ⟨S32x256, extractStridedSlice S32x256 ![0, off u.val v.val 7] s (off_slices u.val v.val u.isLt v.isLt 7)⟩, ⟨S32x256, extractStridedSlice S32x256 ![0, off u.val v.val 8] s (off_slices u.val v.val u.isLt v.isLt 8)⟩, ⟨S32x256, extractStridedSlice S32x256 ![0, off u.val v.val 9] s (off_slices u.val v.val u.isLt v.isLt 9)⟩, ⟨S32x256, extractStridedSlice S32x256 ![0, off u.val v.val 10] s (off_slices u.val v.val u.isLt v.isLt 10)⟩, ⟨S32x256, extractStridedSlice S32x256 ![0, off u.val v.val 11] s (off_slices u.val v.val u.isLt v.isLt 11)⟩, ⟨S32x256, extractStridedSlice S32x256 ![0, off u.val v.val 12] s (off_slices u.val v.val u.isLt v.isLt 12)⟩, ⟨S32x256, extractStridedSlice S32x256 ![0, off u.val v.val 13] s (off_slices u.val v.val u.isLt v.isLt 13)⟩, ⟨S32x256, extractStridedSlice S32x256 ![0, off u.val v.val 14] s (off_slices u.val v.val u.isLt v.isLt 14)⟩, ⟨S32x256, extractStridedSlice S32x256 ![0, off u.val v.val 15] s (off_slices u.val v.val u.isLt v.isLt 15)⟩] h (ix2 j (lane n l))
      = s (ix2 j (src u v n l)) :=
  group_apply s (off u.val v.val) (off_slices u.val v.val u.isLt v.isLt) (off_le u.val v.val u.isLt v.isLt) h j n l

/-- The second stage's patch matrix at row (3u + v)·32 + j and lane n·256 + l is the pooled first stage at (j, src). -/
theorem patch2_src (s : Cert.LeNet.Lanes.A2 32 9216) (u v : Fin 3) (j : Fin 32) (n : Fin 16) (l : Fin 256) :
    Cert.LeNet.Lanes.patch2 s (row (grp u v) j) (lane n l) = s (ix2 j (src u v n l)) := by
  unfold Cert.LeNet.Lanes.patch2
  have hu := u.isLt
  have hv := v.isLt
  have hj := j.isLt
  have hn := n.isLt
  have hl := l.isLt
  refine congrArg s (congrArg₂ (ix2 (n0 := 32) (n1 := 9216)) (Fin.ext ?_) (Fin.ext ?_))
  · show ((3 * u.val + v.val) * 32 + j.val) % 32 = j.val
    omega
  · show ((((3 * u.val + v.val) * 32 + j.val) / 96 + (n.val * 256 + l.val) / 256 / 4) * 6
        + (((3 * u.val + v.val) * 32 + j.val) / 32 % 3 + (n.val * 256 + l.val) / 256 % 4)) * 256 + (n.val * 256 + l.val) % 256
      = ((u.val + n.val / 4) * 6 + (v.val + n.val % 4)) * 256 + l.val
    omega

/-- Nine matrices, the one of row group 3u + v reading the pooled first stage at (j, src u v n l), stacked along rows:
    the second stage's patch matrix. -/
theorem patches_apply (s : Cert.LeNet.Lanes.A2 32 9216) (G : Fin 9 → (S32x4096.Idx → EReal))
    (hG : ∀ (u v : Fin 3) (j : Fin 32) (n : Fin 16) (l : Fin 256), G (grp u v) (ix2 j (lane n l)) = s (ix2 j (src u v n l)))
    (h : Shape.Concatenates ([(⟨S32x4096, G 0⟩ : (s : Shape) × (s.Idx → EReal)), (⟨S32x4096, G 1⟩ : (s : Shape) × (s.Idx → EReal)), (⟨S32x4096, G 2⟩ : (s : Shape) × (s.Idx → EReal)), (⟨S32x4096, G 3⟩ : (s : Shape) × (s.Idx → EReal)), (⟨S32x4096, G 4⟩ : (s : Shape) × (s.Idx → EReal)), (⟨S32x4096, G 5⟩ : (s : Shape) × (s.Idx → EReal)), (⟨S32x4096, G 6⟩ : (s : Shape) × (s.Idx → EReal)), (⟨S32x4096, G 7⟩ : (s : Shape) × (s.Idx → EReal)), (⟨S32x4096, G 8⟩ : (s : Shape) × (s.Idx → EReal))].map (·.1)) S288x4096 0)
    (r : Fin 288) (c : Fin 4096) :
    concatenate S288x4096 0 [⟨S32x4096, G 0⟩, ⟨S32x4096, G 1⟩, ⟨S32x4096, G 2⟩, ⟨S32x4096, G 3⟩, ⟨S32x4096, G 4⟩, ⟨S32x4096, G 5⟩, ⟨S32x4096, G 6⟩, ⟨S32x4096, G 7⟩, ⟨S32x4096, G 8⟩] h (ix2 r c) = Cert.LeNet.Lanes.patch2 s r c := by
  obtain ⟨u, v, j, rfl⟩ : ∃ (u v : Fin 3) (j : Fin 32), r = row (grp u v) j :=
    ⟨⟨r.val / 96, by omega⟩, ⟨r.val / 32 % 3, by omega⟩, ⟨r.val % 32, by omega⟩,
      Fin.ext (by show r.val = (3 * (r.val / 96) + r.val / 32 % 3) * 32 + r.val % 32; omega)⟩
  obtain ⟨n, l, rfl⟩ : ∃ (n : Fin 16) (l : Fin 256), c = lane n l :=
    ⟨⟨c.val / 256, by omega⟩, ⟨c.val % 256, by omega⟩, Fin.ext (by show c.val = c.val / 256 * 256 + c.val % 256; omega)⟩
  rw [cat9_apply G h (grp u v) j (lane n l), hG u v j n l, patch2_src]

end Cert.KernelIdeal.Taps

end
-- ==== Proof.TapGroups.lean ====
/-
  The nine row groups of the second stage's patch matrix. The group of window position (u, v) lays sixteen 256-lane
  slices of the pooled first stage side by side: piece 4qh + qw is lane block (u + qh)·6 + (v + qw). Read at
  (j, n·256 + l) each group is the pooled first stage at row j and lane `src u v n l`; stacked along rows the nine
  groups are the patch matrix.
-/
import proofs.«103082_g2000604803448687_pallaspilot1_85_11_alg».proof.Proof.TapSlice

noncomputable section

namespace Cert.KernelIdeal.Taps

open Idealize.ShloMosaic Idealize.ShloMosaic.ValueIdx Cert.KernelIdeal Cert.KernelIdeal.Gen

section Groups

variable (s : FVec Ideal S32x9216 .bf16) (P1 : FVec Ideal S64x9216 .bf16) (L1 : Vec Ideal S128x64 .bf16) (L2 : Vec Ideal S128x1 .f32)

theorem group00_apply (j : Fin 32) (n : Fin 16) (l : Fin 256) :
    k0_pay76 P1 L1 L2 (ix2 j (lane n l)) = k0_pay75 P1 L1 L2 (ix2 j (src 0 0 n l)) :=
  window_apply (k0_pay75 P1 L1 L2) 0 0 concatenates_S32x256_S32x256_S32x256_S32x256_S32x256_S32x256_S32x256_S32x256_S32x256_S32x256_S32x256_S32x256_S32x256_S32x256_S32x256_S32x256_S32x4096_d1 j n l

theorem group01_apply (j : Fin 32) (n : Fin 16) (l : Fin 256) :
    k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2) (ix2 j (lane n l)) = k0_pay75 P1 L1 L2 (ix2 j (src 0 1 n l)) :=
  window_apply (k0_pay75 P1 L1 L2) 0 1 concatenates_S32x256_S32x256_S32x256_S32x256_S32x256_S32x256_S32x256_S32x256_S32x256_S32x256_S32x256_S32x256_S32x256_S32x256_S32x256_S32x256_S32x4096_d1 j n l

theorem group02_apply (j : Fin 32) (n : Fin 16) (l : Fin 256) : k0_pay93 s (ix2 j (lane n l)) = s (ix2 j (src 0 2 n l)) :=
  window_apply s 0 2 concatenates_S32x256_S32x256_S32x256_S32x256_S32x256_S32x256_S32x256_S32x256_S32x256_S32x256_S32x256_S32x256_S32x256_S32x256_S32x256_S32x256_S32x4096_d1 j n l

theorem group10_apply (j : Fin 32) (n : Fin 16) (l : Fin 256) : k0_pay94 s (ix2 j (lane n l)) = s (ix2 j (src 1 0 n l)) :=
  window_apply s 1 0 concatenates_S32x256_S32x256_S32x256_S32x256_S32x256_S32x256_S32x256_S32x256_S32x256_S32x256_S32x256_S32x256_S32x256_S32x256_S32x256_S32x256_S32x4096_d1 j n l

theorem group11_apply (j : Fin 32) (n : Fin 16) (l : Fin 256) : k0_pay95 s (ix2 j (lane n l)) = s (ix2 j (src 1 1 n l)) :=
  window_apply s 1 1 concatenates_S32x256_S32x256_S32x256_S32x256_S32x256_S32x256_S32x256_S32x256_S32x256_S32x256_S32x256_S32x256_S32x256_S32x256_S32x256_S32x256_S32x4096_d1 j n l

theorem group12_apply (j : Fin 32) (n : Fin 16) (l : Fin 256) :
    k0_pay103 s (k0_pay96 s) (k0_pay97 s) (k0_pay98 s) (k0_pay99 s) (k0_pay100 s) (k0_pay101 s) (k0_pay102 s) (ix2 j (lane n l)) = s (ix2 j (src 1 2 n l)) :=
  window_apply s 1 2 concatenates_S32x256_S32x256_S32x256_S32x256_S32x256_S32x256_S32x256_S32x256_S32x256_S32x256_S32x256_S32x256_S32x256_S32x256_S32x256_S32x256_S32x4096_d1 j n l

theorem group20_apply (j : Fin 32) (n : Fin 16) (l : Fin 256) : k0_pay104 s (ix2 j (lane n l)) = s (ix2 j (src 2 0 n l)) :=
  window_apply s 2 0 concatenates_S32x256_S32x256_S32x256_S32x256_S32x256_S32x256_S32x256_S32x256_S32x256_S32x256_S32x256_S32x256_S32x256_S32x256_S32x256_S32x256_S32x4096_d1 j n l

theorem group21_apply (j : Fin 32) (n : Fin 16) (l : Fin 256) : k0_pay105 s (ix2 j (lane n l)) = s (ix2 j (src 2 1 n l)) :=
  window_apply s 2 1 concatenates_S32x256_S32x256_S32x256_S32x256_S32x256_S32x256_S32x256_S32x256_S32x256_S32x256_S32x256_S32x256_S32x256_S32x256_S32x256_S32x256_S32x4096_d1 j n l

theorem group22_apply (j : Fin 32) (n : Fin 16) (l : Fin 256) :
    concatenate S32x4096 1 [⟨S32x256, k0_pay106 s⟩, ⟨S32x256, k0_pay107 s⟩, ⟨S32x256, k0_pay108 s⟩, ⟨S32x256, k0_pay109 s⟩, ⟨S32x256, k0_pay110 s⟩, ⟨S32x256, k0_pay111 s⟩, ⟨S32x256, k0_pay112 s⟩, ⟨S32x256, k0_pay113 s⟩, ⟨S32x256, k0_pay114 s⟩, ⟨S32x256, k0_pay115 s⟩, ⟨S32x256, k0_pay116 s⟩, ⟨S32x256, k0_pay117 s⟩, ⟨S32x256, k0_pay118 s⟩, ⟨S32x256, k0_pay119 s⟩, ⟨S32x256, k0_pay120 s⟩, ⟨S32x256, k0_pay121 s⟩] concatenates_S32x256_S32x256_S32x256_S32x256_S32x256_S32x256_S32x256_S32x256_S32x256_S32x256_S32x256_S32x256_S32x256_S32x256_S32x256_S32x256_S32x4096_d1 (ix2 j (lane n l)) = s (ix2 j (src 2 2 n l)) :=
  window_apply s 2 2 concatenates_S32x256_S32x256_S32x256_S32x256_S32x256_S32x256_S32x256_S32x256_S32x256_S32x256_S32x256_S32x256_S32x256_S32x256_S32x256_S32x256_S32x4096_d1 j n l

/-- The nine groups as the kernel body builds them, indexed by row group. -/
theorem groups_apply (u v : Fin 3) (j : Fin 32) (n : Fin 16) (l : Fin 256) :
    (![k0_pay76 P1 L1 L2,
      k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2),
      k0_pay93 (k0_pay75 P1 L1 L2),
      k0_pay94 (k0_pay75 P1 L1 L2),
      k0_pay95 (k0_pay75 P1 L1 L2),
      k0_pay103 (k0_pay75 P1 L1 L2) (k0_pay96 (k0_pay75 P1 L1 L2)) (k0_pay97 (k0_pay75 P1 L1 L2)) (k0_pay98 (k0_pay75 P1 L1 L2)) (k0_pay99 (k0_pay75 P1 L1 L2)) (k0_pay100 (k0_pay75 P1 L1 L2)) (k0_pay101 (k0_pay75 P1 L1 L2)) (k0_pay102 (k0_pay75 P1 L1 L2)),
      k0_pay104 (k0_pay75 P1 L1 L2),
      k0_pay105 (k0_pay75 P1 L1 L2),
      concatenate S32x4096 1 [⟨S32x256, k0_pay106 (k0_pay75 P1 L1 L2)⟩, ⟨S32x256, k0_pay107 (k0_pay75 P1 L1 L2)⟩, ⟨S32x256, k0_pay108 (k0_pay75 P1 L1 L2)⟩, ⟨S32x256, k0_pay109 (k0_pay75 P1 L1 L2)⟩, ⟨S32x256, k0_pay110 (k0_pay75 P1 L1 L2)⟩, ⟨S32x256, k0_pay111 (k0_pay75 P1 L1 L2)⟩, ⟨S32x256, k0_pay112 (k0_pay75 P1 L1 L2)⟩, ⟨S32x256, k0_pay113 (k0_pay75 P1 L1 L2)⟩, ⟨S32x256, k0_pay114 (k0_pay75 P1 L1 L2)⟩, ⟨S32x256, k0_pay115 (k0_pay75 P1 L1 L2)⟩, ⟨S32x256, k0_pay116 (k0_pay75 P1 L1 L2)⟩, ⟨S32x256, k0_pay117 (k0_pay75 P1 L1 L2)⟩, ⟨S32x256, k0_pay118 (k0_pay75 P1 L1 L2)⟩, ⟨S32x256, k0_pay119 (k0_pay75 P1 L1 L2)⟩, ⟨S32x256, k0_pay120 (k0_pay75 P1 L1 L2)⟩, ⟨S32x256, k0_pay121 (k0_pay75 P1 L1 L2)⟩] concatenates_S32x256_S32x256_S32x256_S32x256_S32x256_S32x256_S32x256_S32x256_S32x256_S32x256_S32x256_S32x256_S32x256_S32x256_S32x256_S32x256_S32x4096_d1] : Fin 9 → FVec Ideal S32x4096 .bf16) (grp u v) (ix2 j (lane n l))
      = k0_pay75 P1 L1 L2 (ix2 j (src u v n l)) := by
  match u, v with
  | ⟨0, _⟩, ⟨0, _⟩ => exact group00_apply P1 L1 L2 j n l
  | ⟨0, _⟩, ⟨1, _⟩ => exact group01_apply P1 L1 L2 j n l
  | ⟨0, _⟩, ⟨2, _⟩ => exact group02_apply (k0_pay75 P1 L1 L2) j n l
  | ⟨1, _⟩, ⟨0, _⟩ => exact group10_apply (k0_pay75 P1 L1 L2) j n l
  | ⟨1, _⟩, ⟨1, _⟩ => exact group11_apply (k0_pay75 P1 L1 L2) j n l
  | ⟨1, _⟩, ⟨2, _⟩ => exact group12_apply (k0_pay75 P1 L1 L2) j n l
  | ⟨2, _⟩, ⟨0, _⟩ => exact group20_apply (k0_pay75 P1 L1 L2) j n l
  | ⟨2, _⟩, ⟨1, _⟩ => exact group21_apply (k0_pay75 P1 L1 L2) j n l
  | ⟨2, _⟩, ⟨2, _⟩ => exact group22_apply (k0_pay75 P1 L1 L2) j n l

/-- The patch matrix the kernel body builds, read at (r, c). -/
theorem patchMatrix_apply (r : Fin 288) (c : Fin 4096) :
    concatenate S288x4096 0 [⟨S32x4096, k0_pay76 P1 L1 L2⟩,
      ⟨S32x4096, k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2)⟩,
      ⟨S32x4096, k0_pay93 (k0_pay75 P1 L1 L2)⟩,
      ⟨S32x4096, k0_pay94 (k0_pay75 P1 L1 L2)⟩,
      ⟨S32x4096, k0_pay95 (k0_pay75 P1 L1 L2)⟩,
      ⟨S32x4096, k0_pay103 (k0_pay75 P1 L1 L2) (k0_pay96 (k0_pay75 P1 L1 L2)) (k0_pay97 (k0_pay75 P1 L1 L2)) (k0_pay98 (k0_pay75 P1 L1 L2)) (k0_pay99 (k0_pay75 P1 L1 L2)) (k0_pay100 (k0_pay75 P1 L1 L2)) (k0_pay101 (k0_pay75 P1 L1 L2)) (k0_pay102 (k0_pay75 P1 L1 L2))⟩,
      ⟨S32x4096, k0_pay104 (k0_pay75 P1 L1 L2)⟩,
      ⟨S32x4096, k0_pay105 (k0_pay75 P1 L1 L2)⟩,
      ⟨S32x4096, concatenate S32x4096 1 [⟨S32x256, k0_pay106 (k0_pay75 P1 L1 L2)⟩, ⟨S32x256, k0_pay107 (k0_pay75 P1 L1 L2)⟩, ⟨S32x256, k0_pay108 (k0_pay75 P1 L1 L2)⟩, ⟨S32x256, k0_pay109 (k0_pay75 P1 L1 L2)⟩, ⟨S32x256, k0_pay110 (k0_pay75 P1 L1 L2)⟩, ⟨S32x256, k0_pay111 (k0_pay75 P1 L1 L2)⟩, ⟨S32x256, k0_pay112 (k0_pay75 P1 L1 L2)⟩, ⟨S32x256, k0_pay113 (k0_pay75 P1 L1 L2)⟩, ⟨S32x256, k0_pay114 (k0_pay75 P1 L1 L2)⟩, ⟨S32x256, k0_pay115 (k0_pay75 P1 L1 L2)⟩, ⟨S32x256, k0_pay116 (k0_pay75 P1 L1 L2)⟩, ⟨S32x256, k0_pay117 (k0_pay75 P1 L1 L2)⟩, ⟨S32x256, k0_pay118 (k0_pay75 P1 L1 L2)⟩, ⟨S32x256, k0_pay119 (k0_pay75 P1 L1 L2)⟩, ⟨S32x256, k0_pay120 (k0_pay75 P1 L1 L2)⟩, ⟨S32x256, k0_pay121 (k0_pay75 P1 L1 L2)⟩] concatenates_S32x256_S32x256_S32x256_S32x256_S32x256_S32x256_S32x256_S32x256_S32x256_S32x256_S32x256_S32x256_S32x256_S32x256_S32x256_S32x256_S32x4096_d1⟩] concatenates_S32x4096_S32x4096_S32x4096_S32x4096_S32x4096_S32x4096_S32x4096_S32x4096_S32x4096_S288x4096_d0 (ix2 r c)
      = Cert.LeNet.Lanes.patch2 (k0_pay75 P1 L1 L2) r c :=
  patches_apply (k0_pay75 P1 L1 L2) (![k0_pay76 P1 L1 L2,
      k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2),
      k0_pay93 (k0_pay75 P1 L1 L2),
      k0_pay94 (k0_pay75 P1 L1 L2),
      k0_pay95 (k0_pay75 P1 L1 L2),
      k0_pay103 (k0_pay75 P1 L1 L2) (k0_pay96 (k0_pay75 P1 L1 L2)) (k0_pay97 (k0_pay75 P1 L1 L2)) (k0_pay98 (k0_pay75 P1 L1 L2)) (k0_pay99 (k0_pay75 P1 L1 L2)) (k0_pay100 (k0_pay75 P1 L1 L2)) (k0_pay101 (k0_pay75 P1 L1 L2)) (k0_pay102 (k0_pay75 P1 L1 L2)),
      k0_pay104 (k0_pay75 P1 L1 L2),
      k0_pay105 (k0_pay75 P1 L1 L2),
      concatenate S32x4096 1 [⟨S32x256, k0_pay106 (k0_pay75 P1 L1 L2)⟩, ⟨S32x256, k0_pay107 (k0_pay75 P1 L1 L2)⟩, ⟨S32x256, k0_pay108 (k0_pay75 P1 L1 L2)⟩, ⟨S32x256, k0_pay109 (k0_pay75 P1 L1 L2)⟩, ⟨S32x256, k0_pay110 (k0_pay75 P1 L1 L2)⟩, ⟨S32x256, k0_pay111 (k0_pay75 P1 L1 L2)⟩, ⟨S32x256, k0_pay112 (k0_pay75 P1 L1 L2)⟩, ⟨S32x256, k0_pay113 (k0_pay75 P1 L1 L2)⟩, ⟨S32x256, k0_pay114 (k0_pay75 P1 L1 L2)⟩, ⟨S32x256, k0_pay115 (k0_pay75 P1 L1 L2)⟩, ⟨S32x256, k0_pay116 (k0_pay75 P1 L1 L2)⟩, ⟨S32x256, k0_pay117 (k0_pay75 P1 L1 L2)⟩, ⟨S32x256, k0_pay118 (k0_pay75 P1 L1 L2)⟩, ⟨S32x256, k0_pay119 (k0_pay75 P1 L1 L2)⟩, ⟨S32x256, k0_pay120 (k0_pay75 P1 L1 L2)⟩, ⟨S32x256, k0_pay121 (k0_pay75 P1 L1 L2)⟩] concatenates_S32x256_S32x256_S32x256_S32x256_S32x256_S32x256_S32x256_S32x256_S32x256_S32x256_S32x256_S32x256_S32x256_S32x256_S32x256_S32x256_S32x4096_d1] : Fin 9 → FVec Ideal S32x4096 .bf16)
    (groups_apply P1 L1 L2) concatenates_S32x4096_S32x4096_S32x4096_S32x4096_S32x4096_S32x4096_S32x4096_S32x4096_S32x4096_S288x4096_d0 r c

end Groups

end Cert.KernelIdeal.Taps

end
-- ==== Proof.TapConv.lean ====
/-
  The second convolution, its pooling, the features and the first dense layer, each as a function of the array before it
  and read at an entry.

  The convolution is the weight matrix times the patch matrix plus the bias column. Its 64 rows are four groups of
  sixteen channels; the pooling is the maximum over the four groups and then with zero. The 256 feature rows are the
  sixteen 256-lane blocks of the pooled matrix stacked along rows: row p·16 + co, lane l is the pooled matrix at
  (co, p·256 + l). The dense layer is again a matrix product plus a bias column.
-/
import proofs.«103082_g2000604803448687_pallaspilot1_85_11_alg».proof.Proof.Gen.KernelIdeal.Skeleton
import proofs.«103082_g2000604803448687_pallaspilot1_85_11_alg».proof.Proof.Lanes
import proofs.«103082_g2000604803448687_pallaspilot1_85_11_alg».proof.Proof.LibMatProduct
import proofs.«103082_g2000604803448687_pallaspilot1_85_11_alg».proof.Proof.LibKeepdims
import Idealize.ShloMosaic.Lib.ValueIdx
import Idealize.ShloMosaic.Lib.Pipeline.Value

noncomputable section

namespace Cert.KernelIdeal.Taps

open Idealize.ShloMosaic Idealize.ShloMosaic.ValueIdx Cert.KernelIdeal Cert.KernelIdeal.Gen Cert.LeNet

variable {α : Type}

/-! ## The second convolution -/

/-- The weight matrix times the patch matrix into a zero accumulator, plus the bias column along lanes. -/
def conv (P2 : FVec Ideal S288x4096 .bf16) (L3 : Vec Ideal S64x288 .bf16) (L4 : Vec Ideal S64x1 .f32) : FVec Ideal S64x4096 .f32 :=
  addf (matmul dot_S64x288_S288x4096_S64x4096_1_0_0_1_n_n none (shapeCast S64x288 L3 shapeCasts_S64x288_S64x288 : FVec Ideal S64x288 .bf16) P2
      (constant S64x4096 .f32 0x00000000#32))
    (broadcastTo S64x4096 (shapeCast S64x1 L4 shapeCasts_S64x1_S64x1 : FVec Ideal S64x1 .f32) broadcasts_S64x1_S64x4096)

theorem conv_apply (s : Lanes.A2 32 9216) (P2 : FVec Ideal S288x4096 .bf16)
    (hP : ∀ (r : Fin 288) (c : Fin 4096), P2 (ix2 r c) = Lanes.patch2 s r c)
    (L3 : Vec Ideal S64x288 .bf16) (L4 : Vec Ideal S64x1 .f32) (r : Fin 64) (c : Fin 4096) :
    conv P2 L3 L4 (ix2 r c) = Lanes.conv2 s L3 L4 r c := by
  unfold conv Lanes.conv2
  rw [addf_apply, shapeCast_self, shapeCast_self]
  refine congrArg₂ (· + ·) ?_ ?_
  · refine (Cert.LibMatProduct.matmul_zero_apply dot_S64x288_S288x4096_S64x4096_1_0_0_1_n_n none rfl rfl rfl rfl rfl rfl
      L3 P2 r c).trans ?_
    exact Finset.sum_congr rfl fun k _ => congrArg (L3 (ix2 r k) * ·) (hP k c)
  · exact Cert.LibKeepdims.broadcastTo_a1_ab_apply L4 broadcasts_S64x1_S64x4096 r c

/-! ## The pooling -/

/-- Group d of the four sixteen-row groups of a 64 × 4096 matrix. -/
theorem quarter_apply (C : S64x4096.Idx → α) (d : ℕ) (hd : d < 4) (h : S4x16x4096.Slices ![d, 0, 0] S1x16x4096)
    (co : Fin 16) (c : Fin 4096) :
    shapeCast S16x4096 (extractStridedSlice S1x16x4096 ![d, 0, 0] (shapeCast S4x16x4096 C shapeCasts_S64x4096_S4x16x4096) h)
        shapeCasts_S1x16x4096_S16x4096 (ix2 co c)
      = C (ix2 (⟨d * 16 + co.val, by omega⟩ : Fin 64) c) := by
  have hco := co.isLt
  have hc := c.isLt
  refine (shapeCast_apply _ shapeCasts_S1x16x4096_S16x4096 (ix2 co c) (ix3 (0 : Fin 1) co c) ?_).trans ?_
  · rw [Shape.rowMajor_val_three, Shape.rowMajor_val_two]
    show (0 * 16 + co.val) * 4096 + c.val = co.val * 4096 + c.val
    omega
  refine (extractStridedSlice_apply _ _ h (ix3 (0 : Fin 1) co c) (ix3 (⟨d, hd⟩ : Fin 4) co c) fun a => ?_).trans ?_
  · match a with
    | ⟨0, _⟩ => rfl
    | ⟨1, _⟩ => show co.val = 0 + co.val; omega
    | ⟨2, _⟩ => show c.val = 0 + c.val; omega
  refine shapeCast_apply C shapeCasts_S64x4096_S4x16x4096 (ix3 (⟨d, hd⟩ : Fin 4) co c) (ix2 (⟨d * 16 + co.val, by omega⟩ : Fin 64) c) ?_
  rw [Shape.rowMajor_val_three, Shape.rowMajor_val_two]
  rfl

/-- The maximum over the four groups, then with zero. -/
def pool (C : FVec Ideal S64x4096 .f32) : FVec Ideal S16x4096 .bf16 :=
  truncf .bf16
    (maximumf
      (maximumf
        (maximumf
          (shapeCast S16x4096 (extractStridedSlice S1x16x4096 ![0, 0, 0] (shapeCast S4x16x4096 C shapeCasts_S64x4096_S4x16x4096) slices_S4x16x4096_o0_0_0_S1x16x4096) shapeCasts_S1x16x4096_S16x4096)
          (shapeCast S16x4096 (extractStridedSlice S1x16x4096 ![1, 0, 0] (shapeCast S4x16x4096 C shapeCasts_S64x4096_S4x16x4096) slices_S4x16x4096_o1_0_0_S1x16x4096) shapeCasts_S1x16x4096_S16x4096))
        (maximumf
          (shapeCast S16x4096 (extractStridedSlice S1x16x4096 ![2, 0, 0] (shapeCast S4x16x4096 C shapeCasts_S64x4096_S4x16x4096) slices_S4x16x4096_o2_0_0_S1x16x4096) shapeCasts_S1x16x4096_S16x4096)
          (shapeCast S16x4096 (extractStridedSlice S1x16x4096 ![3, 0, 0] (shapeCast S4x16x4096 C shapeCasts_S64x4096_S4x16x4096) slices_S4x16x4096_o3_0_0_S1x16x4096) shapeCasts_S1x16x4096_S16x4096)))
      (broadcast S16x4096 (Scalar.ofBits .f32 0x00000000#32)))
    bitsLt_bf16_f32

theorem pool_apply (s : Lanes.A2 32 9216) (W : Lanes.A2 64 288) (B : Lanes.A2 64 1) (C : FVec Ideal S64x4096 .f32)
    (hC : ∀ (r : Fin 64) (c : Fin 4096), C (ix2 r c) = Lanes.conv2 s W B r c) (co : Fin 16) (c : Fin 4096) :
    pool C (ix2 co c) = Lanes.pool2 s W B co c := by
  unfold pool Lanes.pool2
  rw [truncf_apply, maximumf_apply, maximumf_apply, maximumf_apply, maximumf_apply, broadcast_apply,
    quarter_apply C 0 (by omega) slices_S4x16x4096_o0_0_0_S1x16x4096 co c,
    quarter_apply C 1 (by omega) slices_S4x16x4096_o1_0_0_S1x16x4096 co c,
    quarter_apply C 2 (by omega) slices_S4x16x4096_o2_0_0_S1x16x4096 co c,
    quarter_apply C 3 (by omega) slices_S4x16x4096_o3_0_0_S1x16x4096 co c, hC, hC, hC, hC]
  have hz : (Scalar.ofBits (F := Ideal) .f32 0x00000000#32 : EReal) = 0 := Ideal.ofBits_zero_f32
  rw [hz]
  have e0 : (⟨0 * 16 + co.val, by omega⟩ : Fin 64) = ⟨co.val, by omega⟩ := Fin.ext (by show 0 * 16 + co.val = co.val; omega)
  have e1 : (⟨1 * 16 + co.val, by omega⟩ : Fin 64) = ⟨16 + co.val, by omega⟩ := Fin.ext (by show 1 * 16 + co.val = 16 + co.val; omega)
  have e2 : (⟨2 * 16 + co.val, by omega⟩ : Fin 64) = ⟨32 + co.val, by omega⟩ := Fin.ext (by show 2 * 16 + co.val = 32 + co.val; omega)
  have e3 : (⟨3 * 16 + co.val, by omega⟩ : Fin 64) = ⟨48 + co.val, by omega⟩ := Fin.ext (by show 3 * 16 + co.val = 48 + co.val; omega)
  rw [e0, e1, e2, e3]

/-! ## The features -/

/-- Row p·16 + co of a matrix of sixteen row groups. -/
def frow (p : Fin 16) (co : Fin 16) : Fin 256 := ⟨p.val * 16 + co.val, by omega⟩

/-- Sixteen 16 × 256 pieces stacked along rows, read at (p·16 + co, l): piece p at (co, l). -/
theorem catRows16_apply (x : Fin 16 → (S16x256.Idx → α))
    (h : Shape.Concatenates ([(⟨S16x256, x 0⟩ : (s : Shape) × (s.Idx → α)), (⟨S16x256, x 1⟩ : (s : Shape) × (s.Idx → α)), (⟨S16x256, x 2⟩ : (s : Shape) × (s.Idx → α)), (⟨S16x256, x 3⟩ : (s : Shape) × (s.Idx → α)), (⟨S16x256, x 4⟩ : (s : Shape) × (s.Idx → α)), (⟨S16x256, x 5⟩ : (s : Shape) × (s.Idx → α)), (⟨S16x256, x 6⟩ : (s : Shape) × (s.Idx → α)), (⟨S16x256, x 7⟩ : (s : Shape) × (s.Idx → α)), (⟨S16x256, x 8⟩ : (s : Shape) × (s.Idx → α)), (⟨S16x256, x 9⟩ : (s : Shape) × (s.Idx → α)), (⟨S16x256, x 10⟩ : (s : Shape) × (s.Idx → α)), (⟨S16x256, x 11⟩ : (s : Shape) × (s.Idx → α)), (⟨S16x256, x 12⟩ : (s : Shape) × (s.Idx → α)), (⟨S16x256, x 13⟩ : (s : Shape) × (s.Idx → α)), (⟨S16x256, x 14⟩ : (s : Shape) × (s.Idx → α)), (⟨S16x256, x 15⟩ : (s : Shape) × (s.Idx → α))].map (·.1)) S256x256 0)
    (p co : Fin 16) (l : Fin 256) :
    concatenate S256x256 0 [⟨S16x256, x 0⟩, ⟨S16x256, x 1⟩, ⟨S16x256, x 2⟩, ⟨S16x256, x 3⟩, ⟨S16x256, x 4⟩, ⟨S16x256, x 5⟩, ⟨S16x256, x 6⟩, ⟨S16x256, x 7⟩, ⟨S16x256, x 8⟩, ⟨S16x256, x 9⟩, ⟨S16x256, x 10⟩, ⟨S16x256, x 11⟩, ⟨S16x256, x 12⟩, ⟨S16x256, x 13⟩, ⟨S16x256, x 14⟩, ⟨S16x256, x 15⟩] h (ix2 (frow p co) l) = x p (ix2 co l) := by
  refine concatenate_ofFn_apply (t := S256x256) (s₁ := S16x256) 0 x h rfl 16 rfl (ix2 (frow p co) l) p ?_ (ix2 co l) ?_ ?_
  · show (p.val * 16 + co.val) / 16 = p.val
    omega
  · show co.val = (p.val * 16 + co.val) % 16
    omega
  · intro b hb
    match b with
    | ⟨0, _⟩ => exact absurd rfl hb
    | ⟨1, _⟩ => rfl

/-- A 256-lane slice of the 16 × 4096 matrix at lane offset `off`, read at (co, l). -/
theorem fslice_apply (Q : S16x4096.Idx → α) (off : ℕ) (h : S16x4096.Slices ![0, off] S16x256) (hb : off + 256 ≤ 4096)
    (co : Fin 16) (l : Fin 256) :
    extractStridedSlice S16x256 ![0, off] Q h (ix2 co l) = Q (ix2 co (⟨off + l.val, by omega⟩ : Fin 4096)) := by
  refine extractStridedSlice_apply _ Q h (ix2 co l) _ fun a => ?_
  match a with
  | ⟨0, _⟩ => show co.val = 0 + co.val; omega
  | ⟨1, _⟩ => rfl

theorem fslices (p : Fin 16) : S16x4096.Slices ![0, p.val * 256] S16x256 :=
  ⟨rfl, fun a => match a with
    | ⟨0, _⟩ => Nat.le_of_eq (Nat.zero_add 16)
    | ⟨1, _⟩ => by show p.val * 256 + 256 ≤ 4096; omega⟩

/-- The sixteen 256-lane blocks of the pooled matrix stacked along rows. -/
def feats (Q : FVec Ideal S16x4096 .bf16) : FVec Ideal S256x256 .bf16 :=
  concatenate S256x256 0 [⟨S16x256, extractStridedSlice S16x256 ![0, 0] Q slices_S16x4096_o0_0_S16x256⟩, ⟨S16x256, extractStridedSlice S16x256 ![0, 256] Q slices_S16x4096_o0_256_S16x256⟩, ⟨S16x256, extractStridedSlice S16x256 ![0, 512] Q slices_S16x4096_o0_512_S16x256⟩, ⟨S16x256, extractStridedSlice S16x256 ![0, 768] Q slices_S16x4096_o0_768_S16x256⟩, ⟨S16x256, extractStridedSlice S16x256 ![0, 1024] Q slices_S16x4096_o0_1024_S16x256⟩, ⟨S16x256, extractStridedSlice S16x256 ![0, 1280] Q slices_S16x4096_o0_1280_S16x256⟩, ⟨S16x256, extractStridedSlice S16x256 ![0, 1536] Q slices_S16x4096_o0_1536_S16x256⟩, ⟨S16x256, extractStridedSlice S16x256 ![0, 1792] Q slices_S16x4096_o0_1792_S16x256⟩, ⟨S16x256, extractStridedSlice S16x256 ![0, 2048] Q slices_S16x4096_o0_2048_S16x256⟩, ⟨S16x256, extractStridedSlice S16x256 ![0, 2304] Q slices_S16x4096_o0_2304_S16x256⟩, ⟨S16x256, extractStridedSlice S16x256 ![0, 2560] Q slices_S16x4096_o0_2560_S16x256⟩, ⟨S16x256, extractStridedSlice S16x256 ![0, 2816] Q slices_S16x4096_o0_2816_S16x256⟩, ⟨S16x256, extractStridedSlice S16x256 ![0, 3072] Q slices_S16x4096_o0_3072_S16x256⟩, ⟨S16x256, extractStridedSlice S16x256 ![0, 3328] Q slices_S16x4096_o0_3328_S16x256⟩, ⟨S16x256, extractStridedSlice S16x256 ![0, 3584] Q slices_S16x4096_o0_3584_S16x256⟩, ⟨S16x256, extractStridedSlice S16x256 ![0, 3840] Q slices_S16x4096_o0_3840_S16x256⟩] concatenates_S16x256_S16x256_S16x256_S16x256_S16x256_S16x256_S16x256_S16x256_S16x256_S16x256_S16x256_S16x256_S16x256_S16x256_S16x256_S16x256_S256x256_d0

theorem feats_block (Q : FVec Ideal S16x4096 .bf16) (p co : Fin 16) (l : Fin 256) :
    feats Q (ix2 (frow p co) l) = Q (ix2 co (⟨p.val * 256 + l.val, by omega⟩ : Fin 4096)) :=
  (catRows16_apply (fun k => extractStridedSlice S16x256 ![0, k.val * 256] Q (fslices k)) concatenates_S16x256_S16x256_S16x256_S16x256_S16x256_S16x256_S16x256_S16x256_S16x256_S16x256_S16x256_S16x256_S16x256_S16x256_S16x256_S16x256_S256x256_d0 p co l).trans
    (fslice_apply Q (p.val * 256) (fslices p) (by omega) co l)

theorem feats_apply (s : Lanes.A2 32 9216) (W : Lanes.A2 64 288) (B : Lanes.A2 64 1) (Q : FVec Ideal S16x4096 .bf16)
    (hQ : ∀ (co : Fin 16) (c : Fin 4096), Q (ix2 co c) = Lanes.pool2 s W B co c) (k l : Fin 256) :
    feats Q (ix2 k l) = Lanes.feat s W B k l := by
  obtain ⟨p, co, rfl⟩ : ∃ (p co : Fin 16), k = frow p co :=
    ⟨⟨k.val / 16, by omega⟩, ⟨k.val % 16, by omega⟩, Fin.ext (by show k.val = k.val / 16 * 16 + k.val % 16; omega)⟩
  rw [feats_block, hQ]
  unfold Lanes.feat
  have hp := p.isLt
  have hco := co.isLt
  refine congrArg₂ (Lanes.pool2 s W B) (Fin.ext ?_) (Fin.ext ?_)
  · show co.val = (p.val * 16 + co.val) % 16
    omega
  · show p.val * 256 + l.val = (p.val * 16 + co.val) / 16 * 256 + l.val
    omega

/-! ## The first dense layer -/

/-- The dense layer's matrix times the feature matrix into a zero accumulator, plus the bias column along lanes. -/
def dense (Ft : FVec Ideal S256x256 .bf16) (L5 : Vec Ideal S120x256 .bf16) (L6 : Vec Ideal S120x1 .f32) : FVec Ideal S120x256 .f32 :=
  addf (matmul dot_S120x256_S256x256_S120x256_1_0_0_1_n_n none (shapeCast S120x256 L5 shapeCasts_S120x256_S120x256 : FVec Ideal S120x256 .bf16) Ft
      (constant S120x256 .f32 0x00000000#32))
    (broadcastTo S120x256 (shapeCast S120x1 L6 shapeCasts_S120x1_S120x1 : FVec Ideal S120x1 .f32) broadcasts_S120x1_S120x256)

theorem dense_apply (s : Lanes.A2 32 9216) (W : Lanes.A2 64 288) (B : Lanes.A2 64 1) (Ft : FVec Ideal S256x256 .bf16)
    (hF : ∀ (k l : Fin 256), Ft (ix2 k l) = Lanes.feat s W B k l)
    (L5 : Vec Ideal S120x256 .bf16) (L6 : Vec Ideal S120x1 .f32) (o : Fin 120) (l : Fin 256) :
    dense Ft L5 L6 (ix2 o l) = Lanes.pre1 s W B L5 L6 o l := by
  unfold dense Lanes.pre1
  rw [addf_apply, shapeCast_self, shapeCast_self]
  refine congrArg₂ (· + ·) ?_ ?_
  · refine (Cert.LibMatProduct.matmul_zero_apply dot_S120x256_S256x256_S120x256_1_0_0_1_n_n none rfl rfl rfl rfl rfl rfl
      L5 Ft o l).trans ?_
    exact Finset.sum_congr rfl fun k _ => congrArg (L5 (ix2 o k) * ·) (hF k l)
  · exact Cert.LibKeepdims.broadcastTo_a1_ab_apply L6 broadcasts_S120x1_S120x256 o l

end Cert.KernelIdeal.Taps

end
-- ==== Proof.TapDense.lean ====
/-
  The middle of the transposed arrangement's body, from the pooled first stage to the first dense layer before its
  rectifier: the value the body computes is the second stage's patch matrix (nine groups of sixteen lane slices of the
  pooled first stage), the second convolution with its bias, the pooling over the four channel groups and the
  rectifier, the sixteen lane blocks stacked as 256 feature rows, and the dense layer's matrix product with its bias.
  Entry (o, l) is the first dense layer's value for output o and image l.
-/
import proofs.«103082_g2000604803448687_pallaspilot1_85_11_alg».proof.Proof.TapGroups
import proofs.«103082_g2000604803448687_pallaspilot1_85_11_alg».proof.Proof.TapConv

noncomputable section

namespace Cert.KernelIdeal.Taps

open Idealize.ShloMosaic Idealize.ShloMosaic.ValueIdx Cert.KernelIdeal Cert.KernelIdeal.Gen Cert.LeNet

variable (P1 : FVec Ideal S64x9216 .bf16) (L1 : Vec Ideal S128x64 .bf16) (L2 : Vec Ideal S128x1 .f32)
  (L3 : Vec Ideal S64x288 .bf16) (L4 : Vec Ideal S64x1 .f32) (L5 : Vec Ideal S120x256 .bf16) (L6 : Vec Ideal S120x1 .f32)

/-- The body's term is the four stages applied to the patch matrix. -/
theorem pre1_stages :
    k0_pay122 (k0_pay76 P1 L1 L2)
      (k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2))
      (k0_pay93 (k0_pay75 P1 L1 L2))
      (k0_pay94 (k0_pay75 P1 L1 L2))
      (k0_pay95 (k0_pay75 P1 L1 L2))
      (k0_pay103 (k0_pay75 P1 L1 L2) (k0_pay96 (k0_pay75 P1 L1 L2)) (k0_pay97 (k0_pay75 P1 L1 L2)) (k0_pay98 (k0_pay75 P1 L1 L2)) (k0_pay99 (k0_pay75 P1 L1 L2)) (k0_pay100 (k0_pay75 P1 L1 L2)) (k0_pay101 (k0_pay75 P1 L1 L2)) (k0_pay102 (k0_pay75 P1 L1 L2)))
      (k0_pay104 (k0_pay75 P1 L1 L2))
      (k0_pay105 (k0_pay75 P1 L1 L2))
      (k0_pay106 (k0_pay75 P1 L1 L2)) (k0_pay107 (k0_pay75 P1 L1 L2)) (k0_pay108 (k0_pay75 P1 L1 L2)) (k0_pay109 (k0_pay75 P1 L1 L2)) (k0_pay110 (k0_pay75 P1 L1 L2)) (k0_pay111 (k0_pay75 P1 L1 L2)) (k0_pay112 (k0_pay75 P1 L1 L2)) (k0_pay113 (k0_pay75 P1 L1 L2)) (k0_pay114 (k0_pay75 P1 L1 L2)) (k0_pay115 (k0_pay75 P1 L1 L2)) (k0_pay116 (k0_pay75 P1 L1 L2)) (k0_pay117 (k0_pay75 P1 L1 L2)) (k0_pay118 (k0_pay75 P1 L1 L2)) (k0_pay119 (k0_pay75 P1 L1 L2)) (k0_pay120 (k0_pay75 P1 L1 L2)) (k0_pay121 (k0_pay75 P1 L1 L2))
      L3 L4 L5 L6
      = dense (feats (pool (conv (concatenate S288x4096 0 [⟨S32x4096, k0_pay76 P1 L1 L2⟩,
      ⟨S32x4096, k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2)⟩,
      ⟨S32x4096, k0_pay93 (k0_pay75 P1 L1 L2)⟩,
      ⟨S32x4096, k0_pay94 (k0_pay75 P1 L1 L2)⟩,
      ⟨S32x4096, k0_pay95 (k0_pay75 P1 L1 L2)⟩,
      ⟨S32x4096, k0_pay103 (k0_pay75 P1 L1 L2) (k0_pay96 (k0_pay75 P1 L1 L2)) (k0_pay97 (k0_pay75 P1 L1 L2)) (k0_pay98 (k0_pay75 P1 L1 L2)) (k0_pay99 (k0_pay75 P1 L1 L2)) (k0_pay100 (k0_pay75 P1 L1 L2)) (k0_pay101 (k0_pay75 P1 L1 L2)) (k0_pay102 (k0_pay75 P1 L1 L2))⟩,
      ⟨S32x4096, k0_pay104 (k0_pay75 P1 L1 L2)⟩,
      ⟨S32x4096, k0_pay105 (k0_pay75 P1 L1 L2)⟩,
      ⟨S32x4096, concatenate S32x4096 1 [⟨S32x256, k0_pay106 (k0_pay75 P1 L1 L2)⟩, ⟨S32x256, k0_pay107 (k0_pay75 P1 L1 L2)⟩, ⟨S32x256, k0_pay108 (k0_pay75 P1 L1 L2)⟩, ⟨S32x256, k0_pay109 (k0_pay75 P1 L1 L2)⟩, ⟨S32x256, k0_pay110 (k0_pay75 P1 L1 L2)⟩, ⟨S32x256, k0_pay111 (k0_pay75 P1 L1 L2)⟩, ⟨S32x256, k0_pay112 (k0_pay75 P1 L1 L2)⟩, ⟨S32x256, k0_pay113 (k0_pay75 P1 L1 L2)⟩, ⟨S32x256, k0_pay114 (k0_pay75 P1 L1 L2)⟩, ⟨S32x256, k0_pay115 (k0_pay75 P1 L1 L2)⟩, ⟨S32x256, k0_pay116 (k0_pay75 P1 L1 L2)⟩, ⟨S32x256, k0_pay117 (k0_pay75 P1 L1 L2)⟩, ⟨S32x256, k0_pay118 (k0_pay75 P1 L1 L2)⟩, ⟨S32x256, k0_pay119 (k0_pay75 P1 L1 L2)⟩, ⟨S32x256, k0_pay120 (k0_pay75 P1 L1 L2)⟩, ⟨S32x256, k0_pay121 (k0_pay75 P1 L1 L2)⟩] concatenates_S32x256_S32x256_S32x256_S32x256_S32x256_S32x256_S32x256_S32x256_S32x256_S32x256_S32x256_S32x256_S32x256_S32x256_S32x256_S32x256_S32x4096_d1⟩] concatenates_S32x4096_S32x4096_S32x4096_S32x4096_S32x4096_S32x4096_S32x4096_S32x4096_S32x4096_S288x4096_d0) L3 L4))) L5 L6 := rfl

/-- The body's value before the first dense layer's rectifier, at output o and image l. -/
theorem pre1_apply (o : Fin 120) (l : Fin 256) :
    k0_pay122 (k0_pay76 P1 L1 L2)
      (k0_pay92 (k0_pay75 P1 L1 L2) (k0_pay77 P1 L1 L2) (k0_pay78 P1 L1 L2) (k0_pay79 P1 L1 L2) (k0_pay80 P1 L1 L2) (k0_pay81 P1 L1 L2) (k0_pay82 P1 L1 L2) (k0_pay83 P1 L1 L2) (k0_pay84 P1 L1 L2) (k0_pay85 P1 L1 L2) (k0_pay86 P1 L1 L2) (k0_pay87 P1 L1 L2) (k0_pay88 P1 L1 L2) (k0_pay89 P1 L1 L2) (k0_pay90 P1 L1 L2) (k0_pay91 P1 L1 L2))
      (k0_pay93 (k0_pay75 P1 L1 L2))
      (k0_pay94 (k0_pay75 P1 L1 L2))
      (k0_pay95 (k0_pay75 P1 L1 L2))
      (k0_pay103 (k0_pay75 P1 L1 L2) (k0_pay96 (k0_pay75 P1 L1 L2)) (k0_pay97 (k0_pay75 P1 L1 L2)) (k0_pay98 (k0_pay75 P1 L1 L2)) (k0_pay99 (k0_pay75 P1 L1 L2)) (k0_pay100 (k0_pay75 P1 L1 L2)) (k0_pay101 (k0_pay75 P1 L1 L2)) (k0_pay102 (k0_pay75 P1 L1 L2)))
      (k0_pay104 (k0_pay75 P1 L1 L2))
      (k0_pay105 (k0_pay75 P1 L1 L2))
      (k0_pay106 (k0_pay75 P1 L1 L2)) (k0_pay107 (k0_pay75 P1 L1 L2)) (k0_pay108 (k0_pay75 P1 L1 L2)) (k0_pay109 (k0_pay75 P1 L1 L2)) (k0_pay110 (k0_pay75 P1 L1 L2)) (k0_pay111 (k0_pay75 P1 L1 L2)) (k0_pay112 (k0_pay75 P1 L1 L2)) (k0_pay113 (k0_pay75 P1 L1 L2)) (k0_pay114 (k0_pay75 P1 L1 L2)) (k0_pay115 (k0_pay75 P1 L1 L2)) (k0_pay116 (k0_pay75 P1 L1 L2)) (k0_pay117 (k0_pay75 P1 L1 L2)) (k0_pay118 (k0_pay75 P1 L1 L2)) (k0_pay119 (k0_pay75 P1 L1 L2)) (k0_pay120 (k0_pay75 P1 L1 L2)) (k0_pay121 (k0_pay75 P1 L1 L2))
      L3 L4 L5 L6 (ix2 o l)
      = Lanes.pre1 (k0_pay75 P1 L1 L2) L3 L4 L5 L6 o l :=
  (congrFun (pre1_stages P1 L1 L2 L3 L4 L5 L6) (ix2 o l)).trans
    (dense_apply (k0_pay75 P1 L1 L2) L3 L4 _
      (feats_apply (k0_pay75 P1 L1 L2) L3 L4 _
        (pool_apply (k0_pay75 P1 L1 L2) L3 L4 _
          (conv_apply (k0_pay75 P1 L1 L2) _ (patchMatrix_apply P1 L1 L2) L3 L4)))
      L5 L6 o l)

end Cert.KernelIdeal.Taps

end
-- ==== Proof.BodyBlock.lean ====
/-
  One grid point of the transposed kernel computes the logits of its 256 images: the output block is the last dense
  stage of the first dense layer's values, those are the second stage's of the pooled first stage, that is the pooling
  of the product with the patch matrix — each read at an entry — and under the staged layout the lane arrangement is
  the network.
-/
import proofs.«103082_g2000604803448687_pallaspilot1_85_11_alg».proof.Proof.KernelBlockStmt
import proofs.«103082_g2000604803448687_pallaspilot1_85_11_alg».proof.Proof.BodyPatch1
import proofs.«103082_g2000604803448687_pallaspilot1_85_11_alg».proof.Proof.BodyPool1
import proofs.«103082_g2000604803448687_pallaspilot1_85_11_alg».proof.Proof.BodyDense
import proofs.«103082_g2000604803448687_pallaspilot1_85_11_alg».proof.Proof.BodyBridge
import proofs.«103082_g2000604803448687_pallaspilot1_85_11_alg».proof.Proof.TapDense

set_option maxRecDepth 16384

noncomputable section

namespace Cert.KernelIdeal.Body

open Idealize.ShloMosaic Idealize.ShloMosaic.ValueIdx Cert.KernelIdeal Cert.KernelIdeal.Gen Cert.LeNet

theorem block_spec : BlockSpec := by
  intro x0 x1 x2 x3 x4 x5 x6 x7 x8 x9 x10 T w1 b1 w2 b2 wf1 bf1 wf2 bf2 wf3 bf3 hst o l
  have hz4 : (![0, 0, 0, 0] : Fin 4 → ℕ) = fun _ => 0 := by funext a; fin_cases a <;> rfl
  have hz2 : (![0, 0] : Fin 2 → ℕ) = fun _ => 0 := by funext a; fin_cases a <;> rfl
  have laid : Bridge.Laid x0 x1 x2 x3 x4 x5 x6 x7 x8 x9 x10 T w1 b1 w2 b2 wf1 bf1 wf2 bf2 wf3 bf3 :=
    ⟨hst.hx, hst.hw1, hst.hb1, hst.hw2, hst.hb2, hst.hwf1, hst.hbf1, hst.hwf2, hst.hbf2, hst.hwf3, hst.hbf3⟩
  unfold Gen.out0_11
  rw [View.canon_unit_zero hz2]
  simp only [View.ld_unit_zero (S := S7x7x16x256) hz4, View.ld_unit_zero (S := S128x64) hz2, View.ld_unit_zero (S := S128x1) hz2, View.ld_unit_zero (S := S64x288) hz2, View.ld_unit_zero (S := S64x1) hz2, View.ld_unit_zero (S := S120x256) hz2, View.ld_unit_zero (S := S120x1) hz2, View.ld_unit_zero (S := S84x120) hz2, View.ld_unit_zero (S := S84x1) hz2, View.ld_unit_zero (S := S128x84) hz2]
  rw [logit_apply]
  exact Bridge.logit_eq laid (P1 x0) (k0_pay75 (P1 x0) x1 x2) _ (patch1_apply x0) (pool1_apply (P1 x0) x1 x2)
    (fun o l => Taps.pre1_apply (P1 x0) x1 x2 x3 x4 x5 x6 o l) o l

end Cert.KernelIdeal.Body

end
-- ==== Proof.KerPre.lean ====
/-
  The arrays the transposed kernel's windows stage, as functions of the argument arrays, read at an index.

  Before the launch the host re-lays every argument: the images into 4×4 tiles with the batch last; the first
  convolution's matrix into rows d·32 + j (j = 6g + co, the 24 entries of one pooling position d, then eight rows of
  zeros); its bias likewise, as a column; the second convolution's matrix into columns uv·32 + j, transposed; the dense
  matrices transposed and the biases as columns. Each re-laying is a chain of reshapes (same row-major position),
  transposes (coordinates permuted) and one padding (zeros past entry 24), read here one step at a time.
  After the launch the [128, 16384] result is transposed and its first ten columns kept.
-/
import proofs.«103082_g2000604803448687_pallaspilot1_85_11_alg».proof.KernelIdeal
import proofs.«103082_g2000604803448687_pallaspilot1_85_11_alg».proof.Proof.Spec
import Idealize.ShloMosaic.Lib.Pipeline.Value
import Idealize.ShloMosaic.Lib.KernelVsHost

set_option maxRecDepth 16384

noncomputable section

namespace Cert.KernelIdeal.Side

open Cert.KernelIdeal Idealize.ShloMosaic Idealize.ShloMosaic.ValueIdx Cert.LeNet
open Cert.KernelIdeal.Facts₀ Cert.KernelIdeal.Facts

variable [Cert.KernelIdeal.Facts]

/-- The padding value: the integer zero read as a float is zero. -/
theorem padZero (i : S_.Idx) : (sitofp (F := Ideal) .f32 (constantI S_ 32 0#32)) i = (0 : EReal) := by
  show (((0#32 : BitVec 32).toInt : ℝ) : EReal) = 0
  simp

/-! ## The image tiles -/

/-- The images as the kernel stages them: [7, 7, 16, 16384], tile row, tile column, pixel of the tile, image. -/
def tilesT (x : FVec Ideal S16384x1x28x28 .f32) : FVec Ideal S7x7x16x16384 .bf16 :=
  shapeCast S7x7x16x16384
    (transpose S7x7x4x4x16384 [1, 3, 2, 4, 0]
      (shapeCast S16384x7x4x7x4
        (shapeCast S16384x28x28 (truncf .bf16 x bitsLt_bf16_f32) shapeCasts_S16384x1x28x28_S16384x28x28)
        shapeCasts_S16384x28x28_S16384x7x4x7x4)
      transposes_S16384x7x4x7x4_S7x7x4x4x16384_1_3_2_4_0)
    shapeCasts_S7x7x4x4x16384_S7x7x16x16384

/-- Entry (hh, ww, t, n) is pixel t of tile (hh, ww) of image n. -/
theorem tilesT_apply (x : FVec Ideal S16384x1x28x28 .f32) (hh ww : Fin 7) (t : Fin 16) (n : Fin 16384) :
    tilesT x (ix4 hh ww t n) = tile x n hh ww t := by
  have hhh := hh.isLt; have hww := ww.isLt; have ht := t.isLt; have hn := n.isLt
  unfold tilesT tile
  refine (shapeCast_apply _ _ _ (ix5 hh ww (⟨t.val / 4, by omega⟩ : Fin 4) (⟨t.val % 4, by omega⟩ : Fin 4) n)
    (by rw [Shape.rowMajor_val_five, Shape.rowMajor_val_four]
        show (((hh.val * 7 + ww.val) * 4 + t.val / 4) * 4 + t.val % 4) * 16384 + n.val = ((hh.val * 7 + ww.val) * 16 + t.val) * 16384 + n.val
        omega)).trans ?_
  refine (transpose_apply _ _ _ _ (ix5 n hh (⟨t.val / 4, by omega⟩ : Fin 4) ww (⟨t.val % 4, by omega⟩ : Fin 4))
    (fun b => match b with | ⟨0, _⟩ => rfl | ⟨1, _⟩ => rfl | ⟨2, _⟩ => rfl | ⟨3, _⟩ => rfl | ⟨4, _⟩ => rfl)).trans ?_
  refine (shapeCast_apply _ _ _ (ix3 n (⟨4 * hh.val + t.val / 4, by omega⟩ : Fin 28) (⟨4 * ww.val + t.val % 4, by omega⟩ : Fin 28))
    (by rw [Shape.rowMajor_val_three, Shape.rowMajor_val_five]
        show (n.val * 28 + (4 * hh.val + t.val / 4)) * 28 + (4 * ww.val + t.val % 4) = (((n.val * 7 + hh.val) * 4 + t.val / 4) * 7 + ww.val) * 4 + t.val % 4
        omega)).trans ?_
  refine (shapeCast_apply _ _ _ (ix4 n (0 : Fin 1) (⟨4 * hh.val + t.val / 4, by omega⟩ : Fin 28) (⟨4 * ww.val + t.val % 4, by omega⟩ : Fin 28))
    (by rw [Shape.rowMajor_val_four, Shape.rowMajor_val_three]
        show ((n.val * 1 + 0) * 28 + (4 * hh.val + t.val / 4)) * 28 + (4 * ww.val + t.val % 4) = (n.val * 28 + (4 * hh.val + t.val / 4)) * 28 + (4 * ww.val + t.val % 4)
        omega)).trans ?_
  rfl

/-! ## The first convolution's matrix and bias -/

/-- The first convolution's matrix as staged: [128, 64], row d·32 + j. -/
def w1T (w : FVec Ideal S64x96 .f32) : FVec Ideal S128x64 .bf16 :=
  truncf .bf16
    (shapeCast S128x64
      (pad S4x32x64 ![0, 0, 0] ![0, 8, 0] ![0, 0, 0]
        (shapeCast S4x24x64
          (transpose S4x4x6x64 [2, 1, 3, 0] (shapeCast S64x4x4x6 w shapeCasts_S64x96_S64x4x4x6) transposes_S64x4x4x6_S4x4x6x64_2_1_3_0)
          shapeCasts_S4x4x6x64_S4x24x64)
        (sitofp (F := Ideal) .f32 (constantI S_ 32 0#32)) pads_S4x24x64_S4x32x64_000_080_000 h_S_)
      shapeCasts_S4x32x64_S128x64)
    bitsLt_bf16_f32

/-- Row d·32 + j holds, for j < 24, column (j / 6)·24 + d·6 + j % 6 of the packed matrix, and zeros for j ≥ 24. -/
theorem w1T_apply (w : FVec Ideal S64x96 .f32) (d : Fin 4) (j : Fin 32) (k : Fin 64) :
    w1T w (ix2 (⟨d.val * 32 + j.val, by omega⟩ : Fin 128) k)
      = if h : j.val < 24 then w (ix2 k (⟨j.val / 6 * 24 + d.val * 6 + j.val % 6, by omega⟩ : Fin 96)) else 0 := by
  have hd := d.isLt; have hj := j.isLt; have hk := k.isLt
  unfold w1T
  refine (truncf_apply (ψ := .bf16) _ bitsLt_bf16_f32 _).trans ?_
  refine (shapeCast_apply _ _ _ (ix3 d j k)
    (by rw [Shape.rowMajor_val_three, Shape.rowMajor_val_two]
        show (d.val * 32 + j.val) * 64 + k.val = (d.val * 32 + j.val) * 64 + k.val
        rfl)).trans ?_
  by_cases h : j.val < 24
  · rw [dif_pos h]
    refine (pad_apply_of_inside _ _ _ _ _ _ _ (ix3 d j k) (ix3 d (⟨j.val, h⟩ : Fin 24) k)
      (fun a => match a with
        | ⟨0, _⟩ => by show d.val = 0 + d.val * (0 + 1); omega
        | ⟨1, _⟩ => by show j.val = 0 + j.val * (0 + 1); omega
        | ⟨2, _⟩ => by show k.val = 0 + k.val * (0 + 1); omega)).trans ?_
    refine (shapeCast_apply _ _ _ (ix4 d (⟨j.val / 6, by omega⟩ : Fin 4) (⟨j.val % 6, by omega⟩ : Fin 6) k)
      (by rw [Shape.rowMajor_val_four, Shape.rowMajor_val_three]
          show ((d.val * 4 + j.val / 6) * 6 + j.val % 6) * 64 + k.val = (d.val * 24 + j.val) * 64 + k.val
          omega)).trans ?_
    refine (transpose_apply _ _ _ _ (ix4 k (⟨j.val / 6, by omega⟩ : Fin 4) d (⟨j.val % 6, by omega⟩ : Fin 6))
      (fun b => match b with | ⟨0, _⟩ => rfl | ⟨1, _⟩ => rfl | ⟨2, _⟩ => rfl | ⟨3, _⟩ => rfl)).trans ?_
    exact shapeCast_apply _ _ _ (ix2 k (⟨j.val / 6 * 24 + d.val * 6 + j.val % 6, by omega⟩ : Fin 96))
      (by rw [Shape.rowMajor_val_two, Shape.rowMajor_val_four]
          show k.val * 96 + (j.val / 6 * 24 + d.val * 6 + j.val % 6) = ((k.val * 4 + j.val / 6) * 4 + d.val) * 6 + j.val % 6
          omega)
  · rw [dif_neg h]
    refine (pad_apply_of_not_inside _ _ _ _ _ _ _ (ix3 d j k) (1 : Fin 3)
      (by show ¬(0 ≤ j.val ∧ (j.val - 0) % (0 + 1) = 0 ∧ (j.val - 0) / (0 + 1) < 24); omega)).trans ?_
    exact padZero _

/-- The first convolution's bias as staged: the column [128, 1], row d·32 + j. -/
def b1T (b : FVec Ideal S1x96 .f32) : FVec Ideal S128x1 .f32 :=
  shapeCast S128x1
    (pad S4x32 ![0, 0] ![0, 8] ![0, 0]
      (shapeCast S4x24
        (transpose S4x4x6 [1, 0, 2] (shapeCast S4x4x6 b shapeCasts_S1x96_S4x4x6) transposes_S4x4x6_S4x4x6_1_0_2)
        shapeCasts_S4x4x6_S4x24)
      (sitofp (F := Ideal) .f32 (constantI S_ 32 0#32)) pads_S4x24_S4x32_000_080 h_S_)
    shapeCasts_S4x32_S128x1

theorem b1T_apply (b : FVec Ideal S1x96 .f32) (d : Fin 4) (j : Fin 32) :
    b1T b (ix2 (⟨d.val * 32 + j.val, by omega⟩ : Fin 128) (0 : Fin 1))
      = if h : j.val < 24 then b (ix2 (0 : Fin 1) (⟨j.val / 6 * 24 + d.val * 6 + j.val % 6, by omega⟩ : Fin 96)) else 0 := by
  have hd := d.isLt; have hj := j.isLt
  unfold b1T
  refine (shapeCast_apply _ _ _ (ix2 d j)
    (by rw [Shape.rowMajor_val_two, Shape.rowMajor_val_two]
        show d.val * 32 + j.val = (d.val * 32 + j.val) * 1 + 0
        omega)).trans ?_
  by_cases h : j.val < 24
  · rw [dif_pos h]
    refine (pad_apply_of_inside _ _ _ _ _ _ _ (ix2 d j) (ix2 d (⟨j.val, h⟩ : Fin 24))
      (fun a => match a with
        | ⟨0, _⟩ => by show d.val = 0 + d.val * (0 + 1); omega
        | ⟨1, _⟩ => by show j.val = 0 + j.val * (0 + 1); omega)).trans ?_
    refine (shapeCast_apply _ _ _ (ix3 d (⟨j.val / 6, by omega⟩ : Fin 4) (⟨j.val % 6, by omega⟩ : Fin 6))
      (by rw [Shape.rowMajor_val_three, Shape.rowMajor_val_two]
          show (d.val * 4 + j.val / 6) * 6 + j.val % 6 = d.val * 24 + j.val
          omega)).trans ?_
    refine (transpose_apply _ _ _ _ (ix3 (⟨j.val / 6, by omega⟩ : Fin 4) d (⟨j.val % 6, by omega⟩ : Fin 6))
      (fun b => match b with | ⟨0, _⟩ => rfl | ⟨1, _⟩ => rfl | ⟨2, _⟩ => rfl)).trans ?_
    exact shapeCast_apply _ _ _ (ix2 (0 : Fin 1) (⟨j.val / 6 * 24 + d.val * 6 + j.val % 6, by omega⟩ : Fin 96))
      (by rw [Shape.rowMajor_val_two, Shape.rowMajor_val_three]
          show 0 * 96 + (j.val / 6 * 24 + d.val * 6 + j.val % 6) = (j.val / 6 * 4 + d.val) * 6 + j.val % 6
          omega)
  · rw [dif_neg h]
    refine (pad_apply_of_not_inside _ _ _ _ _ _ _ (ix2 d j) (1 : Fin 2)
      (by show ¬(0 ≤ j.val ∧ (j.val - 0) % (0 + 1) = 0 ∧ (j.val - 0) / (0 + 1) < 24); omega)).trans ?_
    exact padZero _

/-! ## The second convolution's matrix -/

/-- The second convolution's matrix as staged: [64, 288], column uv·32 + j. -/
def w2T (w : FVec Ideal S216x64 .f32) : FVec Ideal S64x288 .bf16 :=
  truncf .bf16
    (transpose S64x288 [1, 0]
      (shapeCast S288x64
        (pad S9x32x64 ![0, 0, 0] ![0, 8, 0] ![0, 0, 0] (shapeCast S9x24x64 w shapeCasts_S216x64_S9x24x64)
          (sitofp (F := Ideal) .f32 (constantI S_ 32 0#32)) pads_S9x24x64_S9x32x64_000_080_000 h_S_)
        shapeCasts_S9x32x64_S288x64)
      transposes_S288x64_S64x288_1_0)
    bitsLt_bf16_f32

theorem w2T_apply (w : FVec Ideal S216x64 .f32) (col : Fin 64) (uv : Fin 9) (j : Fin 32) :
    w2T w (ix2 col (⟨uv.val * 32 + j.val, by omega⟩ : Fin 288))
      = if h : j.val < 24 then w (ix2 (⟨uv.val * 24 + j.val, by omega⟩ : Fin 216) col) else 0 := by
  have hc := col.isLt; have hj := j.isLt; have hu := uv.isLt
  unfold w2T
  refine (truncf_apply (ψ := .bf16) _ bitsLt_bf16_f32 _).trans ?_
  refine (transpose_apply _ _ _ _ (ix2 (⟨uv.val * 32 + j.val, by omega⟩ : Fin 288) col)
    (fun b => match b with | ⟨0, _⟩ => rfl | ⟨1, _⟩ => rfl)).trans ?_
  refine (shapeCast_apply _ _ _ (ix3 uv j col)
    (by rw [Shape.rowMajor_val_three, Shape.rowMajor_val_two]
        show (uv.val * 32 + j.val) * 64 + col.val = (uv.val * 32 + j.val) * 64 + col.val
        rfl)).trans ?_
  by_cases h : j.val < 24
  · rw [dif_pos h]
    refine (pad_apply_of_inside _ _ _ _ _ _ _ (ix3 uv j col) (ix3 uv (⟨j.val, h⟩ : Fin 24) col)
      (fun a => match a with
        | ⟨0, _⟩ => by show uv.val = 0 + uv.val * (0 + 1); omega
        | ⟨1, _⟩ => by show j.val = 0 + j.val * (0 + 1); omega
        | ⟨2, _⟩ => by show col.val = 0 + col.val * (0 + 1); omega)).trans ?_
    exact shapeCast_apply _ _ _ (ix2 (⟨uv.val * 24 + j.val, by omega⟩ : Fin 216) col)
      (by rw [Shape.rowMajor_val_two, Shape.rowMajor_val_three]
          show (uv.val * 24 + j.val) * 64 + col.val = (uv.val * 24 + j.val) * 64 + col.val
          rfl)
  · rw [dif_neg h]
    refine (pad_apply_of_not_inside _ _ _ _ _ _ _ (ix3 uv j col) (1 : Fin 3)
      (by show ¬(0 ≤ j.val ∧ (j.val - 0) % (0 + 1) = 0 ∧ (j.val - 0) / (0 + 1) < 24); omega)).trans ?_
    exact padZero _

/-! ## Transposed matrices and bias columns -/

/-- A matrix transposed reads, at (o, k), the matrix at (k, o). -/
theorem transposeT_apply {a b : ℕ} (w : (⟨2, ![a, b]⟩ : Shape).Idx → EReal) (h : (⟨2, ![a, b]⟩ : Shape).Transposes [1, 0] ⟨2, ![b, a]⟩)
    (o : Fin b) (k : Fin a) : transpose ⟨2, ![b, a]⟩ [1, 0] w h (ix2 o k) = w (ix2 k o) :=
  transpose_apply _ _ _ _ (ix2 k o) (fun i => match i with | ⟨0, _⟩ => rfl | ⟨1, _⟩ => rfl)

/-- A bias row [1, a] recast as the column [a, 1] reads, at (o, 0), the row's entry o. -/
theorem colT_apply {a : ℕ} (v : (⟨2, ![1, a]⟩ : Shape).Idx → EReal) (h : (⟨2, ![1, a]⟩ : Shape).ShapeCasts ⟨2, ![a, 1]⟩)
    (o : Fin a) : shapeCast ⟨2, ![a, 1]⟩ v h (ix2 o (0 : Fin 1)) = v (ix2 (0 : Fin 1) o) :=
  shapeCast_apply _ _ _ (ix2 (0 : Fin 1) o)
    (by rw [Shape.rowMajor_val_two, Shape.rowMajor_val_two]
        show 0 * a + o.val = o.val * 1 + 0
        omega)

/-! ## The result's tail -/

/-- The kernel's [128, 16384] result transposed, its first ten columns kept: entry (n, o) is entry (o, n). -/
theorem tail_apply (A : FVec Ideal S128x16384 .f32) (n : Fin 16384) (o : Fin 10) :
    extractStridedSlice S16384x10 ![0, 0] (transpose S16384x128 [1, 0] A transposes_S128x16384_S16384x128_1_0) slices_S16384x128_S16384x10_0_0 (ix2 n o)
      = A (ix2 (⟨o.val, by omega⟩ : Fin 128) n) := by
  have ho := o.isLt
  refine (extractStridedSlice_apply _ _ _ _ (ix2 n (⟨o.val, by omega⟩ : Fin 128))
    (fun a => match a with
      | ⟨0, _⟩ => by show n.val = 0 + n.val; omega
      | ⟨1, _⟩ => by show o.val = 0 + o.val; omega)).trans ?_
  exact transpose_apply _ _ _ _ (ix2 (⟨o.val, by omega⟩ : Fin 128) n) (fun i => match i with | ⟨0, _⟩ => rfl | ⟨1, _⟩ => rfl)

end Cert.KernelIdeal.Side

end
-- ==== Proof.KerVa.lean ====
/-
  What the region finds in the arrays of its first four windows: the host operations before the launch, composed,
  are the re-layings of the image batch and of the two convolutions' packed matrices and first bias.
-/
import proofs.«103082_g2000604803448687_pallaspilot1_85_11_alg».proof.Proof.Gen.KernelIdeal.Frame
import proofs.«103082_g2000604803448687_pallaspilot1_85_11_alg».proof.Proof.KerPre

set_option maxRecDepth 16384

noncomputable section

namespace Cert.KernelIdeal.Side

open Cert.KernelIdeal Idealize.ShloMosaic Idealize.ShloMosaic.ValueIdx Cert.LeNet
open Cert.KernelIdeal.Gen Idealize.ShloMosaic.TcCoe Idealize.SL.Sem
open Cert.KernelIdeal.Facts₀ Cert.KernelIdeal.Facts

variable (m : (ℓ : Loc nD τ sig) → Buf (Elt Ideal) ℓ)

/-- The staged image tiles are the re-laid images. -/
theorem V_tiles (c : Dev nD) : (V m c main_v4 : S7x7x16x16384.Idx → EReal) = tilesT (m ((c.tc : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The staged first-convolution matrix is the re-laid packed matrix. -/
theorem V_w1 (c : Dev nD) : (V m c main_v10 : S128x64.Idx → EReal) = w1T (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The staged first-convolution bias is the re-laid bias. -/
theorem V_b1 (c : Dev nD) : (V m c main_v15 : S128x1.Idx → EReal) = b1T (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The staged second-convolution matrix is the re-laid packed matrix. -/
theorem V_w2 (c : Dev nD) : (V m c main_v20 : S64x288.Idx → EReal) = w2T (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

end Cert.KernelIdeal.Side

end
-- ==== Proof.KerVb.lean ====
/-
  What the region finds in the arrays of its windows 4 to 10: the second convolution's bias and the dense layers'
  biases as columns, the dense layers' matrices transposed (a change of float format is the identity on the extended reals).
-/
import proofs.«103082_g2000604803448687_pallaspilot1_85_11_alg».proof.Proof.Gen.KernelIdeal.Frame
import proofs.«103082_g2000604803448687_pallaspilot1_85_11_alg».proof.Proof.KerPre

set_option maxRecDepth 16384

noncomputable section

namespace Cert.KernelIdeal.Side

open Cert.KernelIdeal Idealize.ShloMosaic Idealize.ShloMosaic.ValueIdx Cert.LeNet
open Cert.KernelIdeal.Gen Idealize.ShloMosaic.TcCoe Idealize.SL.Sem
open Cert.KernelIdeal.Facts₀ Cert.KernelIdeal.Facts

variable (m : (ℓ : Loc nD τ sig) → Buf (Elt Ideal) ℓ)

/-- The staged second-convolution bias is the bias row as a column. -/
theorem V_b2 (c : Dev nD) : (V m c main_v21 : S64x1.Idx → EReal) = shapeCast S64x1 ((m ((c.tc : Thread nD τ).loc main_arg4)) : S1x64.Idx → EReal) Facts₀.shapeCasts_S1x64_S64x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The staged dense matrices are the transposes. -/
theorem V_wf1 (c : Dev nD) : (V m c main_v23 : S120x256.Idx → EReal) = transpose S120x256 [1, 0] ((m ((c.tc : Thread nD τ).loc main_arg5)) : S256x120.Idx → EReal) Facts₀.transposes_S256x120_S120x256_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_bf1 (c : Dev nD) : (V m c main_v24 : S120x1.Idx → EReal) = shapeCast S120x1 ((m ((c.tc : Thread nD τ).loc main_arg6)) : S1x120.Idx → EReal) Facts₀.shapeCasts_S1x120_S120x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_wf2 (c : Dev nD) : (V m c main_v26 : S84x120.Idx → EReal) = transpose S84x120 [1, 0] ((m ((c.tc : Thread nD τ).loc main_arg7)) : S120x84.Idx → EReal) Facts₀.transposes_S120x84_S84x120_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_bf2 (c : Dev nD) : (V m c main_v27 : S84x1.Idx → EReal) = shapeCast S84x1 ((m ((c.tc : Thread nD τ).loc main_arg8)) : S1x84.Idx → EReal) Facts₀.shapeCasts_S1x84_S84x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_wf3 (c : Dev nD) : (V m c main_v29 : S128x84.Idx → EReal) = transpose S128x84 [1, 0] ((m ((c.tc : Thread nD τ).loc main_arg9)) : S84x128.Idx → EReal) Facts₀.transposes_S84x128_S128x84_1_0 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem V_bf3 (c : Dev nD) : (V m c main_v30 : S128x1.Idx → EReal) = shapeCast S128x1 ((m ((c.tc : Thread nD τ).loc main_arg10)) : S1x128.Idx → EReal) Facts₀.shapeCasts_S1x128_S128x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

end Cert.KernelIdeal.Side

end
-- ==== Proof.KerIdx.lean ====
/-
  The index maps of the kernel's windows over its grid of 64 points, decided point by point: window 0 (the image
  tiles) moves along its last axis, one block of 256 lanes per point; the ten weight windows stay at block 0; the output
  window moves along its columns with the point.
-/
import proofs.«103082_g2000604803448687_pallaspilot1_85_11_alg».proof.Proof.Gen.KernelIdeal.Launch
import proofs.«103082_g2000604803448687_pallaspilot1_85_11_alg».proof.Proof.Gen.KernelIdeal.Points

set_option maxRecDepth 16384

noncomputable section

namespace Cert.KernelIdeal.Side

open Cert.KernelIdeal Idealize.ShloMosaic
open Cert.KernelIdeal.Gen Idealize.ShloMosaic.TcCoe Idealize.SL.Sem

/-- Window 0's block index at point t is (0, 0, 0, t). -/
theorem idx0 : ∀ t : Fin cfg0.N, win0_0.index t (0 : Fin 4) = 0 ∧ win0_0.index t (1 : Fin 4) = 0
    ∧ win0_0.index t (2 : Fin 4) = 0 ∧ win0_0.index t (3 : Fin 4) = t.val :=
  (by decide +kernel : ∀ t : Fin grid0.N, _)

/-- The constant index maps of the weight windows. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

/-- The output window's block index at point t is (0, t). -/
theorem idx11 : ∀ t : Fin cfg0.N, win0_11.index t (0 : Fin 2) = 0 ∧ win0_11.index t (1 : Fin 2) = t.val :=
  (by decide +kernel : ∀ t : Fin grid0.N, _)

/-- The grid has 64 points. -/
theorem point_lt (t : Fin cfg0.N) : t.val < 64 := Nat.lt_of_lt_of_eq t.isLt N_0

end Cert.KernelIdeal.Side

end
-- ==== Proof.KerBlk.lean ====
/-
  The blocks the pipeline stages at a grid point, read off any contents of the windows' arrays.

  Windows 1 to 10 have constant index maps and blocks as large as their arrays: the block at every point is the whole
  array. Window 0's block at point t is the lanes 256t … 256t + 255 of the tile array (its index map moves along the
  last axis only).
-/
import proofs.«103082_g2000604803448687_pallaspilot1_85_11_alg».proof.Proof.KerIdx
import Idealize.ShloMosaic.Lib.Pipeline.Value
import Idealize.ShloMosaic.Lib.ValueIdx

set_option maxRecDepth 16384

noncomputable section

namespace Cert.KernelIdeal.Side

open Cert.KernelIdeal Idealize.ShloMosaic Idealize.ShloMosaic.ValueIdx
open Cert.KernelIdeal.Gen Idealize.ShloMosaic.TcCoe Idealize.SL.Sem

/-- Window 0's block at point t, at (hh, ww, p, l), is the array at lane 256t + l. -/
theorem read0 (t : Fin cfg0.N) (A : S7x7x16x16384.Idx → EReal) (hh ww : Fin 7) (p : Fin 16) (l : Fin 256) (n : Fin 16384)
    (hn : n.val = 256 * t.val + l.val) :
    ((cfg0.win 0).blk t).view.read (Elt Ideal) A (ix4 hh ww p l) = A (ix4 hh ww p n) := by
  obtain ⟨e0, e1, e2, e3⟩ := idx0 t
  rw [View.read_apply]
  show A _ = A _
  refine congrArg A (funext fun a => ?_)
  apply Fin.ext
  match a with
  | ⟨0, _⟩ => show win0_0.index t (0 : Fin 4) * 7 + 1 * hh.val = hh.val; rw [e0]; omega
  | ⟨1, _⟩ => show win0_0.index t (1 : Fin 4) * 7 + 1 * ww.val = ww.val; rw [e1]; omega
  | ⟨2, _⟩ => show win0_0.index t (2 : Fin 4) * 16 + 1 * p.val = p.val; rw [e2]; omega
  | ⟨3, _⟩ => show win0_0.index t (3 : Fin 4) * 256 + 1 * l.val = n.val; rw [e3, hn]; omega

/-- The weight windows' blocks are their whole arrays. -/
theorem read1 (t : Fin cfg0.N) (A : S128x64.Idx → EReal) (y : S128x64.Idx) :
    ((cfg0.win 1).blk t).view.read (Elt Ideal) A y = A y := by
  obtain ⟨e0, e1⟩ := idx1 t
  rw [View.read_apply]
  show A _ = A y
  refine congrArg A (funext fun a => ?_)
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

theorem read2 (t : Fin cfg0.N) (A : S128x1.Idx → EReal) (y : S128x1.Idx) :
    ((cfg0.win 2).blk t).view.read (Elt Ideal) A y = A y := by
  obtain ⟨e0, e1⟩ := idx2 t
  rw [View.read_apply]
  show A _ = A y
  refine congrArg A (funext fun a => ?_)
  apply Fin.ext
  match a with
  | ⟨0, _⟩ => show win0_2.index t (0 : Fin 2) * 128 + 1 * (y 0).val = (y 0).val; rw [e0]; omega
  | ⟨1, _⟩ => show win0_2.index t (1 : Fin 2) * 1 + 1 * (y 1).val = (y 1).val; rw [e1]; omega

theorem read3 (t : Fin cfg0.N) (A : S64x288.Idx → EReal) (y : S64x288.Idx) :
    ((cfg0.win 3).blk t).view.read (Elt Ideal) A y = A y := by
  obtain ⟨e0, e1⟩ := idx3 t
  rw [View.read_apply]
  show A _ = A y
  refine congrArg A (funext fun a => ?_)
  apply Fin.ext
  match a with
  | ⟨0, _⟩ => show win0_3.index t (0 : Fin 2) * 64 + 1 * (y 0).val = (y 0).val; rw [e0]; omega
  | ⟨1, _⟩ => show win0_3.index t (1 : Fin 2) * 288 + 1 * (y 1).val = (y 1).val; rw [e1]; omega

theorem read4 (t : Fin cfg0.N) (A : S64x1.Idx → EReal) (y : S64x1.Idx) :
    ((cfg0.win 4).blk t).view.read (Elt Ideal) A y = A y := by
  obtain ⟨e0, e1⟩ := idx4 t
  rw [View.read_apply]
  show A _ = A y
  refine congrArg A (funext fun a => ?_)
  apply Fin.ext
  match a with
  | ⟨0, _⟩ => show win0_4.index t (0 : Fin 2) * 64 + 1 * (y 0).val = (y 0).val; rw [e0]; omega
  | ⟨1, _⟩ => show win0_4.index t (1 : Fin 2) * 1 + 1 * (y 1).val = (y 1).val; rw [e1]; omega

theorem read5 (t : Fin cfg0.N) (A : S120x256.Idx → EReal) (y : S120x256.Idx) :
    ((cfg0.win 5).blk t).view.read (Elt Ideal) A y = A y := by
  obtain ⟨e0, e1⟩ := idx5 t
  rw [View.read_apply]
  show A _ = A y
  refine congrArg A (funext fun a => ?_)
  apply Fin.ext
  match a with
  | ⟨0, _⟩ => show win0_5.index t (0 : Fin 2) * 120 + 1 * (y 0).val = (y 0).val; rw [e0]; omega
  | ⟨1, _⟩ => show win0_5.index t (1 : Fin 2) * 256 + 1 * (y 1).val = (y 1).val; rw [e1]; omega

theorem read6 (t : Fin cfg0.N) (A : S120x1.Idx → EReal) (y : S120x1.Idx) :
    ((cfg0.win 6).blk t).view.read (Elt Ideal) A y = A y := by
  obtain ⟨e0, e1⟩ := idx6 t
  rw [View.read_apply]
  show A _ = A y
  refine congrArg A (funext fun a => ?_)
  apply Fin.ext
  match a with
  | ⟨0, _⟩ => show win0_6.index t (0 : Fin 2) * 120 + 1 * (y 0).val = (y 0).val; rw [e0]; omega
  | ⟨1, _⟩ => show win0_6.index t (1 : Fin 2) * 1 + 1 * (y 1).val = (y 1).val; rw [e1]; omega

theorem read7 (t : Fin cfg0.N) (A : S84x120.Idx → EReal) (y : S84x120.Idx) :
    ((cfg0.win 7).blk t).view.read (Elt Ideal) A y = A y := by
  obtain ⟨e0, e1⟩ := idx7 t
  rw [View.read_apply]
  show A _ = A y
  refine congrArg A (funext fun a => ?_)
  apply Fin.ext
  match a with
  | ⟨0, _⟩ => show win0_7.index t (0 : Fin 2) * 84 + 1 * (y 0).val = (y 0).val; rw [e0]; omega
  | ⟨1, _⟩ => show win0_7.index t (1 : Fin 2) * 120 + 1 * (y 1).val = (y 1).val; rw [e1]; omega

theorem read8 (t : Fin cfg0.N) (A : S84x1.Idx → EReal) (y : S84x1.Idx) :
    ((cfg0.win 8).blk t).view.read (Elt Ideal) A y = A y := by
  obtain ⟨e0, e1⟩ := idx8 t
  rw [View.read_apply]
  show A _ = A y
  refine congrArg A (funext fun a => ?_)
  apply Fin.ext
  match a with
  | ⟨0, _⟩ => show win0_8.index t (0 : Fin 2) * 84 + 1 * (y 0).val = (y 0).val; rw [e0]; omega
  | ⟨1, _⟩ => show win0_8.index t (1 : Fin 2) * 1 + 1 * (y 1).val = (y 1).val; rw [e1]; omega

theorem read9 (t : Fin cfg0.N) (A : S128x84.Idx → EReal) (y : S128x84.Idx) :
    ((cfg0.win 9).blk t).view.read (Elt Ideal) A y = A y := by
  obtain ⟨e0, e1⟩ := idx9 t
  rw [View.read_apply]
  show A _ = A y
  refine congrArg A (funext fun a => ?_)
  apply Fin.ext
  match a with
  | ⟨0, _⟩ => show win0_9.index t (0 : Fin 2) * 128 + 1 * (y 0).val = (y 0).val; rw [e0]; omega
  | ⟨1, _⟩ => show win0_9.index t (1 : Fin 2) * 84 + 1 * (y 1).val = (y 1).val; rw [e1]; omega

theorem read10 (t : Fin cfg0.N) (A : S128x1.Idx → EReal) (y : S128x1.Idx) :
    ((cfg0.win 10).blk t).view.read (Elt Ideal) A y = A y := by
  obtain ⟨e0, e1⟩ := idx10 t
  rw [View.read_apply]
  show A _ = A y
  refine congrArg A (funext fun a => ?_)
  apply Fin.ext
  match a with
  | ⟨0, _⟩ => show win0_10.index t (0 : Fin 2) * 128 + 1 * (y 0).val = (y 0).val; rw [e0]; omega
  | ⟨1, _⟩ => show win0_10.index t (1 : Fin 2) * 1 + 1 * (y 1).val = (y 1).val; rw [e1]; omega

end Cert.KernelIdeal.Side

end
-- ==== Proof.KerStaged.lean ====
/-
  At every grid point the staged blocks are what the kernel's body is specified over: window 0 holds the tiles of
  the point's 256 images (image 256t + l in lane l), windows 1 to 10 the re-laid weights. Each field is the block
  read (the whole array, or the point's lanes), then the array the region finds as the re-laying of an argument, then
  that re-laying read at coordinates.
-/
import proofs.«103082_g2000604803448687_pallaspilot1_85_11_alg».proof.Proof.KerVa
import proofs.«103082_g2000604803448687_pallaspilot1_85_11_alg».proof.Proof.KerVb
import proofs.«103082_g2000604803448687_pallaspilot1_85_11_alg».proof.Proof.KerBlk
import proofs.«103082_g2000604803448687_pallaspilot1_85_11_alg».proof.Proof.KernelBlockStmt

set_option maxRecDepth 16384

noncomputable section

namespace Cert.KernelIdeal.Side

open Cert.KernelIdeal Idealize.ShloMosaic Idealize.ShloMosaic.ValueIdx Cert.LeNet
open Cert.KernelIdeal.Gen Idealize.ShloMosaic.TcCoe Idealize.SL.Sem
open Idealize.ShloMosaic.Pipeline (Dat)

variable (m : (ℓ : Loc nD τ sig) → Buf (Elt Ideal) ℓ)

/-- The image in lane l of grid point t. -/
def imgAt (t : Fin cfg0.N) (l : Fin 256) : Fin 16384 := ⟨256 * t.val + l.val, by have := point_lt t; omega⟩

theorem imgAt_val (t : Fin cfg0.N) (l : Fin 256) : (imgAt t l).val = 256 * t.val + l.val := rfl

/-- The blocks staged at point t hold the tiles of the point's images and the re-laid weights. -/
theorem staged (c : Dev nD) (t : Fin cfg0.N) :
    Body.Staged (iblk m c 0 t) (iblk m c 1 t) (iblk m c 2 t) (iblk m c 3 t) (iblk m c 4 t) (iblk m c 5 t) (iblk m c 6 t) (iblk m c 7 t) (iblk m c 8 t) (iblk m c 9 t) (iblk m c 10 t)
      (fun l => tile (m ((c.tc : Thread nD τ).loc main_arg0)) (imgAt t l)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) where
  hx := fun hh ww p l => (read0 t (V m c main_v4) hh ww p l (imgAt t l) rfl).trans ((congrFun (V_tiles m c) _).trans (tilesT_apply _ hh ww p (imgAt t l)))
  hw1 := fun d j k => (read1 t (V m c main_v10) _).trans ((congrFun (V_w1 m c) _).trans (w1T_apply _ d j k))
  hb1 := fun d j => (read2 t (V m c main_v15) _).trans ((congrFun (V_b1 m c) _).trans (b1T_apply _ d j))
  hw2 := fun col uv j => (read3 t (V m c main_v20) _).trans ((congrFun (V_w2 m c) _).trans (w2T_apply _ col uv j))
  hb2 := fun col => (read4 t (V m c main_v21) _).trans ((congrFun (V_b2 m c) _).trans (colT_apply _ _ col))
  hwf1 := fun o k => (read5 t (V m c main_v23) _).trans ((congrFun (V_wf1 m c) _).trans (transposeT_apply _ _ o k))
  hbf1 := fun o => (read6 t (V m c main_v24) _).trans ((congrFun (V_bf1 m c) _).trans (colT_apply _ _ o))
  hwf2 := fun o k => (read7 t (V m c main_v26) _).trans ((congrFun (V_wf2 m c) _).trans (transposeT_apply _ _ o k))
  hbf2 := fun o => (read8 t (V m c main_v27) _).trans ((congrFun (V_bf2 m c) _).trans (colT_apply _ _ o))
  hwf3 := fun o k => (read9 t (V m c main_v29) _).trans ((congrFun (V_wf3 m c) _).trans (transposeT_apply _ _ o k))
  hbf3 := fun o => (read10 t (V m c main_v30) _).trans ((congrFun (V_bf3 m c) _).trans (colT_apply _ _ o))

end Cert.KernelIdeal.Side

end
-- ==== Proof.KerFinal.lean ====
/-
  The [128, 16384] array the launch leaves: entry (o, n) is logit o of image n.

  What grid point t writes back is the body's result on the point's staged blocks; by the body's specification that
  is, at (o, l), logit o of image 256t + l — the block of one whole-array function through the point's lanes. Point
  n / 256 covers column n, so the blocks cover the array and it ends holding that function.
-/
import proofs.«103082_g2000604803448687_pallaspilot1_85_11_alg».proof.Proof.KerStaged

set_option maxRecDepth 16384

noncomputable section

namespace Cert.KernelIdeal.Side

open Cert.KernelIdeal Idealize.ShloMosaic Idealize.ShloMosaic.ValueIdx Cert.LeNet
open Cert.KernelIdeal.Gen Idealize.ShloMosaic.TcCoe Idealize.SL.Sem
open Idealize.ShloMosaic.Pipeline (Dat)

variable (m : (ℓ : Loc nD τ sig) → Buf (Elt Ideal) ℓ)

/-- The launch's result as one function of the arguments: at (o, n), logit o of image n. -/
def logits (c : Dev nD) : S128x16384.Idx → EReal := fun i =>
  logit (tile (m ((c.tc : Thread nD τ).loc main_arg0)) (i 1)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (i 0)

theorem logits_apply (c : Dev nD) (i : S128x16384.Idx) (o : Fin 128) (n : Fin 16384) (h0 : (i 0).val = o.val) (h1 : (i 1).val = n.val) :
    logits m c i = logit (tile (m ((c.tc : Thread nD τ).loc main_arg0)) n) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) o := by
  obtain rfl : i = ix2 o n := by
    funext a
    match a with
    | ⟨0, _⟩ => exact Fin.ext h0
    | ⟨1, _⟩ => exact Fin.ext h1
  rfl

/-- What point t writes back is the block of `logits` through the point's lanes. -/
theorem flushed_eq (hB : Body.BlockSpec) (c : Dev nD) (t : Fin cfg0.N) :
    (dats m 0 c).flushed 11 t = ((cfg0.win 11).blk t).view.read (Elt Ideal) (logits m c) := by
  obtain ⟨e0, e1⟩ := idx11 t
  show (cfg0.win 11).cut (grid0.coords t) ((dats m 0 c).after 11 t) = _
  rw [after0_11]
  funext y
  obtain ⟨o, l, rfl⟩ : ∃ (o : Fin 128) (l : Fin 256), y = ix2 o l := ⟨y 0, y 1, eq_ix2 y⟩
  rw [View.read_apply]
  show Gen.out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 o l) = logits m c _
  refine (hB (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun l => tile (m ((c.tc : Thread nD τ).loc main_arg0)) (imgAt t l)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (staged m c t) o l).trans ?_
  refine (logits_apply m c _ o (imgAt t l) ?_ ?_).symm
  · show win0_11.index t (0 : Fin 2) * 128 + 1 * o.val = o.val
    rw [e0]; omega
  · show win0_11.index t (1 : Fin 2) * 256 + 1 * l.val = 256 * t.val + l.val
    rw [e1]; omega

/-- Every column of the array is in the block of the point that holds its image. -/
theorem cover (i : S128x16384.Idx) :
    ∃ t : Fin cfg0.N, (cfg0.win 11).flush t = true ∧ i ∈ ((cfg0.win 11).blk t).view.set := by
  have h0 : (i 0).val < 128 := (i 0).isLt
  have h1 : (i 1).val < 16384 := (i 1).isLt
  obtain ⟨t, ht⟩ : ∃ t : Fin cfg0.N, t.val = (i 1).val / 256 :=
    ⟨⟨(i 1).val / 256, Nat.lt_of_lt_of_eq (by omega : (i 1).val / 256 < 64) N_0.symm⟩, rfl⟩
  obtain ⟨e0, e1⟩ := idx11 t
  refine ⟨t, flush0_11 t, ?_⟩
  show i ∈ ((View.whole main_v31).slice (win0_11.rect t)).set
  rw [View.set_slice_whole, Rect.mem_set_unit]
  intro a
  match a with
  | ⟨0, _⟩ =>
    show win0_11.index t (0 : Fin 2) * 128 ≤ (i 0).val ∧ (i 0).val < win0_11.index t (0 : Fin 2) * 128 + 128
    rw [e0]; omega
  | ⟨1, _⟩ =>
    show win0_11.index t (1 : Fin 2) * 256 ≤ (i 1).val ∧ (i 1).val < win0_11.index t (1 : Fin 2) * 256 + 256
    rw [e1, ht]; omega

/-- The array after the launch. -/
theorem final (hB : Body.BlockSpec) (c : Dev nD) : (dats m 0 c).arrAt 11 cfg0.N = logits m c :=
  (dats m 0 c).arrAt_eq_of_cover 11 (logits m c) (fun t _ => flushed_eq m hB c t) cover

end Cert.KernelIdeal.Side

end
-- ==== Proof.KerRun.lean ====
/-
  The transposed kernel's program, run: its result is the network's, its arguments are unchanged.

  After the launch the host transposes the [128, 16384] logits and keeps the first ten columns: entry (n, o) of the
  result is logit o of image n, which is the specification's result. The run is the generated frame run with its
  post read: the result buffer through the host tail and the launch's final array, the arguments as the frame leaves them.
-/
import proofs.«103082_g2000604803448687_pallaspilot1_85_11_alg».proof.Proof.KerFinal

set_option maxRecDepth 16384

noncomputable section

namespace Cert.KernelIdeal.Side

open Cert.KernelIdeal Idealize.ShloMosaic Idealize.ShloMosaic.ValueIdx Cert.LeNet
open Cert.KernelIdeal.Gen Idealize.ShloMosaic.TcCoe Idealize.SL.Sem
open Idealize.ShloMosaic.Pipeline (Dat)

/-- The result buffer after the host tail is the network's result on the arguments. -/
theorem tail_eq (hB : Body.BlockSpec) (m : (ℓ : Loc nD τ sig) → Buf (Elt Ideal) ℓ) (c : Dev nD) :
    Pipeline.afterTail₀ cfgs (dats m) 0 (V0 m) [hostOps1] c main_v33
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v33) = _
  after_results
  rw [Pipeline.withArrays_arr spec0 launch0.win.arr_inj c _ _ 11, final m hB c]
  funext i
  obtain ⟨n, o, rfl⟩ : ∃ (n : Fin 16384) (o : Fin 10), i = ix2 n o := ⟨i 0, i 1, eq_ix2 i⟩
  refine (tail_apply _ n o).trans ?_
  rfl

/-- Every weakly fair execution of the kernel's program terminates with the result buffer at the network's result on
    the arguments and the arguments unchanged. -/
theorem run (hB : Body.BlockSpec) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v33 (Pipeline.mem_restRefs_of main_v33 (by decide) (by decide))).trans (tail_eq hB m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Side

end
-- ==== Proof.RefLayout.lean ====
/-
  Layout operations of the row-blocked network, read at an index written by coordinates.

  A matrix whose row index is a mixed-radix number (p·b + q)·c + r is the rank-4 array [a, b, c, d] recast; a
  concatenation of N pieces of one shape along the last axis reads piece n at lane n·K + t; a slice that moves the
  two leading axes reads the source at the shifted block coordinates.
-/
import Idealize.ShloMosaic.Lib.ValueLayout
import Idealize.ShloMosaic.Lib.ValueIdx
import Idealize.ShloMosaic.Lib.Pipeline.Value

noncomputable section

namespace Cert.ReferenceIdeal.Side.Layout

open Idealize.ShloMosaic Idealize.ShloMosaic.ValueIdx

variable {α : Type}

/-- The rank-4 array [a, b, c, d] recast as the matrix [n, d] reads, at row (p·b + q)·c + r, the array at (p, q, r, ·). -/
theorem cast4_to2_apply {a b c d n : ℕ} (v : (⟨4, ![a, b, c, d]⟩ : Shape).Idx → α)
    (h : (⟨4, ![a, b, c, d]⟩ : Shape).ShapeCasts ⟨2, ![n, d]⟩)
    (p : Fin a) (q : Fin b) (r : Fin c) (k : Fin d) (row : Fin n) (hrow : row.val = (p.val * b + q.val) * c + r.val) :
    shapeCast ⟨2, ![n, d]⟩ v h (ix2 row k) = v (ix4 p q r k) :=
  shapeCast_apply v h _ _ (by
    rw [Shape.rowMajor_val_two, Shape.rowMajor_val_four]
    show ((p.val * b + q.val) * c + r.val) * d + k.val = row.val * d + k.val
    rw [hrow])

/-- The matrix [n, d] recast as the rank-4 array [a, b, c, d] reads, at (p, q, r, ·), row (p·b + q)·c + r. -/
theorem cast2_to4_apply {a b c d n : ℕ} (v : (⟨2, ![n, d]⟩ : Shape).Idx → α)
    (h : (⟨2, ![n, d]⟩ : Shape).ShapeCasts ⟨4, ![a, b, c, d]⟩)
    (p : Fin a) (q : Fin b) (r : Fin c) (k : Fin d) (row : Fin n) (hrow : row.val = (p.val * b + q.val) * c + r.val) :
    shapeCast ⟨4, ![a, b, c, d]⟩ v h (ix4 p q r k) = v (ix2 row k) :=
  shapeCast_apply v h _ _ (by
    rw [Shape.rowMajor_val_two, Shape.rowMajor_val_four]
    show row.val * d + k.val = ((p.val * b + q.val) * c + r.val) * d + k.val
    rw [hrow])

/-- The matrix [n, d] recast as the rank-3 array [a, b, d] reads, at (p, q, ·), row p·b + q. -/
theorem cast2_to3_apply {a b d n : ℕ} (v : (⟨2, ![n, d]⟩ : Shape).Idx → α)
    (h : (⟨2, ![n, d]⟩ : Shape).ShapeCasts ⟨3, ![a, b, d]⟩)
    (p : Fin a) (q : Fin b) (k : Fin d) (row : Fin n) (hrow : row.val = p.val * b + q.val) :
    shapeCast ⟨3, ![a, b, d]⟩ v h (ix3 p q k) = v (ix2 row k) :=
  shapeCast_apply v h _ _ (by
    rw [Shape.rowMajor_val_two, Shape.rowMajor_val_three]
    show row.val * d + k.val = (p.val * b + q.val) * d + k.val
    rw [hrow])

/-- A slice that moves the two leading axes of a rank-4 array by (u, v) reads the source at (u + p, v + q, ·, ·). -/
theorem slice4_01_apply {a b a' b' c d : ℕ} (u v : ℕ) (x : (⟨4, ![a', b', c, d]⟩ : Shape).Idx → α)
    (h : (⟨4, ![a', b', c, d]⟩ : Shape).Slices ![u, v, 0, 0] ⟨4, ![a, b, c, d]⟩)
    (p : Fin a) (q : Fin b) (r : Fin c) (k : Fin d) (p' : Fin a') (q' : Fin b')
    (hp : p'.val = u + p.val) (hq : q'.val = v + q.val) :
    extractStridedSlice ⟨4, ![a, b, c, d]⟩ ![u, v, 0, 0] x h (ix4 p q r k) = x (ix4 p' q' r k) :=
  extractStridedSlice_apply _ _ _ _ _ (fun ax => by
    match ax with
    | ⟨0, _⟩ => exact hp
    | ⟨1, _⟩ => exact hq
    | ⟨2, _⟩ => exact (Nat.zero_add _).symm
    | ⟨3, _⟩ => exact (Nat.zero_add _).symm)

/-- Plane s of a rank-3 array, kept as [1, b, c], reads the source at (s, ·, ·). -/
theorem slice3_plane_apply {a b c : ℕ} (s : ℕ) (x : (⟨3, ![a, b, c]⟩ : Shape).Idx → α)
    (h : (⟨3, ![a, b, c]⟩ : Shape).Slices ![s, 0, 0] ⟨3, ![1, b, c]⟩)
    (o : Fin 1) (q : Fin b) (k : Fin c) (s' : Fin a) (hs : s'.val = s) :
    extractStridedSlice ⟨3, ![1, b, c]⟩ ![s, 0, 0] x h (ix3 o q k) = x (ix3 s' q k) :=
  extractStridedSlice_apply _ _ _ _ _ (fun ax => by
    match ax with
    | ⟨0, _⟩ => show s'.val = s + o.val; have := o.isLt; omega
    | ⟨1, _⟩ => exact (Nat.zero_add _).symm
    | ⟨2, _⟩ => exact (Nat.zero_add _).symm)

/-- N pieces [d0, d1, d2, K] joined along the last axis: lane col of the result is lane col % K of piece col / K. -/
theorem concat4_last_apply {d0 d1 d2 K M N : ℕ} (f : Fin N → (⟨4, ![d0, d1, d2, K]⟩ : Shape).Idx → α)
    (xs : List ((s : Shape) × (s.Idx → α)))
    (hxs : xs = List.ofFn fun n : Fin N => (⟨⟨4, ![d0, d1, d2, K]⟩, f n⟩ : (s : Shape) × (s.Idx → α)))
    (h : Shape.Concatenates (xs.map (·.1)) ⟨4, ![d0, d1, d2, M]⟩ 3)
    (p : Fin d0) (q : Fin d1) (r : Fin d2) (col : Fin M) (n : Fin N) (t : Fin K)
    (hn : col.val / K = n.val) (ht : t.val = col.val % K) :
    concatenate ⟨4, ![d0, d1, d2, M]⟩ 3 xs h (ix4 p q r col) = f n (ix4 p q r t) := by
  subst hxs
  refine concatenate_ofFn_apply (t := ⟨4, ![d0, d1, d2, M]⟩) (s₁ := ⟨4, ![d0, d1, d2, K]⟩) (3 : Fin 4) f h rfl K rfl (ix4 p q r col) n hn (ix4 p q r t) ht fun b hb => ?_
  match b with
  | ⟨0, _⟩ => rfl
  | ⟨1, _⟩ => rfl
  | ⟨2, _⟩ => rfl
  | ⟨3, _⟩ => exact absurd rfl hb

/-- N pieces [d0, K] joined along the columns: column col of the result is column col % K of piece col / K. -/
theorem concat2_last_apply {d0 K M N : ℕ} (f : Fin N → (⟨2, ![d0, K]⟩ : Shape).Idx → α)
    (xs : List ((s : Shape) × (s.Idx → α)))
    (hxs : xs = List.ofFn fun n : Fin N => (⟨⟨2, ![d0, K]⟩, f n⟩ : (s : Shape) × (s.Idx → α)))
    (h : Shape.Concatenates (xs.map (·.1)) ⟨2, ![d0, M]⟩ 1)
    (p : Fin d0) (col : Fin M) (n : Fin N) (t : Fin K)
    (hn : col.val / K = n.val) (ht : t.val = col.val % K) :
    concatenate ⟨2, ![d0, M]⟩ 1 xs h (ix2 p col) = f n (ix2 p t) := by
  subst hxs
  refine concatenate_ofFn_apply (t := ⟨2, ![d0, M]⟩) (s₁ := ⟨2, ![d0, K]⟩) (1 : Fin 2) f h rfl K rfl (ix2 p col) n hn (ix2 p t) ht fun b hb => ?_
  match b with
  | ⟨0, _⟩ => rfl
  | ⟨1, _⟩ => exact absurd rfl hb

/-- 4 pieces [d0, d1, d2, K] joined along the last axis, the pieces named one by one. -/
theorem concat4_last4_apply {d0 d1 d2 K M : ℕ} (p0 p1 p2 p3 : (⟨4, ![d0, d1, d2, K]⟩ : Shape).Idx → α)
    (h : Shape.Concatenates (([⟨(⟨4, ![d0, d1, d2, K]⟩ : Shape), p0⟩, ⟨(⟨4, ![d0, d1, d2, K]⟩ : Shape), p1⟩, ⟨(⟨4, ![d0, d1, d2, K]⟩ : Shape), p2⟩, ⟨(⟨4, ![d0, d1, d2, K]⟩ : Shape), p3⟩] : List ((s : Shape) × (s.Idx → α))).map (·.1)) ⟨4, ![d0, d1, d2, M]⟩ 3)
    (p : Fin d0) (q : Fin d1) (r : Fin d2) (col : Fin M) (n : Fin 4) (t : Fin K)
    (hn : col.val / K = n.val) (ht : t.val = col.val % K) :
    concatenate ⟨4, ![d0, d1, d2, M]⟩ 3 [⟨(⟨4, ![d0, d1, d2, K]⟩ : Shape), p0⟩, ⟨(⟨4, ![d0, d1, d2, K]⟩ : Shape), p1⟩, ⟨(⟨4, ![d0, d1, d2, K]⟩ : Shape), p2⟩, ⟨(⟨4, ![d0, d1, d2, K]⟩ : Shape), p3⟩] h (ix4 p q r col)
      = (![p0, p1, p2, p3] : Fin 4 → (⟨4, ![d0, d1, d2, K]⟩ : Shape).Idx → α) n (ix4 p q r t) :=
  concat4_last_apply ![p0, p1, p2, p3] _ rfl h p q r col n t hn ht

/-- 9 pieces [d0, d1, d2, K] joined along the last axis, the pieces named one by one. -/
theorem concat4_last9_apply {d0 d1 d2 K M : ℕ} (p0 p1 p2 p3 p4 p5 p6 p7 p8 : (⟨4, ![d0, d1, d2, K]⟩ : Shape).Idx → α)
    (h : Shape.Concatenates (([⟨(⟨4, ![d0, d1, d2, K]⟩ : Shape), p0⟩, ⟨(⟨4, ![d0, d1, d2, K]⟩ : Shape), p1⟩, ⟨(⟨4, ![d0, d1, d2, K]⟩ : Shape), p2⟩, ⟨(⟨4, ![d0, d1, d2, K]⟩ : Shape), p3⟩, ⟨(⟨4, ![d0, d1, d2, K]⟩ : Shape), p4⟩, ⟨(⟨4, ![d0, d1, d2, K]⟩ : Shape), p5⟩, ⟨(⟨4, ![d0, d1, d2, K]⟩ : Shape), p6⟩, ⟨(⟨4, ![d0, d1, d2, K]⟩ : Shape), p7⟩, ⟨(⟨4, ![d0, d1, d2, K]⟩ : Shape), p8⟩] : List ((s : Shape) × (s.Idx → α))).map (·.1)) ⟨4, ![d0, d1, d2, M]⟩ 3)
    (p : Fin d0) (q : Fin d1) (r : Fin d2) (col : Fin M) (n : Fin 9) (t : Fin K)
    (hn : col.val / K = n.val) (ht : t.val = col.val % K) :
    concatenate ⟨4, ![d0, d1, d2, M]⟩ 3 [⟨(⟨4, ![d0, d1, d2, K]⟩ : Shape), p0⟩, ⟨(⟨4, ![d0, d1, d2, K]⟩ : Shape), p1⟩, ⟨(⟨4, ![d0, d1, d2, K]⟩ : Shape), p2⟩, ⟨(⟨4, ![d0, d1, d2, K]⟩ : Shape), p3⟩, ⟨(⟨4, ![d0, d1, d2, K]⟩ : Shape), p4⟩, ⟨(⟨4, ![d0, d1, d2, K]⟩ : Shape), p5⟩, ⟨(⟨4, ![d0, d1, d2, K]⟩ : Shape), p6⟩, ⟨(⟨4, ![d0, d1, d2, K]⟩ : Shape), p7⟩, ⟨(⟨4, ![d0, d1, d2, K]⟩ : Shape), p8⟩] h (ix4 p q r col)
      = (![p0, p1, p2, p3, p4, p5, p6, p7, p8] : Fin 9 → (⟨4, ![d0, d1, d2, K]⟩ : Shape).Idx → α) n (ix4 p q r t) :=
  concat4_last_apply ![p0, p1, p2, p3, p4, p5, p6, p7, p8] _ rfl h p q r col n t hn ht

/-- 4 pieces [d0, K] joined along the columns, the pieces named one by one. -/
theorem concat2_last4_apply {d0 K M : ℕ} (p0 p1 p2 p3 : (⟨2, ![d0, K]⟩ : Shape).Idx → α)
    (h : Shape.Concatenates (([⟨(⟨2, ![d0, K]⟩ : Shape), p0⟩, ⟨(⟨2, ![d0, K]⟩ : Shape), p1⟩, ⟨(⟨2, ![d0, K]⟩ : Shape), p2⟩, ⟨(⟨2, ![d0, K]⟩ : Shape), p3⟩] : List ((s : Shape) × (s.Idx → α))).map (·.1)) ⟨2, ![d0, M]⟩ 1)
    (p : Fin d0) (col : Fin M) (n : Fin 4) (t : Fin K)
    (hn : col.val / K = n.val) (ht : t.val = col.val % K) :
    concatenate ⟨2, ![d0, M]⟩ 1 [⟨(⟨2, ![d0, K]⟩ : Shape), p0⟩, ⟨(⟨2, ![d0, K]⟩ : Shape), p1⟩, ⟨(⟨2, ![d0, K]⟩ : Shape), p2⟩, ⟨(⟨2, ![d0, K]⟩ : Shape), p3⟩] h (ix2 p col)
      = (![p0, p1, p2, p3] : Fin 4 → (⟨2, ![d0, K]⟩ : Shape).Idx → α) n (ix2 p t) :=
  concat2_last_apply ![p0, p1, p2, p3] _ rfl h p col n t hn ht

/-- 16 pieces [d0, K] joined along the columns, the pieces named one by one. -/
theorem concat2_last16_apply {d0 K M : ℕ} (p0 p1 p2 p3 p4 p5 p6 p7 p8 p9 p10 p11 p12 p13 p14 p15 : (⟨2, ![d0, K]⟩ : Shape).Idx → α)
    (h : Shape.Concatenates (([⟨(⟨2, ![d0, K]⟩ : Shape), p0⟩, ⟨(⟨2, ![d0, K]⟩ : Shape), p1⟩, ⟨(⟨2, ![d0, K]⟩ : Shape), p2⟩, ⟨(⟨2, ![d0, K]⟩ : Shape), p3⟩, ⟨(⟨2, ![d0, K]⟩ : Shape), p4⟩, ⟨(⟨2, ![d0, K]⟩ : Shape), p5⟩, ⟨(⟨2, ![d0, K]⟩ : Shape), p6⟩, ⟨(⟨2, ![d0, K]⟩ : Shape), p7⟩, ⟨(⟨2, ![d0, K]⟩ : Shape), p8⟩, ⟨(⟨2, ![d0, K]⟩ : Shape), p9⟩, ⟨(⟨2, ![d0, K]⟩ : Shape), p10⟩, ⟨(⟨2, ![d0, K]⟩ : Shape), p11⟩, ⟨(⟨2, ![d0, K]⟩ : Shape), p12⟩, ⟨(⟨2, ![d0, K]⟩ : Shape), p13⟩, ⟨(⟨2, ![d0, K]⟩ : Shape), p14⟩, ⟨(⟨2, ![d0, K]⟩ : Shape), p15⟩] : List ((s : Shape) × (s.Idx → α))).map (·.1)) ⟨2, ![d0, M]⟩ 1)
    (p : Fin d0) (col : Fin M) (n : Fin 16) (t : Fin K)
    (hn : col.val / K = n.val) (ht : t.val = col.val % K) :
    concatenate ⟨2, ![d0, M]⟩ 1 [⟨(⟨2, ![d0, K]⟩ : Shape), p0⟩, ⟨(⟨2, ![d0, K]⟩ : Shape), p1⟩, ⟨(⟨2, ![d0, K]⟩ : Shape), p2⟩, ⟨(⟨2, ![d0, K]⟩ : Shape), p3⟩, ⟨(⟨2, ![d0, K]⟩ : Shape), p4⟩, ⟨(⟨2, ![d0, K]⟩ : Shape), p5⟩, ⟨(⟨2, ![d0, K]⟩ : Shape), p6⟩, ⟨(⟨2, ![d0, K]⟩ : Shape), p7⟩, ⟨(⟨2, ![d0, K]⟩ : Shape), p8⟩, ⟨(⟨2, ![d0, K]⟩ : Shape), p9⟩, ⟨(⟨2, ![d0, K]⟩ : Shape), p10⟩, ⟨(⟨2, ![d0, K]⟩ : Shape), p11⟩, ⟨(⟨2, ![d0, K]⟩ : Shape), p12⟩, ⟨(⟨2, ![d0, K]⟩ : Shape), p13⟩, ⟨(⟨2, ![d0, K]⟩ : Shape), p14⟩, ⟨(⟨2, ![d0, K]⟩ : Shape), p15⟩] h (ix2 p col)
      = (![p0, p1, p2, p3, p4, p5, p6, p7, p8, p9, p10, p11, p12, p13, p14, p15] : Fin 16 → (⟨2, ![d0, K]⟩ : Shape).Idx → α) n (ix2 p t) :=
  concat2_last_apply ![p0, p1, p2, p3, p4, p5, p6, p7, p8, p9, p10, p11, p12, p13, p14, p15] _ rfl h p col n t hn ht

end Cert.ReferenceIdeal.Side.Layout

end
-- ==== Proof.RefMat.lean ====
/-
  A dense layer read at an entry: the product of a matrix of rows with the weight matrix into a zero accumulator, plus
  the bias row copied to every row, is at (r, c) the sum over the contracted coordinate plus the bias at c; the
  rectifier is the maximum with zero.
-/
import Idealize.ShloMosaic.Lib.ValueLayout
import proofs.«103082_g2000604803448687_pallaspilot1_85_11_alg».proof.Proof.LibMatProduct

noncomputable section

namespace Cert.ReferenceIdeal.Side.Mat

open Idealize.ShloMosaic Idealize.ShloMosaic.ValueIdx

/-- Entry (r, c) of lhs · rhs + bias row. -/
theorem matbias_apply {m k n : ℕ} (d : DotDims ⟨2, ![m, k]⟩ ⟨2, ![k, n]⟩ ⟨2, ![m, n]⟩)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ .f32) (rhs : FVec Ideal ⟨2, ![k, n]⟩ .f32) (b : FVec Ideal ⟨2, ![1, n]⟩ .f32)
    (hb : (⟨2, ![1, n]⟩ : Shape).Broadcasts ⟨2, ![m, n]⟩) (r : Fin m) (c : Fin n) :
    addf (matmul d none lhs rhs (constant ⟨2, ![m, n]⟩ .f32 0x00000000#32)) (broadcastTo ⟨2, ![m, n]⟩ b hb) (ix2 r c)
      = (∑ h : Fin k, lhs (ix2 r h) * rhs (ix2 h c)) + b (ix2 (0 : Fin 1) c) := by
  rw [addf_apply, broadcastTo_1b_ab_apply]
  exact congrArg (· + b (ix2 (0 : Fin 1) c)) (Cert.LibMatProduct.matmul_zero_apply d none hlc hrc hln hrn hlb hrb lhs rhs r c)

/-- The rectifier at an entry. -/
theorem relu_apply {s : Shape} (v : FVec Ideal s .f32) (i : s.Idx) :
    maximumf v (broadcast s (Scalar.ofBits (F := Ideal) .f32 0x00000000#32)) i = max (v i) 0 := by
  show max (v i) (Ideal.ofBits .f32 0x00000000#32) = _
  rw [Ideal.ofBits_zero_f32]

end Cert.ReferenceIdeal.Side.Mat

end
-- ==== Proof.RefConv1.lean ====
/-
  The first convolution and pooling of the row-blocked network, read at an entry.

  Row (ph·6 + pw)·8 + l of the patch matrix holds the 64 taps of block (ph, pw) of image l; the product with the packed
  matrix plus the bias row is the first convolution's column; the maximum over the four window positions and the
  rectifier give the pooled entry; the rows recast to [6, 6, 8, 24] are the pooled blocks of the eight images.
-/
import proofs.«103082_g2000604803448687_pallaspilot1_85_11_alg».proof.Proof.Gen.ReferenceIdeal.Skeleton
import proofs.«103082_g2000604803448687_pallaspilot1_85_11_alg».proof.Proof.Spec
import proofs.«103082_g2000604803448687_pallaspilot1_85_11_alg».proof.Proof.RefLayout
import proofs.«103082_g2000604803448687_pallaspilot1_85_11_alg».proof.Proof.RefMat

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

variable {F : FTy → Type} [FloatOps F]

/-- The patch matrix: four shifted copies of the tiles joined along the lanes, rows (ph, pw, l). -/
def patchRows (v0 : Vec F S7x7x8x16 .f32) : FVec F S288x64 .f32 :=
  have v1 : FVec F S7x7x8x16 .f32 := shapeCast S7x7x8x16 v0 shapeCasts_S7x7x8x16_S7x7x8x16
  have v2 : FVec F S6x6x8x16 .f32 := extractStridedSlice S6x6x8x16 ![0, 0, 0, 0] v1 slices_S7x7x8x16_o0_0_0_0_S6x6x8x16
  have v3 : FVec F S6x6x8x16 .f32 := extractStridedSlice S6x6x8x16 ![0, 1, 0, 0] v1 slices_S7x7x8x16_o0_1_0_0_S6x6x8x16
  have v4 : FVec F S6x6x8x16 .f32 := extractStridedSlice S6x6x8x16 ![1, 0, 0, 0] v1 slices_S7x7x8x16_o1_0_0_0_S6x6x8x16
  have v5 : FVec F S6x6x8x16 .f32 := extractStridedSlice S6x6x8x16 ![1, 1, 0, 0] v1 slices_S7x7x8x16_o1_1_0_0_S6x6x8x16
  have v6 : FVec F S6x6x8x64 .f32 := concatenate S6x6x8x64 3 [⟨S6x6x8x16, v2⟩, ⟨S6x6x8x16, v3⟩, ⟨S6x6x8x16, v4⟩, ⟨S6x6x8x16, v5⟩] concatenates_S6x6x8x16_S6x6x8x16_S6x6x8x16_S6x6x8x16_S6x6x8x64_d3
  have v7 : FVec F S288x64 .f32 := shapeCast S288x64 v6 shapeCasts_S6x6x8x64_S288x64
  v7

/-- The first convolution with bias, row by row. -/
def conv1Rows (v7 : FVec F S288x64 .f32) (v8 : Vec F S64x96 .f32) (v10 : Vec F S1x96 .f32) : FVec F S288x96 .f32 :=
  have cst : FVec F S288x96 .f32 := constant S288x96 .f32 0x00000000#32
  have v9 : FVec F S288x96 .f32 := matmul dot_S288x64_S64x96_S288x96_1_0_0_1_n_n none v7 v8 cst
  have v11 : FVec F S288x96 .f32 := broadcastTo S288x96 v10 broadcasts_S1x96_S288x96
  have v12 : FVec F S288x96 .f32 := addf v9 v11
  v12

/-- Pooling, rectifier and the recast to blocks. -/
def pool1Rows (v12 : FVec F S288x96 .f32) : FVec F S6x6x8x24 .f32 :=
  have v13 : FVec F S288x6 .f32 := extractStridedSlice S288x6 ![0, 0] v12 slices_S288x96_o0_0_S288x6
  have v14 : FVec F S288x6 .f32 := extractStridedSlice S288x6 ![0, 6] v12 slices_S288x96_o0_6_S288x6
  have v15 : FVec F S288x6 .f32 := maximumf v13 v14
  have v16 : FVec F S288x6 .f32 := extractStridedSlice S288x6 ![0, 12] v12 slices_S288x96_o0_12_S288x6
  have v17 : FVec F S288x6 .f32 := extractStridedSlice S288x6 ![0, 18] v12 slices_S288x96_o0_18_S288x6
  have v18 : FVec F S288x6 .f32 := maximumf v16 v17
  have v19 : FVec F S288x6 .f32 := maximumf v15 v18
  have v20 : FVec F S288x6 .f32 := extractStridedSlice S288x6 ![0, 24] v12 slices_S288x96_o0_24_S288x6
  have v21 : FVec F S288x6 .f32 := extractStridedSlice S288x6 ![0, 30] v12 slices_S288x96_o0_30_S288x6
  have v22 : FVec F S288x6 .f32 := maximumf v20 v21
  have v23 : FVec F S288x6 .f32 := extractStridedSlice S288x6 ![0, 36] v12 slices_S288x96_o0_36_S288x6
  have v24 : FVec F S288x6 .f32 := extractStridedSlice S288x6 ![0, 42] v12 slices_S288x96_o0_42_S288x6
  have v25 : FVec F S288x6 .f32 := maximumf v23 v24
  have v26 : FVec F S288x6 .f32 := maximumf v22 v25
  have v27 : FVec F S288x6 .f32 := extractStridedSlice S288x6 ![0, 48] v12 slices_S288x96_o0_48_S288x6
  have v28 : FVec F S288x6 .f32 := extractStridedSlice S288x6 ![0, 54] v12 slices_S288x96_o0_54_S288x6
  have v29 : FVec F S288x6 .f32 := maximumf v27 v28
  have v30 : FVec F S288x6 .f32 := extractStridedSlice S288x6 ![0, 60] v12 slices_S288x96_o0_60_S288x6
  have v31 : FVec F S288x6 .f32 := extractStridedSlice S288x6 ![0, 66] v12 slices_S288x96_o0_66_S288x6
  have v32 : FVec F S288x6 .f32 := maximumf v30 v31
  have v33 : FVec F S288x6 .f32 := maximumf v29 v32
  have v34 : FVec F S288x6 .f32 := extractStridedSlice S288x6 ![0, 72] v12 slices_S288x96_o0_72_S288x6
  have v35 : FVec F S288x6 .f32 := extractStridedSlice S288x6 ![0, 78] v12 slices_S288x96_o0_78_S288x6
  have v36 : FVec F S288x6 .f32 := maximumf v34 v35
  have v37 : FVec F S288x6 .f32 := extractStridedSlice S288x6 ![0, 84] v12 slices_S288x96_o0_84_S288x6
  have v38 : FVec F S288x6 .f32 := extractStridedSlice S288x6 ![0, 90] v12 slices_S288x96_o0_90_S288x6
  have v39 : FVec F S288x6 .f32 := maximumf v37 v38
  have v40 : FVec F S288x6 .f32 := maximumf v36 v39
  have v41 : FVec F S288x24 .f32 := concatenate S288x24 1 [⟨S288x6, v19⟩, ⟨S288x6, v26⟩, ⟨S288x6, v33⟩, ⟨S288x6, v40⟩] concatenates_S288x6_S288x6_S288x6_S288x6_S288x24_d1
  have cst_7 : F .f32 := Scalar.ofBits .f32 0x00000000#32
  have v42 : FVec F S288x24 .f32 := broadcast S288x24 cst_7
  have v43 : FVec F S288x24 .f32 := maximumf v41 v42
  have v44 : FVec F S6x6x8x24 .f32 := shapeCast S6x6x8x24 v43 shapeCasts_S288x24_S6x6x8x24
  v44

/-- The first payload is the three stages composed. -/
theorem pay2_eq (v0 : Vec F S7x7x8x16 .f32) (v8 : Vec F S64x96 .f32) (v10 : Vec F S1x96 .f32) :
    k0_pay2 v0 v8 v10 = pool1Rows (conv1Rows (patchRows v0) v8 v10) := rfl

/-- Image l of a staged block of tiles. -/
def tilesOf (x0 : Vec Ideal S7x7x8x16 .f32) (l : Fin 8) : Tiles := fun hh ww t => x0 (ix4 hh ww l t)

/-- Row (ph·6 + pw)·8 + l of the patch matrix holds the taps of block (ph, pw) of image l. -/
theorem patchRows_apply (v0 : Vec Ideal S7x7x8x16 .f32) (ph pw : Fin 6) (l : Fin 8) (k : Fin 64) (row : Fin 288)
    (hrow : row.val = (ph.val * 6 + pw.val) * 8 + l.val) :
    patchRows v0 (ix2 row k) = patch1 (tilesOf v0 l) ph pw k := by
  have hk := k.isLt
  have hph := ph.isLt
  have hpw := pw.isLt
  unfold patchRows
  refine (cast4_to2_apply _ _ ph pw l k row hrow).trans ?_
  refine (concat4_last4_apply _ _ _ _ _ ph pw l k ⟨k.val / 16, by omega⟩ ⟨k.val % 16, by omega⟩ rfl rfl).trans ?_
  have hcase : k.val / 16 = 0 ∨ k.val / 16 = 1 ∨ k.val / 16 = 2 ∨ k.val / 16 = 3 := by omega
  rcases hcase with h | h | h | h
  · rw [show (⟨k.val / 16, by omega⟩ : Fin 4) = 0 from Fin.ext h]
    dsimp only [Matrix.cons_val]
    refine (slice4_01_apply 0 0 _ _ ph pw l _ (⟨k.val / 32 + ph.val, by omega⟩ : Fin 7) (⟨k.val / 16 % 2 + pw.val, by omega⟩ : Fin 7)
      (by show k.val / 32 + ph.val = 0 + ph.val; omega) (by show k.val / 16 % 2 + pw.val = 0 + pw.val; omega)).trans ?_
    rw [shapeCast_self]; rfl
  · rw [show (⟨k.val / 16, by omega⟩ : Fin 4) = 1 from Fin.ext h]
    dsimp only [Matrix.cons_val]
    refine (slice4_01_apply 0 1 _ _ ph pw l _ (⟨k.val / 32 + ph.val, by omega⟩ : Fin 7) (⟨k.val / 16 % 2 + pw.val, by omega⟩ : Fin 7)
      (by show k.val / 32 + ph.val = 0 + ph.val; omega) (by show k.val / 16 % 2 + pw.val = 1 + pw.val; omega)).trans ?_
    rw [shapeCast_self]; rfl
  · rw [show (⟨k.val / 16, by omega⟩ : Fin 4) = 2 from Fin.ext h]
    dsimp only [Matrix.cons_val]
    refine (slice4_01_apply 1 0 _ _ ph pw l _ (⟨k.val / 32 + ph.val, by omega⟩ : Fin 7) (⟨k.val / 16 % 2 + pw.val, by omega⟩ : Fin 7)
      (by show k.val / 32 + ph.val = 1 + ph.val; omega) (by show k.val / 16 % 2 + pw.val = 0 + pw.val; omega)).trans ?_
    rw [shapeCast_self]; rfl
  · rw [show (⟨k.val / 16, by omega⟩ : Fin 4) = 3 from Fin.ext h]
    dsimp only [Matrix.cons_val]
    refine (slice4_01_apply 1 1 _ _ ph pw l _ (⟨k.val / 32 + ph.val, by omega⟩ : Fin 7) (⟨k.val / 16 % 2 + pw.val, by omega⟩ : Fin 7)
      (by show k.val / 32 + ph.val = 1 + ph.val; omega) (by show k.val / 16 % 2 + pw.val = 1 + pw.val; omega)).trans ?_
    rw [shapeCast_self]; rfl

/-- A row of the first convolution: the row of taps against the packed matrix, plus the bias. -/
theorem conv1Rows_apply (v7 : FVec Ideal S288x64 .f32) (v8 : Vec Ideal S64x96 .f32) (v10 : Vec Ideal S1x96 .f32)
    (row : Fin 288) (col : Fin 96) :
    conv1Rows v7 v8 v10 (ix2 row col) = (∑ k : Fin 64, v7 (ix2 row k) * v8 (ix2 k col)) + v10 (ix2 (0 : Fin 1) col) := by
  unfold conv1Rows
  exact matbias_apply dot_S288x64_S64x96_S288x96_1_0_0_1_n_n rfl rfl rfl rfl rfl rfl v7 v8 v10 broadcasts_S1x96_S288x96 row col

/-- The maximum of four column groups of one row. -/
theorem quad_apply {m n w : ℕ} (v : FVec Ideal ⟨2, ![m, n]⟩ .f32) (o0 o1 o2 o3 : ℕ)
    (h0 : (⟨2, ![m, n]⟩ : Shape).Slices ![0, o0] ⟨2, ![m, w]⟩) (h1 : (⟨2, ![m, n]⟩ : Shape).Slices ![0, o1] ⟨2, ![m, w]⟩)
    (h2 : (⟨2, ![m, n]⟩ : Shape).Slices ![0, o2] ⟨2, ![m, w]⟩) (h3 : (⟨2, ![m, n]⟩ : Shape).Slices ![0, o3] ⟨2, ![m, w]⟩)
    (r : Fin m) (co : Fin w) (c0 c1 c2 c3 : Fin n)
    (e0 : c0.val = o0 + co.val) (e1 : c1.val = o1 + co.val) (e2 : c2.val = o2 + co.val) (e3 : c3.val = o3 + co.val) :
    maximumf (maximumf (extractStridedSlice ⟨2, ![m, w]⟩ ![0, o0] v h0) (extractStridedSlice ⟨2, ![m, w]⟩ ![0, o1] v h1))
        (maximumf (extractStridedSlice ⟨2, ![m, w]⟩ ![0, o2] v h2) (extractStridedSlice ⟨2, ![m, w]⟩ ![0, o3] v h3)) (ix2 r co)
      = max (max (v (ix2 r c0)) (v (ix2 r c1))) (max (v (ix2 r c2)) (v (ix2 r c3))) := by
  show max (max _ _) (max _ _) = _
  rw [slice2_axis1_apply o0 v h0 r co c0 e0, slice2_axis1_apply o1 v h1 r co c1 e1,
    slice2_axis1_apply o2 v h2 r co c2 e2, slice2_axis1_apply o3 v h3 r co c3 e3]

/-- A pooled entry: the maximum over the four window positions of the convolution's columns, rectified. -/
theorem pool1Rows_apply (v12 : FVec Ideal S288x96 .f32) (ph pw : Fin 6) (l : Fin 8) (j : Fin 24) (row : Fin 288)
    (hrow : row.val = (ph.val * 6 + pw.val) * 8 + l.val) :
    pool1Rows v12 (ix4 ph pw l j)
      = max (max (max (v12 (ix2 row (⟨j.val / 6 * 24 + j.val % 6, by omega⟩ : Fin 96)))
                      (v12 (ix2 row (⟨j.val / 6 * 24 + 6 + j.val % 6, by omega⟩ : Fin 96))))
                 (max (v12 (ix2 row (⟨j.val / 6 * 24 + 12 + j.val % 6, by omega⟩ : Fin 96)))
                      (v12 (ix2 row (⟨j.val / 6 * 24 + 18 + j.val % 6, by omega⟩ : Fin 96))))) 0 := by
  have hj := j.isLt
  unfold pool1Rows
  refine (cast2_to4_apply _ _ ph pw l j row hrow).trans ?_
  refine (relu_apply _ _).trans ?_
  refine congrArg (max · 0) ?_
  refine (concat2_last4_apply _ _ _ _ _ row j ⟨j.val / 6, by omega⟩ ⟨j.val % 6, by omega⟩ rfl rfl).trans ?_
  have hcase : j.val / 6 = 0 ∨ j.val / 6 = 1 ∨ j.val / 6 = 2 ∨ j.val / 6 = 3 := by omega
  rcases hcase with h | h | h | h
  · rw [show (⟨j.val / 6, by omega⟩ : Fin 4) = 0 from Fin.ext h]
    dsimp only [Matrix.cons_val]
    exact quad_apply v12 0 6 12 18 _ _ _ _ row _ _ _ _ _
      (by show j.val / 6 * 24 + j.val % 6 = 0 + j.val % 6; omega) (by show j.val / 6 * 24 + 6 + j.val % 6 = 6 + j.val % 6; omega)
      (by show j.val / 6 * 24 + 12 + j.val % 6 = 12 + j.val % 6; omega) (by show j.val / 6 * 24 + 18 + j.val % 6 = 18 + j.val % 6; omega)
  · rw [show (⟨j.val / 6, by omega⟩ : Fin 4) = 1 from Fin.ext h]
    dsimp only [Matrix.cons_val]
    exact quad_apply v12 24 30 36 42 _ _ _ _ row _ _ _ _ _
      (by show j.val / 6 * 24 + j.val % 6 = 24 + j.val % 6; omega) (by show j.val / 6 * 24 + 6 + j.val % 6 = 30 + j.val % 6; omega)
      (by show j.val / 6 * 24 + 12 + j.val % 6 = 36 + j.val % 6; omega) (by show j.val / 6 * 24 + 18 + j.val % 6 = 42 + j.val % 6; omega)
  · rw [show (⟨j.val / 6, by omega⟩ : Fin 4) = 2 from Fin.ext h]
    dsimp only [Matrix.cons_val]
    exact quad_apply v12 48 54 60 66 _ _ _ _ row _ _ _ _ _
      (by show j.val / 6 * 24 + j.val % 6 = 48 + j.val % 6; omega) (by show j.val / 6 * 24 + 6 + j.val % 6 = 54 + j.val % 6; omega)
      (by show j.val / 6 * 24 + 12 + j.val % 6 = 60 + j.val % 6; omega) (by show j.val / 6 * 24 + 18 + j.val % 6 = 66 + j.val % 6; omega)
  · rw [show (⟨j.val / 6, by omega⟩ : Fin 4) = 3 from Fin.ext h]
    dsimp only [Matrix.cons_val]
    exact quad_apply v12 72 78 84 90 _ _ _ _ row _ _ _ _ _
      (by show j.val / 6 * 24 + j.val % 6 = 72 + j.val % 6; omega) (by show j.val / 6 * 24 + 6 + j.val % 6 = 78 + j.val % 6; omega)
      (by show j.val / 6 * 24 + 12 + j.val % 6 = 84 + j.val % 6; omega) (by show j.val / 6 * 24 + 18 + j.val % 6 = 90 + j.val % 6; omega)

/-- Entry (ph, pw, l, j) of the first payload is pooled entry j of block (ph, pw) of image l. -/
theorem pay2_apply (x0 : Vec Ideal S7x7x8x16 .f32) (x1 : Vec Ideal S64x96 .f32) (x2 : Vec Ideal S1x96 .f32)
    (ph pw : Fin 6) (l : Fin 8) (j : Fin 24) :
    k0_pay2 x0 x1 x2 (ix4 ph pw l j) = pool1 (tilesOf x0 l) x1 x2 ph pw j := by
  have hph := ph.isLt
  have hpw := pw.isLt
  have hl := l.isLt
  have hc : ∀ col : Fin 96, conv1Rows (patchRows x0) x1 x2 (ix2 (⟨(ph.val * 6 + pw.val) * 8 + l.val, by omega⟩ : Fin 288) col)
      = conv1 (tilesOf x0 l) x1 x2 ph pw col := fun col => by
    rw [conv1Rows_apply]
    unfold conv1
    refine congrArg (· + x2 (ix2 (0 : Fin 1) col)) (Finset.sum_congr rfl fun k _ => ?_)
    rw [patchRows_apply x0 ph pw l k _ rfl]
  rw [pay2_eq, pool1Rows_apply _ ph pw l j ⟨(ph.val * 6 + pw.val) * 8 + l.val, by omega⟩ rfl]
  unfold pool1
  rw [hc, hc, hc, hc]

/-- The copy of the pooled blocks shifted by (0, 0): entry (qh, qw, l, j) is pooled entry j of block (0 + qh, 0 + qw) of image l. -/
theorem pay3_apply (x0 : Vec Ideal S7x7x8x16 .f32) (x1 : Vec Ideal S64x96 .f32) (x2 : Vec Ideal S1x96 .f32) (l : Fin 8)
    (qh qw : Fin 4) (j : Fin 24) (p' q' : Fin 6) (hp : p'.val = 0 + qh.val) (hq : q'.val = 0 + qw.val) :
    k0_pay3 x0 x1 x2 (ix4 qh qw l j) = pool1 (tilesOf x0 l) x1 x2 p' q' j := by
  unfold k0_pay3
  refine (slice4_01_apply 0 0 _ _ qh qw l j p' q' hp hq).trans ?_
  exact pay2_apply x0 x1 x2 p' q' l j

/-- The copy of the pooled blocks shifted by (0, 1): entry (qh, qw, l, j) is pooled entry j of block (0 + qh, 1 + qw) of image l. -/
theorem pay4_apply (x0 : Vec Ideal S7x7x8x16 .f32) (x1 : Vec Ideal S64x96 .f32) (x2 : Vec Ideal S1x96 .f32) (l : Fin 8)
    (qh qw : Fin 4) (j : Fin 24) (p' q' : Fin 6) (hp : p'.val = 0 + qh.val) (hq : q'.val = 1 + qw.val) :
    k0_pay4 x0 x1 x2 (ix4 qh qw l j) = pool1 (tilesOf x0 l) x1 x2 p' q' j := by
  unfold k0_pay4
  refine (slice4_01_apply 0 1 _ _ qh qw l j p' q' hp hq).trans ?_
  exact pay2_apply x0 x1 x2 p' q' l j

/-- The copy of the pooled blocks shifted by (0, 2): entry (qh, qw, l, j) is pooled entry j of block (0 + qh, 2 + qw) of image l. -/
theorem pay5_apply (x0 : Vec Ideal S7x7x8x16 .f32) (x1 : Vec Ideal S64x96 .f32) (x2 : Vec Ideal S1x96 .f32) (l : Fin 8)
    (qh qw : Fin 4) (j : Fin 24) (p' q' : Fin 6) (hp : p'.val = 0 + qh.val) (hq : q'.val = 2 + qw.val) :
    k0_pay5 x0 x1 x2 (ix4 qh qw l j) = pool1 (tilesOf x0 l) x1 x2 p' q' j := by
  unfold k0_pay5
  refine (slice4_01_apply 0 2 _ _ qh qw l j p' q' hp hq).trans ?_
  exact pay2_apply x0 x1 x2 p' q' l j

/-- The copy of the pooled blocks shifted by (1, 0): entry (qh, qw, l, j) is pooled entry j of block (1 + qh, 0 + qw) of image l. -/
theorem pay6_apply (x0 : Vec Ideal S7x7x8x16 .f32) (x1 : Vec Ideal S64x96 .f32) (x2 : Vec Ideal S1x96 .f32) (l : Fin 8)
    (qh qw : Fin 4) (j : Fin 24) (p' q' : Fin 6) (hp : p'.val = 1 + qh.val) (hq : q'.val = 0 + qw.val) :
    k0_pay6 x0 x1 x2 (ix4 qh qw l j) = pool1 (tilesOf x0 l) x1 x2 p' q' j := by
  unfold k0_pay6
  refine (slice4_01_apply 1 0 _ _ qh qw l j p' q' hp hq).trans ?_
  exact pay2_apply x0 x1 x2 p' q' l j

end Cert.ReferenceIdeal.Side

end
-- ==== Proof.RefConv2.lean ====
/-
  The second convolution and pooling of the row-blocked network, read at an entry.

  Row (qh·4 + qw)·8 + l of the second patch matrix holds the 216 taps of block (qh, qw) of image l: nine shifted copies
  of the pooled blocks joined along the lanes. The product with the packed matrix plus the bias, the maximum over the
  four window positions and the rectifier give the sixteen channels of the block; the rows recast to [16, 8, 16] are
  indexed by block, image and channel.
-/
import proofs.«103082_g2000604803448687_pallaspilot1_85_11_alg».proof.Proof.Gen.ReferenceIdeal.Skeleton
import proofs.«103082_g2000604803448687_pallaspilot1_85_11_alg».proof.Proof.Spec
import proofs.«103082_g2000604803448687_pallaspilot1_85_11_alg».proof.Proof.RefLayout
import proofs.«103082_g2000604803448687_pallaspilot1_85_11_alg».proof.Proof.RefMat

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

variable {F : FTy → Type} [FloatOps F]

/-- The second patch matrix: nine shifted copies of the pooled blocks joined along the lanes, rows (qh, qw, l). -/
def patch2Rows (v44 : FVec F S6x6x8x24 .f32) (v45 : FVec F S4x4x8x24 .f32) (v46 : FVec F S4x4x8x24 .f32)
    (v47 : FVec F S4x4x8x24 .f32) (v48 : FVec F S4x4x8x24 .f32) : FVec F S128x216 .f32 :=
  have v49 : FVec F S4x4x8x24 .f32 := extractStridedSlice S4x4x8x24 ![1, 1, 0, 0] v44 slices_S6x6x8x24_o1_1_0_0_S4x4x8x24
  have v50 : FVec F S4x4x8x24 .f32 := extractStridedSlice S4x4x8x24 ![1, 2, 0, 0] v44 slices_S6x6x8x24_o1_2_0_0_S4x4x8x24
  have v51 : FVec F S4x4x8x24 .f32 := extractStridedSlice S4x4x8x24 ![2, 0, 0, 0] v44 slices_S6x6x8x24_o2_0_0_0_S4x4x8x24
  have v52 : FVec F S4x4x8x24 .f32 := extractStridedSlice S4x4x8x24 ![2, 1, 0, 0] v44 slices_S6x6x8x24_o2_1_0_0_S4x4x8x24
  have v53 : FVec F S4x4x8x24 .f32 := extractStridedSlice S4x4x8x24 ![2, 2, 0, 0] v44 slices_S6x6x8x24_o2_2_0_0_S4x4x8x24
  have v54 : FVec F S4x4x8x216 .f32 := concatenate S4x4x8x216 3 [⟨S4x4x8x24, v45⟩, ⟨S4x4x8x24, v46⟩, ⟨S4x4x8x24, v47⟩, ⟨S4x4x8x24, v48⟩, ⟨S4x4x8x24, v49⟩, ⟨S4x4x8x24, v50⟩, ⟨S4x4x8x24, v51⟩, ⟨S4x4x8x24, v52⟩, ⟨S4x4x8x24, v53⟩] concatenates_S4x4x8x24_S4x4x8x24_S4x4x8x24_S4x4x8x24_S4x4x8x24_S4x4x8x24_S4x4x8x24_S4x4x8x24_S4x4x8x24_S4x4x8x216_d3
  have v55 : FVec F S128x216 .f32 := shapeCast S128x216 v54 shapeCasts_S4x4x8x216_S128x216
  v55

/-- The second convolution with bias, row by row. -/
def conv2Rows (v55 : FVec F S128x216 .f32) (v56 : Vec F S216x64 .f32) (v58 : Vec F S1x64 .f32) : FVec F S128x64 .f32 :=
  have cst_10 : FVec F S128x64 .f32 := constant S128x64 .f32 0x00000000#32
  have v57 : FVec F S128x64 .f32 := matmul dot_S128x216_S216x64_S128x64_1_0_0_1_n_n none v55 v56 cst_10
  have v59 : FVec F S128x64 .f32 := broadcastTo S128x64 v58 broadcasts_S1x64_S128x64
  have v60 : FVec F S128x64 .f32 := addf v57 v59
  v60

/-- Pooling, rectifier and the recast to [block, image, channel]. -/
def pool2Rows (v60 : FVec F S128x64 .f32) : FVec F S16x8x16 .f32 :=
  have v61 : FVec F S128x16 .f32 := extractStridedSlice S128x16 ![0, 0] v60 slices_S128x64_o0_0_S128x16
  have v62 : FVec F S128x16 .f32 := extractStridedSlice S128x16 ![0, 16] v60 slices_S128x64_o0_16_S128x16
  have v63 : FVec F S128x16 .f32 := maximumf v61 v62
  have v64 : FVec F S128x16 .f32 := extractStridedSlice S128x16 ![0, 32] v60 slices_S128x64_o0_32_S128x16
  have v65 : FVec F S128x16 .f32 := extractStridedSlice S128x16 ![0, 48] v60 slices_S128x64_o0_48_S128x16
  have v66 : FVec F S128x16 .f32 := maximumf v64 v65
  have v67 : FVec F S128x16 .f32 := maximumf v63 v66
  have cst_13 : F .f32 := Scalar.ofBits .f32 0x00000000#32
  have v68 : FVec F S128x16 .f32 := broadcast S128x16 cst_13
  have v69 : FVec F S128x16 .f32 := maximumf v67 v68
  have v70 : FVec F S16x8x16 .f32 := shapeCast S16x8x16 v69 shapeCasts_S128x16_S16x8x16
  v70

/-- The second payload is the three stages composed. -/
theorem pay7_eq (v44 : FVec F S6x6x8x24 .f32) (v45 v46 v47 v48 : FVec F S4x4x8x24 .f32) (v56 : Vec F S216x64 .f32) (v58 : Vec F S1x64 .f32) :
    k0_pay7 v44 v45 v46 v47 v48 v56 v58 = pool2Rows (conv2Rows (patch2Rows v44 v45 v46 v47 v48) v56 v58) := rfl

/-- Row (qh·4 + qw)·8 + l of the second patch matrix holds the taps of block (qh, qw) of image l, when the pooled blocks
    (and the four shifted copies handed over beside them) hold the pooled entries P of image l. -/
theorem patch2Rows_apply (P : Fin 6 → Fin 6 → Fin 24 → EReal) (l : Fin 8)
    (v44 : FVec Ideal S6x6x8x24 .f32) (v45 v46 v47 v48 : FVec Ideal S4x4x8x24 .f32)
    (h44 : ∀ (ph pw : Fin 6) (j : Fin 24), v44 (ix4 ph pw l j) = P ph pw j)
    (h45 : ∀ (qh qw : Fin 4) (j : Fin 24) (p' q' : Fin 6), p'.val = 0 + qh.val → q'.val = 0 + qw.val → v45 (ix4 qh qw l j) = P p' q' j)
    (h46 : ∀ (qh qw : Fin 4) (j : Fin 24) (p' q' : Fin 6), p'.val = 0 + qh.val → q'.val = 1 + qw.val → v46 (ix4 qh qw l j) = P p' q' j)
    (h47 : ∀ (qh qw : Fin 4) (j : Fin 24) (p' q' : Fin 6), p'.val = 0 + qh.val → q'.val = 2 + qw.val → v47 (ix4 qh qw l j) = P p' q' j)
    (h48 : ∀ (qh qw : Fin 4) (j : Fin 24) (p' q' : Fin 6), p'.val = 1 + qh.val → q'.val = 0 + qw.val → v48 (ix4 qh qw l j) = P p' q' j)
    (qh qw : Fin 4) (k : Fin 216) (row : Fin 128) (hrow : row.val = (qh.val * 4 + qw.val) * 8 + l.val) :
    patch2Rows v44 v45 v46 v47 v48 (ix2 row k)
      = P (⟨k.val / 72 + qh.val, by omega⟩ : Fin 6) (⟨k.val / 24 % 3 + qw.val, by omega⟩ : Fin 6) (⟨k.val % 24, by omega⟩ : Fin 24) := by
  have hk := k.isLt
  have hqh := qh.isLt
  have hqw := qw.isLt
  unfold patch2Rows
  refine (cast4_to2_apply _ _ qh qw l k row hrow).trans ?_
  refine (concat4_last9_apply _ _ _ _ _ _ _ _ _ _ qh qw l k ⟨k.val / 24, by omega⟩ ⟨k.val % 24, by omega⟩ rfl rfl).trans ?_
  have hcase : k.val / 24 = 0 ∨ k.val / 24 = 1 ∨ k.val / 24 = 2 ∨ k.val / 24 = 3 ∨ k.val / 24 = 4 ∨ k.val / 24 = 5
      ∨ k.val / 24 = 6 ∨ k.val / 24 = 7 ∨ k.val / 24 = 8 := by omega
  rcases hcase with h | h | h | h | h | h | h | h | h
  · rw [show (⟨k.val / 24, by omega⟩ : Fin 9) = 0 from Fin.ext h]
    dsimp only [Matrix.cons_val]
    exact h45 qh qw _ _ _ (by show k.val / 72 + qh.val = 0 + qh.val; omega) (by show k.val / 24 % 3 + qw.val = 0 + qw.val; omega)
  · rw [show (⟨k.val / 24, by omega⟩ : Fin 9) = 1 from Fin.ext h]
    dsimp only [Matrix.cons_val]
    exact h46 qh qw _ _ _ (by show k.val / 72 + qh.val = 0 + qh.val; omega) (by show k.val / 24 % 3 + qw.val = 1 + qw.val; omega)
  · rw [show (⟨k.val / 24, by omega⟩ : Fin 9) = 2 from Fin.ext h]
    dsimp only [Matrix.cons_val]
    exact h47 qh qw _ _ _ (by show k.val / 72 + qh.val = 0 + qh.val; omega) (by show k.val / 24 % 3 + qw.val = 2 + qw.val; omega)
  · rw [show (⟨k.val / 24, by omega⟩ : Fin 9) = 3 from Fin.ext h]
    dsimp only [Matrix.cons_val]
    exact h48 qh qw _ _ _ (by show k.val / 72 + qh.val = 1 + qh.val; omega) (by show k.val / 24 % 3 + qw.val = 0 + qw.val; omega)
  · rw [show (⟨k.val / 24, by omega⟩ : Fin 9) = 4 from Fin.ext h]
    dsimp only [Matrix.cons_val]
    refine (slice4_01_apply 1 1 _ _ qh qw l _ (⟨k.val / 72 + qh.val, by omega⟩ : Fin 6) (⟨k.val / 24 % 3 + qw.val, by omega⟩ : Fin 6)
      (by show k.val / 72 + qh.val = 1 + qh.val; omega) (by show k.val / 24 % 3 + qw.val = 1 + qw.val; omega)).trans ?_
    exact h44 _ _ _
  · rw [show (⟨k.val / 24, by omega⟩ : Fin 9) = 5 from Fin.ext h]
    dsimp only [Matrix.cons_val]
    refine (slice4_01_apply 1 2 _ _ qh qw l _ (⟨k.val / 72 + qh.val, by omega⟩ : Fin 6) (⟨k.val / 24 % 3 + qw.val, by omega⟩ : Fin 6)
      (by show k.val / 72 + qh.val = 1 + qh.val; omega) (by show k.val / 24 % 3 + qw.val = 2 + qw.val; omega)).trans ?_
    exact h44 _ _ _
  · rw [show (⟨k.val / 24, by omega⟩ : Fin 9) = 6 from Fin.ext h]
    dsimp only [Matrix.cons_val]
    refine (slice4_01_apply 2 0 _ _ qh qw l _ (⟨k.val / 72 + qh.val, by omega⟩ : Fin 6) (⟨k.val / 24 % 3 + qw.val, by omega⟩ : Fin 6)
      (by show k.val / 72 + qh.val = 2 + qh.val; omega) (by show k.val / 24 % 3 + qw.val = 0 + qw.val; omega)).trans ?_
    exact h44 _ _ _
  · rw [show (⟨k.val / 24, by omega⟩ : Fin 9) = 7 from Fin.ext h]
    dsimp only [Matrix.cons_val]
    refine (slice4_01_apply 2 1 _ _ qh qw l _ (⟨k.val / 72 + qh.val, by omega⟩ : Fin 6) (⟨k.val / 24 % 3 + qw.val, by omega⟩ : Fin 6)
      (by show k.val / 72 + qh.val = 2 + qh.val; omega) (by show k.val / 24 % 3 + qw.val = 1 + qw.val; omega)).trans ?_
    exact h44 _ _ _
  · rw [show (⟨k.val / 24, by omega⟩ : Fin 9) = 8 from Fin.ext h]
    dsimp only [Matrix.cons_val]
    refine (slice4_01_apply 2 2 _ _ qh qw l _ (⟨k.val / 72 + qh.val, by omega⟩ : Fin 6) (⟨k.val / 24 % 3 + qw.val, by omega⟩ : Fin 6)
      (by show k.val / 72 + qh.val = 2 + qh.val; omega) (by show k.val / 24 % 3 + qw.val = 2 + qw.val; omega)).trans ?_
    exact h44 _ _ _

/-- A row of the second convolution: the row of taps against the packed matrix, plus the bias. -/
theorem conv2Rows_apply (v55 : FVec Ideal S128x216 .f32) (v56 : Vec Ideal S216x64 .f32) (v58 : Vec Ideal S1x64 .f32)
    (row : Fin 128) (col : Fin 64) :
    conv2Rows v55 v56 v58 (ix2 row col) = (∑ k : Fin 216, v55 (ix2 row k) * v56 (ix2 k col)) + v58 (ix2 (0 : Fin 1) col) := by
  unfold conv2Rows
  exact matbias_apply dot_S128x216_S216x64_S128x64_1_0_0_1_n_n rfl rfl rfl rfl rfl rfl v55 v56 v58 broadcasts_S1x64_S128x64 row col

/-- A pooled entry of the second layer: the maximum over the four window positions of the convolution's columns, rectified. -/
theorem pool2Rows_apply (v60 : FVec Ideal S128x64 .f32) (s : Fin 16) (l : Fin 8) (co : Fin 16) (row : Fin 128)
    (hrow : row.val = s.val * 8 + l.val) :
    pool2Rows v60 (ix3 s l co)
      = max (max (max (v60 (ix2 row (⟨co.val, by omega⟩ : Fin 64))) (v60 (ix2 row (⟨16 + co.val, by omega⟩ : Fin 64))))
                 (max (v60 (ix2 row (⟨32 + co.val, by omega⟩ : Fin 64))) (v60 (ix2 row (⟨48 + co.val, by omega⟩ : Fin 64))))) 0 := by
  have hco := co.isLt
  unfold pool2Rows
  refine (cast2_to3_apply _ _ s l co row hrow).trans ?_
  refine (relu_apply _ _).trans ?_
  refine congrArg (max · 0) ?_
  show max (max _ _) (max _ _) = _
  rw [slice2_axis1_apply 0 v60 _ row co ⟨co.val, by omega⟩ (by show co.val = 0 + co.val; omega),
    slice2_axis1_apply 16 v60 _ row co ⟨16 + co.val, by omega⟩ rfl,
    slice2_axis1_apply 32 v60 _ row co ⟨32 + co.val, by omega⟩ rfl,
    slice2_axis1_apply 48 v60 _ row co ⟨48 + co.val, by omega⟩ rfl]

/-- Entry (s, l, co) of the second payload, s = 4qh + qw, is channel co of pooled block (qh, qw) of the second layer of the
    image whose first-layer pooled blocks the staged arrays hold at l. -/
theorem pay7_apply (T : Tiles) (w1 : Arr ⟨2, ![64, 96]⟩) (b1 : Arr ⟨2, ![1, 96]⟩) (l : Fin 8)
    (v44 : FVec Ideal S6x6x8x24 .f32) (v45 v46 v47 v48 : FVec Ideal S4x4x8x24 .f32) (v56 : Vec Ideal S216x64 .f32) (v58 : Vec Ideal S1x64 .f32)
    (h44 : ∀ (ph pw : Fin 6) (j : Fin 24), v44 (ix4 ph pw l j) = pool1 T w1 b1 ph pw j)
    (h45 : ∀ (qh qw : Fin 4) (j : Fin 24) (p' q' : Fin 6), p'.val = 0 + qh.val → q'.val = 0 + qw.val → v45 (ix4 qh qw l j) = pool1 T w1 b1 p' q' j)
    (h46 : ∀ (qh qw : Fin 4) (j : Fin 24) (p' q' : Fin 6), p'.val = 0 + qh.val → q'.val = 1 + qw.val → v46 (ix4 qh qw l j) = pool1 T w1 b1 p' q' j)
    (h47 : ∀ (qh qw : Fin 4) (j : Fin 24) (p' q' : Fin 6), p'.val = 0 + qh.val → q'.val = 2 + qw.val → v47 (ix4 qh qw l j) = pool1 T w1 b1 p' q' j)
    (h48 : ∀ (qh qw : Fin 4) (j : Fin 24) (p' q' : Fin 6), p'.val = 1 + qh.val → q'.val = 0 + qw.val → v48 (ix4 qh qw l j) = pool1 T w1 b1 p' q' j)
    (qh qw : Fin 4) (s : Fin 16) (hs : s.val = qh.val * 4 + qw.val) (co : Fin 16) :
    k0_pay7 v44 v45 v46 v47 v48 v56 v58 (ix3 s l co) = pool2 T w1 b1 v56 v58 qh qw co := by
  have hqh := qh.isLt
  have hqw := qw.isLt
  have hl := l.isLt
  have hc : ∀ col : Fin 64, conv2Rows (patch2Rows v44 v45 v46 v47 v48) v56 v58 (ix2 (⟨s.val * 8 + l.val, by omega⟩ : Fin 128) col)
      = conv2 T w1 b1 v56 v58 qh qw col := fun col => by
    rw [conv2Rows_apply]
    unfold conv2
    refine congrArg (· + v58 (ix2 (0 : Fin 1) col)) (Finset.sum_congr rfl fun k _ => ?_)
    rw [patch2Rows_apply (pool1 T w1 b1) l v44 v45 v46 v47 v48 h44 h45 h46 h47 h48 qh qw k _ (by show s.val * 8 + l.val = _; rw [hs])]
    rfl
  rw [pay7_eq, pool2Rows_apply _ s l co ⟨s.val * 8 + l.val, by omega⟩ rfl]
  unfold pool2
  rw [hc, hc, hc, hc]

end Cert.ReferenceIdeal.Side

end
-- ==== Proof.RefDense.lean ====
/-
  The features and the three dense layers of the row-blocked network, read at an entry.

  The sixteen planes of the [block, image, channel] array, joined along the lanes, give each image its 256 features in
  the order (block, channel); each dense layer is a product with its weight matrix plus the bias row, the first two
  rectified.
-/
import proofs.«103082_g2000604803448687_pallaspilot1_85_11_alg».proof.Proof.Gen.ReferenceIdeal.Skeleton
import proofs.«103082_g2000604803448687_pallaspilot1_85_11_alg».proof.Proof.Spec
import proofs.«103082_g2000604803448687_pallaspilot1_85_11_alg».proof.Proof.RefLayout
import proofs.«103082_g2000604803448687_pallaspilot1_85_11_alg».proof.Proof.RefMat

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

/-- Plane s of the [16, 8, 16] array, recast to [8, 16]. -/
theorem plane_apply (v70 : FVec Ideal S16x8x16 .f32) (s : ℕ) (h : S16x8x16.Slices ![s, 0, 0] S1x8x16) (s' : Fin 16) (hs : s'.val = s)
    (l : Fin 8) (co : Fin 16) :
    shapeCast S8x16 (extractStridedSlice S1x8x16 ![s, 0, 0] v70 h) shapeCasts_S1x8x16_S8x16 (ix2 l co) = v70 (ix3 s' l co) := by
  refine (shapeCast_1ab_ab_apply _ _ l co).trans ?_
  exact slice3_plane_apply s v70 h 0 l co s' hs

/-- Lane k of the joined planes is channel k % 16 of block k / 16. -/
theorem feats_apply (v44 : FVec Ideal S6x6x8x24 .f32) (v45 v46 v47 v48 : FVec Ideal S4x4x8x24 .f32) (v56 : Vec Ideal S216x64 .f32)
    (v58 : Vec Ideal S1x64 .f32) (l : Fin 8) (k : Fin 256) :
    (concatenate S8x256 1 [⟨S8x16, k0_pay8 v44 v45 v46 v47 v48 v56 v58⟩, ⟨S8x16, k0_pay9 v44 v45 v46 v47 v48 v56 v58⟩, ⟨S8x16, k0_pay10 v44 v45 v46 v47 v48 v56 v58⟩, ⟨S8x16, k0_pay11 v44 v45 v46 v47 v48 v56 v58⟩, ⟨S8x16, k0_pay12 v44 v45 v46 v47 v48 v56 v58⟩, ⟨S8x16, k0_pay13 v44 v45 v46 v47 v48 v56 v58⟩, ⟨S8x16, k0_pay14 v44 v45 v46 v47 v48 v56 v58⟩, ⟨S8x16, k0_pay15 v44 v45 v46 v47 v48 v56 v58⟩, ⟨S8x16, k0_pay16 v44 v45 v46 v47 v48 v56 v58⟩, ⟨S8x16, k0_pay17 v44 v45 v46 v47 v48 v56 v58⟩, ⟨S8x16, k0_pay18 v44 v45 v46 v47 v48 v56 v58⟩, ⟨S8x16, k0_pay19 v44 v45 v46 v47 v48 v56 v58⟩, ⟨S8x16, k0_pay20 v44 v45 v46 v47 v48 v56 v58⟩, ⟨S8x16, k0_pay21 v44 v45 v46 v47 v48 v56 v58⟩, ⟨S8x16, k0_pay22 v44 v45 v46 v47 v48 v56 v58⟩, ⟨S8x16, k0_pay23 v44 v45 v46 v47 v48 v56 v58⟩]
        concatenates_S8x16_S8x16_S8x16_S8x16_S8x16_S8x16_S8x16_S8x16_S8x16_S8x16_S8x16_S8x16_S8x16_S8x16_S8x16_S8x16_S8x256_d1 : FVec Ideal S8x256 .f32) (ix2 l k)
      = k0_pay7 v44 v45 v46 v47 v48 v56 v58 (ix3 (⟨k.val / 16, by omega⟩ : Fin 16) l (⟨k.val % 16, by omega⟩ : Fin 16)) := by
  have hk := k.isLt
  refine (concat2_last16_apply _ _ _ _ _ _ _ _ _ _ _ _ _ _ _ _ _ l k ⟨k.val / 16, by omega⟩ ⟨k.val % 16, by omega⟩ rfl rfl).trans ?_
  have hcase : k.val / 16 = 0 ∨ k.val / 16 = 1 ∨ k.val / 16 = 2 ∨ k.val / 16 = 3 ∨ k.val / 16 = 4 ∨ k.val / 16 = 5 ∨ k.val / 16 = 6
      ∨ k.val / 16 = 7 ∨ k.val / 16 = 8 ∨ k.val / 16 = 9 ∨ k.val / 16 = 10 ∨ k.val / 16 = 11 ∨ k.val / 16 = 12 ∨ k.val / 16 = 13
      ∨ k.val / 16 = 14 ∨ k.val / 16 = 15 := by omega
  rcases hcase with h | h | h | h | h | h | h | h | h | h | h | h | h | h | h | h
  · rw [show (⟨k.val / 16, by omega⟩ : Fin 16) = 0 from Fin.ext h]
    dsimp only [Matrix.cons_val]
    show k0_pay8 v44 v45 v46 v47 v48 v56 v58 (ix2 l _) = _
    unfold k0_pay8
    exact plane_apply _ 0 _ 0 rfl l _
  · rw [show (⟨k.val / 16, by omega⟩ : Fin 16) = 1 from Fin.ext h]
    dsimp only [Matrix.cons_val]
    show k0_pay9 v44 v45 v46 v47 v48 v56 v58 (ix2 l _) = _
    unfold k0_pay9
    exact plane_apply _ 1 _ 1 rfl l _
  · rw [show (⟨k.val / 16, by omega⟩ : Fin 16) = 2 from Fin.ext h]
    dsimp only [Matrix.cons_val]
    show k0_pay10 v44 v45 v46 v47 v48 v56 v58 (ix2 l _) = _
    unfold k0_pay10
    exact plane_apply _ 2 _ 2 rfl l _
  · rw [show (⟨k.val / 16, by omega⟩ : Fin 16) = 3 from Fin.ext h]
    dsimp only [Matrix.cons_val]
    show k0_pay11 v44 v45 v46 v47 v48 v56 v58 (ix2 l _) = _
    unfold k0_pay11
    exact plane_apply _ 3 _ 3 rfl l _
  · rw [show (⟨k.val / 16, by omega⟩ : Fin 16) = 4 from Fin.ext h]
    dsimp only [Matrix.cons_val]
    show k0_pay12 v44 v45 v46 v47 v48 v56 v58 (ix2 l _) = _
    unfold k0_pay12
    exact plane_apply _ 4 _ 4 rfl l _
  · rw [show (⟨k.val / 16, by omega⟩ : Fin 16) = 5 from Fin.ext h]
    dsimp only [Matrix.cons_val]
    show k0_pay13 v44 v45 v46 v47 v48 v56 v58 (ix2 l _) = _
    unfold k0_pay13
    exact plane_apply _ 5 _ 5 rfl l _
  · rw [show (⟨k.val / 16, by omega⟩ : Fin 16) = 6 from Fin.ext h]
    dsimp only [Matrix.cons_val]
    show k0_pay14 v44 v45 v46 v47 v48 v56 v58 (ix2 l _) = _
    unfold k0_pay14
    exact plane_apply _ 6 _ 6 rfl l _
  · rw [show (⟨k.val / 16, by omega⟩ : Fin 16) = 7 from Fin.ext h]
    dsimp only [Matrix.cons_val]
    show k0_pay15 v44 v45 v46 v47 v48 v56 v58 (ix2 l _) = _
    unfold k0_pay15
    exact plane_apply _ 7 _ 7 rfl l _
  · rw [show (⟨k.val / 16, by omega⟩ : Fin 16) = 8 from Fin.ext h]
    dsimp only [Matrix.cons_val]
    show k0_pay16 v44 v45 v46 v47 v48 v56 v58 (ix2 l _) = _
    unfold k0_pay16
    exact plane_apply _ 8 _ 8 rfl l _
  · rw [show (⟨k.val / 16, by omega⟩ : Fin 16) = 9 from Fin.ext h]
    dsimp only [Matrix.cons_val]
    show k0_pay17 v44 v45 v46 v47 v48 v56 v58 (ix2 l _) = _
    unfold k0_pay17
    exact plane_apply _ 9 _ 9 rfl l _
  · rw [show (⟨k.val / 16, by omega⟩ : Fin 16) = 10 from Fin.ext h]
    dsimp only [Matrix.cons_val]
    show k0_pay18 v44 v45 v46 v47 v48 v56 v58 (ix2 l _) = _
    unfold k0_pay18
    exact plane_apply _ 10 _ 10 rfl l _
  · rw [show (⟨k.val / 16, by omega⟩ : Fin 16) = 11 from Fin.ext h]
    dsimp only [Matrix.cons_val]
    show k0_pay19 v44 v45 v46 v47 v48 v56 v58 (ix2 l _) = _
    unfold k0_pay19
    exact plane_apply _ 11 _ 11 rfl l _
  · rw [show (⟨k.val / 16, by omega⟩ : Fin 16) = 12 from Fin.ext h]
    dsimp only [Matrix.cons_val]
    show k0_pay20 v44 v45 v46 v47 v48 v56 v58 (ix2 l _) = _
    unfold k0_pay20
    exact plane_apply _ 12 _ 12 rfl l _
  · rw [show (⟨k.val / 16, by omega⟩ : Fin 16) = 13 from Fin.ext h]
    dsimp only [Matrix.cons_val]
    show k0_pay21 v44 v45 v46 v47 v48 v56 v58 (ix2 l _) = _
    unfold k0_pay21
    exact plane_apply _ 13 _ 13 rfl l _
  · rw [show (⟨k.val / 16, by omega⟩ : Fin 16) = 14 from Fin.ext h]
    dsimp only [Matrix.cons_val]
    show k0_pay22 v44 v45 v46 v47 v48 v56 v58 (ix2 l _) = _
    unfold k0_pay22
    exact plane_apply _ 14 _ 14 rfl l _
  · rw [show (⟨k.val / 16, by omega⟩ : Fin 16) = 15 from Fin.ext h]
    dsimp only [Matrix.cons_val]
    show k0_pay23 v44 v45 v46 v47 v48 v56 v58 (ix2 l _) = _
    unfold k0_pay23
    exact plane_apply _ 15 _ 15 rfl l _

/-- The three dense layers on a row of features. -/
theorem pay1_apply (T : Tiles) (w1 : Arr ⟨2, ![64, 96]⟩) (b1 : Arr ⟨2, ![1, 96]⟩) (w2 : Arr ⟨2, ![216, 64]⟩) (b2 : Arr ⟨2, ![1, 64]⟩)
    (wf1 : Vec Ideal S256x120 .f32) (bf1 : Vec Ideal S1x120 .f32) (wf2 : Vec Ideal S120x84 .f32) (bf2 : Vec Ideal S1x84 .f32)
    (wf3 : Vec Ideal S84x128 .f32) (bf3 : Vec Ideal S1x128 .f32)
    (v103 : FVec Ideal S8x256 .f32) (l : Fin 8) (hf : ∀ k : Fin 256, v103 (ix2 l k) = feat T w1 b1 w2 b2 k) (o : Fin 128) :
    k0_pay1 v103 wf1 bf1 wf2 bf2 wf3 bf3 (ix2 l o) = logit T w1 b1 w2 b2 wf1 bf1 wf2 bf2 wf3 bf3 o := by
  unfold k0_pay1
  refine (matbias_apply dot_S8x84_S84x128_S8x128_1_0_0_1_n_n rfl rfl rfl rfl rfl rfl _ wf3 bf3 _ l o).trans ?_
  unfold logit
  refine congrArg (· + bf3 (ix2 (0 : Fin 1) o)) (Finset.sum_congr rfl fun k2 _ => congrArg (· * wf3 (ix2 k2 o)) ?_)
  refine (relu_apply _ _).trans ?_
  unfold dense2
  refine congrArg (max · 0) ?_
  refine (matbias_apply dot_S8x120_S120x84_S8x84_1_0_0_1_n_n rfl rfl rfl rfl rfl rfl _ wf2 bf2 _ l k2).trans ?_
  refine congrArg (· + bf2 (ix2 (0 : Fin 1) k2)) (Finset.sum_congr rfl fun k1 _ => congrArg (· * wf2 (ix2 k1 k2)) ?_)
  refine (relu_apply _ _).trans ?_
  unfold dense1
  refine congrArg (max · 0) ?_
  refine (matbias_apply dot_S8x256_S256x120_S8x120_1_0_0_1_n_n rfl rfl rfl rfl rfl rfl v103 wf1 bf1 _ l k1).trans ?_
  refine congrArg (· + bf1 (ix2 (0 : Fin 1) k1)) (Finset.sum_congr rfl fun k0 _ => ?_)
  rw [hf k0]

end Cert.ReferenceIdeal.Side

end
-- ==== Proof.RefBody.lean ====
/-
  What one grid point of the row-blocked network leaves in its output block: entry (l, o) is logit o of image l of the
  staged block of tiles, under the staged weights.
-/
import proofs.«103082_g2000604803448687_pallaspilot1_85_11_alg».proof.Proof.Gen.ReferenceIdeal.Frame
import proofs.«103082_g2000604803448687_pallaspilot1_85_11_alg».proof.Proof.Spec
import proofs.«103082_g2000604803448687_pallaspilot1_85_11_alg».proof.Proof.RefConv1
import proofs.«103082_g2000604803448687_pallaspilot1_85_11_alg».proof.Proof.RefConv2
import proofs.«103082_g2000604803448687_pallaspilot1_85_11_alg».proof.Proof.RefDense
import Idealize.ShloMosaic.Lib.Pipeline.Value

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Entry (l, o) of the block one grid point leaves is logit o of the point's image l. -/
theorem out_apply (x0 : Vec Ideal S7x7x8x16 .f32) (x1 : Vec Ideal S64x96 .f32) (x2 : Vec Ideal S1x96 .f32) (x3 : Vec Ideal S216x64 .f32)
    (x4 : Vec Ideal S1x64 .f32) (x5 : Vec Ideal S256x120 .f32) (x6 : Vec Ideal S1x120 .f32) (x7 : Vec Ideal S120x84 .f32)
    (x8 : Vec Ideal S1x84 .f32) (x9 : Vec Ideal S84x128 .f32) (x10 : Vec Ideal S1x128 .f32) (l : Fin 8) (o : Fin 128) :
    out0_11 (F := Ideal) x0 x1 x2 x3 x4 x5 x6 x7 x8 x9 x10 (ix2 l o) = logit (tilesOf x0 l) x1 x2 x3 x4 x5 x6 x7 x8 x9 x10 o := by
  unfold out0_11
  rw [View.canon_unit_zero hz2]
  have e0 : View.ld x0 r0_0 = x0 := View.ld_unit_zero (S := S7x7x8x16) hz4 _ x0
  have e1 : View.ld x1 r0_1 = x1 := View.ld_unit_zero (S := S64x96) hz2 _ x1
  have e2 : View.ld x2 r0_2 = x2 := View.ld_unit_zero (S := S1x96) hz2 _ x2
  have e3 : View.ld x3 r0_3 = x3 := View.ld_unit_zero (S := S216x64) hz2 _ x3
  have e4 : View.ld x4 r0_4 = x4 := View.ld_unit_zero (S := S1x64) hz2 _ x4
  have e5 : View.ld x5 r0_5 = x5 := View.ld_unit_zero (S := S256x120) hz2 _ x5
  have e6 : View.ld x6 r0_6 = x6 := View.ld_unit_zero (S := S1x120) hz2 _ x6
  have e7 : View.ld x7 r0_7 = x7 := View.ld_unit_zero (S := S120x84) hz2 _ x7
  have e8 : View.ld x8 r0_8 = x8 := View.ld_unit_zero (S := S1x84) hz2 _ x8
  have e9 : View.ld x9 r0_9 = x9 := View.ld_unit_zero (S := S84x128) hz2 _ x9
  have e10 : View.ld x10 r0_10 = x10 := View.ld_unit_zero (S := S1x128) hz2 _ x10
  rw [e0, e1, e2, e3, e4, e5, e6, e7, e8, e9, e10]
  refine pay1_apply (tilesOf x0 l) x1 x2 x3 x4 x5 x6 x7 x8 x9 x10 _ l (fun k => ?_) o
  have hk := k.isLt
  rw [feats_apply]
  unfold feat
  exact pay7_apply (tilesOf x0 l) x1 x2 l _ _ _ _ _ x3 x4
    (fun ph pw j => pay2_apply x0 x1 x2 ph pw l j)
    (fun qh qw j p' q' hp hq => pay3_apply x0 x1 x2 l qh qw j p' q' hp hq)
    (fun qh qw j p' q' hp hq => pay4_apply x0 x1 x2 l qh qw j p' q' hp hq)
    (fun qh qw j p' q' hp hq => pay5_apply x0 x1 x2 l qh qw j p' q' hp hq)
    (fun qh qw j p' q' hp hq => pay6_apply x0 x1 x2 l qh qw j p' q' hp hq)
    (⟨k.val / 64, by omega⟩ : Fin 4) (⟨k.val / 16 % 4, by omega⟩ : Fin 4) (⟨k.val / 16, by omega⟩ : Fin 16)
    (by show k.val / 16 = k.val / 64 * 4 + k.val / 16 % 4; omega) (⟨k.val % 16, by omega⟩ : Fin 16)

end Cert.ReferenceIdeal.Side

end
-- ==== Proof.RefPrelude.lean ====
/-
  The host operations before the kernel: the batch of images as tiles.

  The images, padded by nothing, recast to [16384, 7, 4, 7, 4], with the axes reordered to (tile row, tile column,
  image, pixel row in the tile, pixel column in the tile) and the last two joined, are at (hh, ww, n, t) the pixel
  (4hh + t / 4, 4ww + t % 4) of image n.
-/
import proofs.«103082_g2000604803448687_pallaspilot1_85_11_alg».proof.Proof.Gen.ReferenceIdeal.Frame
import proofs.«103082_g2000604803448687_pallaspilot1_85_11_alg».proof.Proof.Spec
import Idealize.ShloMosaic.Lib.KernelVsHost
import Idealize.ShloMosaic.Lib.Pipeline.Value

noncomputable section

namespace Cert.ReferenceIdeal.Side

open Idealize.ShloMosaic Idealize.ShloMosaic.ValueIdx Cert.ReferenceIdeal Cert.ReferenceIdeal.Gen Cert.LeNet

open Idealize.ShloMosaic.TcCoe Idealize.SL.Sem Idealize.ShloMosaic.StableHlo

variable {F : FTy → Type} [FloatOps F]

/-- The host operations before the kernel, composed: pad by nothing, recast, reorder, recast. -/
def tilesArr (x : S16384x1x28x28.Idx → Elt F .f32) (z : S_.Idx → Elt F .f32) : S7x7x16384x16.Idx → Elt F .f32 :=
  shapeCast S7x7x16384x16
    (transpose S7x7x16384x4x4 [1, 3, 0, 2, 4]
      (shapeCast S16384x7x4x7x4
        (pad S16384x1x28x28 ![0, 0, 0, 0] ![0, 0, 0, 0] ![0, 0, 0, 0] x z pads_S16384x1x28x28_S16384x1x28x28_000_000_000_000 h_S_)
        shapeCasts_S16384x1x28x28_S16384x7x4x7x4)
      transposes_S16384x7x4x7x4_S7x7x16384x4x4_1_3_0_2_4)
    shapeCasts_S7x7x16384x4x4_S7x7x16384x16

/-- Entry (hh, ww, n, t) of the tiles is pixel (4hh + t / 4, 4ww + t % 4) of image n. -/
theorem tilesArr_apply (x : S16384x1x28x28.Idx → Elt F .f32) (z : S_.Idx → Elt F .f32) (hh ww : Fin 7) (n : Fin 16384) (t : Fin 16) :
    tilesArr x z (ix4 hh ww n t)
      = x (ix4 n (0 : Fin 1) (⟨4 * hh.val + t.val / 4, by omega⟩ : Fin 28) (⟨4 * ww.val + t.val % 4, by omega⟩ : Fin 28)) := by
  have hhh := hh.isLt
  have hww := ww.isLt
  have hn := n.isLt
  have ht := t.isLt
  unfold tilesArr
  refine (shapeCast_apply _ _ (ix4 hh ww n t) (ix5 hh ww n (⟨t.val / 4, by omega⟩ : Fin 4) (⟨t.val % 4, by omega⟩ : Fin 4)) (by
    rw [Shape.rowMajor_val_four, Shape.rowMajor_val_five]
    show (((hh.val * 7 + ww.val) * 16384 + n.val) * 4 + t.val / 4) * 4 + t.val % 4 = ((hh.val * 7 + ww.val) * 16384 + n.val) * 16 + t.val
    omega)).trans ?_
  refine (transpose_apply _ _ _ (ix5 hh ww n (⟨t.val / 4, by omega⟩ : Fin 4) (⟨t.val % 4, by omega⟩ : Fin 4))
    (ix5 n hh (⟨t.val / 4, by omega⟩ : Fin 4) ww (⟨t.val % 4, by omega⟩ : Fin 4)) (fun b => by
      match b with
      | ⟨0, _⟩ => rfl
      | ⟨1, _⟩ => rfl
      | ⟨2, _⟩ => rfl
      | ⟨3, _⟩ => rfl
      | ⟨4, _⟩ => rfl)).trans ?_
  refine (shapeCast_apply _ _ (ix5 n hh (⟨t.val / 4, by omega⟩ : Fin 4) ww (⟨t.val % 4, by omega⟩ : Fin 4))
    (ix4 n (0 : Fin 1) (⟨4 * hh.val + t.val / 4, by omega⟩ : Fin 28) (⟨4 * ww.val + t.val % 4, by omega⟩ : Fin 28)) (by
    rw [Shape.rowMajor_val_four, Shape.rowMajor_val_five]
    show ((n.val * 1 + 0) * 28 + (4 * hh.val + t.val / 4)) * 28 + (4 * ww.val + t.val % 4)
      = (((n.val * 7 + hh.val) * 4 + t.val / 4) * 7 + ww.val) * 4 + t.val % 4
    omega)).trans ?_
  exact pad_apply_of_inside _ _ _ x z _ h_S_ _ _ (fun a => by
    match a with
    | ⟨0, _⟩ => show n.val = 0 + n.val * (0 + 1); omega
    | ⟨1, _⟩ => show 0 = 0 + 0 * (0 + 1); omega
    | ⟨2, _⟩ => show 4 * hh.val + t.val / 4 = 0 + (4 * hh.val + t.val / 4) * (0 + 1); omega
    | ⟨3, _⟩ => show 4 * ww.val + t.val % 4 = 0 + (4 * ww.val + t.val % 4) * (0 + 1); omega)

variable (m : (ℓ : Loc nD τ sig) → Buf (Elt F) ℓ)

/-- The kernel's first operand, as the kernel finds it, is the tiles of the argument images. -/
theorem V_main_v3 (c : Dev nD) :
    (V m c main_v3 : S7x7x16384x16.Idx → Elt F .f32)
      = tilesArr (m ((c : Thread nD τ).loc main_arg0)) (sitofp .f32 (constantI S_ 32 0#32)) := by
  dsimp only [Gen.V, Gen.V0]
  simp only [Gen.hostOps0, Gen.hostOps0_1, Gen.hostOps0_2, List.flatten_cons, List.flatten_nil, List.append_nil, List.cons_append,
    List.nil_append]
  after_results
  rfl

/-- At the ideal values: the kernel's first operand at (hh, ww, n, t) is entry t of tile (hh, ww) of image n. -/
theorem V_main_v3_apply (m : (ℓ : Loc nD τ sig) → Buf (Elt Ideal) ℓ) (c : Dev nD) (hh ww : Fin 7) (n : Fin 16384) (t : Fin 16) :
    (V m c main_v3 : S7x7x16384x16.Idx → Elt Ideal .f32) (ix4 hh ww n t) = tile (m ((c : Thread nD τ).loc main_arg0)) n hh ww t := by
  rw [V_main_v3, tilesArr_apply]
  rfl

end Cert.ReferenceIdeal.Side

end
-- ==== Proof.RefIdx.lean ====
/-
  The block index of every operand of the kernel at every grid point, decided over the 2048 points: the first operand
  moves along its third axis with the point, the result along its rows, and every weight stays at block zero.
-/
import proofs.«103082_g2000604803448687_pallaspilot1_85_11_alg».proof.Proof.Gen.ReferenceIdeal.Launch

-- one decision over the grid at a time
set_option Elab.async false

noncomputable section

namespace Cert.ReferenceIdeal.Side

open Idealize.ShloMosaic Cert.ReferenceIdeal Cert.ReferenceIdeal.Gen

/-- The first operand's block index at point t is (0, 0, t, 0). -/
theorem idx_in : ∀ t : Fin cfg0.N,
    win0_0.index t (0 : Fin 4) = 0 ∧ win0_0.index t (1 : Fin 4) = 0 ∧ win0_0.index t (2 : Fin 4) = t.val ∧ win0_0.index t (3 : Fin 4) = 0 :=
  (by decide +kernel : ∀ t : Fin grid0.N, _)

/-- The result's block index at point t is (t, 0). -/
theorem idx_out : ∀ t : Fin cfg0.N, win0_11.index t (0 : Fin 2) = t.val ∧ win0_11.index t (1 : Fin 2) = 0 :=
  (by decide +kernel : ∀ t : Fin grid0.N, _)

/-- Weight 1's block index is zero at every point. -/
theorem idx_w1 : ∀ t : Fin cfg0.N, win0_1.index t (0 : Fin 2) = 0 ∧ win0_1.index t (1 : Fin 2) = 0 :=
  (by decide +kernel : ∀ t : Fin grid0.N, _)

/-- Weight 2's block index is zero at every point. -/
theorem idx_w2 : ∀ t : Fin cfg0.N, win0_2.index t (0 : Fin 2) = 0 ∧ win0_2.index t (1 : Fin 2) = 0 :=
  (by decide +kernel : ∀ t : Fin grid0.N, _)

/-- Weight 3's block index is zero at every point. -/
theorem idx_w3 : ∀ t : Fin cfg0.N, win0_3.index t (0 : Fin 2) = 0 ∧ win0_3.index t (1 : Fin 2) = 0 :=
  (by decide +kernel : ∀ t : Fin grid0.N, _)

/-- Weight 4's block index is zero at every point. -/
theorem idx_w4 : ∀ t : Fin cfg0.N, win0_4.index t (0 : Fin 2) = 0 ∧ win0_4.index t (1 : Fin 2) = 0 :=
  (by decide +kernel : ∀ t : Fin grid0.N, _)

/-- Weight 5's block index is zero at every point. -/
theorem idx_w5 : ∀ t : Fin cfg0.N, win0_5.index t (0 : Fin 2) = 0 ∧ win0_5.index t (1 : Fin 2) = 0 :=
  (by decide +kernel : ∀ t : Fin grid0.N, _)

/-- Weight 6's block index is zero at every point. -/
theorem idx_w6 : ∀ t : Fin cfg0.N, win0_6.index t (0 : Fin 2) = 0 ∧ win0_6.index t (1 : Fin 2) = 0 :=
  (by decide +kernel : ∀ t : Fin grid0.N, _)

/-- Weight 7's block index is zero at every point. -/
theorem idx_w7 : ∀ t : Fin cfg0.N, win0_7.index t (0 : Fin 2) = 0 ∧ win0_7.index t (1 : Fin 2) = 0 :=
  (by decide +kernel : ∀ t : Fin grid0.N, _)

/-- Weight 8's block index is zero at every point. -/
theorem idx_w8 : ∀ t : Fin cfg0.N, win0_8.index t (0 : Fin 2) = 0 ∧ win0_8.index t (1 : Fin 2) = 0 :=
  (by decide +kernel : ∀ t : Fin grid0.N, _)

/-- Weight 9's block index is zero at every point. -/
theorem idx_w9 : ∀ t : Fin cfg0.N, win0_9.index t (0 : Fin 2) = 0 ∧ win0_9.index t (1 : Fin 2) = 0 :=
  (by decide +kernel : ∀ t : Fin grid0.N, _)

/-- Weight 10's block index is zero at every point. -/
theorem idx_w10 : ∀ t : Fin cfg0.N, win0_10.index t (0 : Fin 2) = 0 ∧ win0_10.index t (1 : Fin 2) = 0 :=
  (by decide +kernel : ∀ t : Fin grid0.N, _)

end Cert.ReferenceIdeal.Side

end
-- ==== Proof.RefBlocksIn.lean ====
/-
  The kernel's operand blocks as pieces of the argument arrays.

  The first operand's block at grid point t is images 8t … 8t + 7 of the tiles of the argument batch; every weight's
  block is the whole weight. With them, what a point leaves in its result block is rows 8t … 8t + 7 of one array: the
  128 logits of every image.
-/
import proofs.«103082_g2000604803448687_pallaspilot1_85_11_alg».proof.Proof.Gen.ReferenceIdeal.Frame
import proofs.«103082_g2000604803448687_pallaspilot1_85_11_alg».proof.Proof.Spec
import proofs.«103082_g2000604803448687_pallaspilot1_85_11_alg».proof.Proof.RefBody
import proofs.«103082_g2000604803448687_pallaspilot1_85_11_alg».proof.Proof.RefPrelude
import proofs.«103082_g2000604803448687_pallaspilot1_85_11_alg».proof.Proof.RefIdx
import Idealize.ShloMosaic.Lib.Pipeline.Value

set_option Elab.async false

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

open Idealize.ShloMosaic.TcCoe Idealize.SL.Sem
open Idealize.ShloMosaic.Pipeline (Dat)

/-- All 128 logits of all images. -/
def logits (x : Arr ⟨4, ![16384, 1, 28, 28]⟩) (w1 : Arr ⟨2, ![64, 96]⟩) (b1 : Arr ⟨2, ![1, 96]⟩) (w2 : Arr ⟨2, ![216, 64]⟩)
    (b2 : Arr ⟨2, ![1, 64]⟩) (wf1 : Arr ⟨2, ![256, 120]⟩) (bf1 : Arr ⟨2, ![1, 120]⟩) (wf2 : Arr ⟨2, ![120, 84]⟩)
    (bf2 : Arr ⟨2, ![1, 84]⟩) (wf3 : Arr ⟨2, ![84, 128]⟩) (bf3 : Arr ⟨2, ![1, 128]⟩) : Arr ⟨2, ![16384, 128]⟩ := fun i =>
  logit (tile x (i 0)) w1 b1 w2 b2 wf1 bf1 wf2 bf2 wf3 bf3 (i 1)

/-- What one point leaves, over variables: if the staged tiles are those of images 8t … 8t + 7, entry y of the block is
    the entry of the logits at row 8t + y₀. -/
theorem point_eq (x0 : Vec Ideal S7x7x8x16 .f32) (x1 : Vec Ideal S64x96 .f32) (x2 : Vec Ideal S1x96 .f32) (x3 : Vec Ideal S216x64 .f32)
    (x4 : Vec Ideal S1x64 .f32) (x5 : Vec Ideal S256x120 .f32) (x6 : Vec Ideal S1x120 .f32) (x7 : Vec Ideal S120x84 .f32)
    (x8 : Vec Ideal S1x84 .f32) (x9 : Vec Ideal S84x128 .f32) (x10 : Vec Ideal S1x128 .f32)
    (X : Arr ⟨4, ![16384, 1, 28, 28]⟩) (t : ℕ) (ht : t < 2048)
    (hx : ∀ (hh ww : Fin 7) (l : Fin 8) (tt : Fin 16), x0 (ix4 hh ww l tt) = tile X (⟨8 * t + l.val, by omega⟩ : Fin 16384) hh ww tt)
    (y : S8x128.Idx) (i : S16384x128.Idx) (hi0 : (i 0).val = 8 * t + (y 0).val) (hi1 : (i 1).val = (y 1).val) :
    out0_11 (F := Ideal) x0 x1 x2 x3 x4 x5 x6 x7 x8 x9 x10 y = logits X x1 x2 x3 x4 x5 x6 x7 x8 x9 x10 i := by
  obtain ⟨l, o, rfl⟩ : ∃ (l : Fin 8) (o : Fin 128), y = ix2 l o := ⟨y 0, y 1, eq_ix2 y⟩
  rw [out_apply]
  unfold logits
  have hT : tilesOf x0 l = tile X (i 0) := by
    funext hh ww tt
    show x0 (ix4 hh ww l tt) = _
    rw [hx]
    exact congrArg (fun n => tile X n hh ww tt) (Fin.ext hi0.symm)
  have ho : o = i 1 := Fin.ext hi1.symm
  rw [hT, ho]

variable (m : (ℓ : Loc nD τ sig) → Buf (Elt Ideal) ℓ)

/-- The logits of the argument arrays. -/
abbrev G (c : Dev nD) : S16384x128.Idx → Elt Ideal .f32 :=
  logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Block t of the first operand's window, read off any array of tiles: images 8t … 8t + 7. -/
theorem read_blk0 (A : S7x7x16384x16.Idx → Elt Ideal .f32) (t : Fin cfg0.N) (hh ww : Fin 7) (l : Fin 8) (tt : Fin 16) (n : Fin 16384)
    (hn : n.val = 8 * t.val + l.val) :
    (((cfg0.win 0).blk t).view.read (Elt Ideal) A : Vec Ideal S7x7x8x16 .f32) (ix4 hh ww l tt) = A (ix4 hh ww n tt) := by
  obtain ⟨e0, e1, e2, e3⟩ := idx_in t
  have hidx : ((cfg0.win 0).blk t).view.emb (ix4 hh ww l tt) = (ix4 hh ww n tt : S7x7x16384x16.Idx) := by
    funext a
    apply Fin.ext
    match a with
    | ⟨0, _⟩ => show win0_0.index t (0 : Fin 4) * 7 + 1 * hh.val = hh.val; rw [e0]; omega
    | ⟨1, _⟩ => show win0_0.index t (1 : Fin 4) * 7 + 1 * ww.val = ww.val; rw [e1]; omega
    | ⟨2, _⟩ => show win0_0.index t (2 : Fin 4) * 8 + 1 * l.val = n.val; rw [e2, hn]; omega
    | ⟨3, _⟩ => show win0_0.index t (3 : Fin 4) * 16 + 1 * tt.val = tt.val; rw [e3]; omega
  show A (((cfg0.win 0).blk t).view.emb (ix4 hh ww l tt)) = A (ix4 hh ww n tt)
  rw [hidx]

/-- The first operand's block at point t is images 8t … 8t + 7 of the tiles of the argument batch. -/
theorem iblk0_apply (c : Dev nD) (t : Fin cfg0.N) (hh ww : Fin 7) (l : Fin 8) (tt : Fin 16) (n : Fin 16384) (hn : n.val = 8 * t.val + l.val) :
    (iblk m c 0 t : Vec Ideal S7x7x8x16 .f32) (ix4 hh ww l tt) = tile (m ((c : Thread nD τ).loc main_arg0)) n hh ww tt := by
  unfold iblk
  rw [read_blk0 _ t hh ww l tt n hn]
  exact V_main_v3_apply m c hh ww n tt

/-- Window 1's block at every point is the whole of argument 1. -/
theorem iblk1_eq (c : Dev nD) (t : Fin cfg0.N) : (iblk m c 1 t : Vec Ideal S64x96 .f32) = m ((c : Thread nD τ).loc main_arg1) := by
  have h := idx_w1 t
  funext y
  have hidx : ((cfg0.win 1).blk t).view.emb y = y := by
    funext a
    apply Fin.ext
    match a with
    | ⟨0, _⟩ => show win0_1.index t (0 : Fin 2) * 64 + 1 * (y 0).val = (y 0).val; rw [h.1]; omega
    | ⟨1, _⟩ => show win0_1.index t (1 : Fin 2) * 96 + 1 * (y 1).val = (y 1).val; rw [h.2]; omega
  unfold iblk
  rw [View.read_apply, hidx]
  exact congrFun (V_main_arg1 m c) y

/-- Window 2's block at every point is the whole of argument 2. -/
theorem iblk2_eq (c : Dev nD) (t : Fin cfg0.N) : (iblk m c 2 t : Vec Ideal S1x96 .f32) = m ((c : Thread nD τ).loc main_arg2) := by
  have h := idx_w2 t
  funext y
  have hidx : ((cfg0.win 2).blk t).view.emb y = y := by
    funext a
    apply Fin.ext
    match a with
    | ⟨0, _⟩ => show win0_2.index t (0 : Fin 2) * 1 + 1 * (y 0).val = (y 0).val; rw [h.1]; omega
    | ⟨1, _⟩ => show win0_2.index t (1 : Fin 2) * 96 + 1 * (y 1).val = (y 1).val; rw [h.2]; omega
  unfold iblk
  rw [View.read_apply, hidx]
  exact congrFun (V_main_arg2 m c) y

/-- Window 3's block at every point is the whole of argument 3. -/
theorem iblk3_eq (c : Dev nD) (t : Fin cfg0.N) : (iblk m c 3 t : Vec Ideal S216x64 .f32) = m ((c : Thread nD τ).loc main_arg3) := by
  have h := idx_w3 t
  funext y
  have hidx : ((cfg0.win 3).blk t).view.emb y = y := by
    funext a
    apply Fin.ext
    match a with
    | ⟨0, _⟩ => show win0_3.index t (0 : Fin 2) * 216 + 1 * (y 0).val = (y 0).val; rw [h.1]; omega
    | ⟨1, _⟩ => show win0_3.index t (1 : Fin 2) * 64 + 1 * (y 1).val = (y 1).val; rw [h.2]; omega
  unfold iblk
  rw [View.read_apply, hidx]
  exact congrFun (V_main_arg3 m c) y

/-- Window 4's block at every point is the whole of argument 4. -/
theorem iblk4_eq (c : Dev nD) (t : Fin cfg0.N) : (iblk m c 4 t : Vec Ideal S1x64 .f32) = m ((c : Thread nD τ).loc main_arg4) := by
  have h := idx_w4 t
  funext y
  have hidx : ((cfg0.win 4).blk t).view.emb y = y := by
    funext a
    apply Fin.ext
    match a with
    | ⟨0, _⟩ => show win0_4.index t (0 : Fin 2) * 1 + 1 * (y 0).val = (y 0).val; rw [h.1]; omega
    | ⟨1, _⟩ => show win0_4.index t (1 : Fin 2) * 64 + 1 * (y 1).val = (y 1).val; rw [h.2]; omega
  unfold iblk
  rw [View.read_apply, hidx]
  exact congrFun (V_main_arg4 m c) y

/-- Window 5's block at every point is the whole of argument 5. -/
theorem iblk5_eq (c : Dev nD) (t : Fin cfg0.N) : (iblk m c 5 t : Vec Ideal S256x120 .f32) = m ((c : Thread nD τ).loc main_arg5) := by
  have h := idx_w5 t
  funext y
  have hidx : ((cfg0.win 5).blk t).view.emb y = y := by
    funext a
    apply Fin.ext
    match a with
    | ⟨0, _⟩ => show win0_5.index t (0 : Fin 2) * 256 + 1 * (y 0).val = (y 0).val; rw [h.1]; omega
    | ⟨1, _⟩ => show win0_5.index t (1 : Fin 2) * 120 + 1 * (y 1).val = (y 1).val; rw [h.2]; omega
  unfold iblk
  rw [View.read_apply, hidx]
  exact congrFun (V_main_arg5 m c) y

/-- Window 6's block at every point is the whole of argument 6. -/
theorem iblk6_eq (c : Dev nD) (t : Fin cfg0.N) : (iblk m c 6 t : Vec Ideal S1x120 .f32) = m ((c : Thread nD τ).loc main_arg6) := by
  have h := idx_w6 t
  funext y
  have hidx : ((cfg0.win 6).blk t).view.emb y = y := by
    funext a
    apply Fin.ext
    match a with
    | ⟨0, _⟩ => show win0_6.index t (0 : Fin 2) * 1 + 1 * (y 0).val = (y 0).val; rw [h.1]; omega
    | ⟨1, _⟩ => show win0_6.index t (1 : Fin 2) * 120 + 1 * (y 1).val = (y 1).val; rw [h.2]; omega
  unfold iblk
  rw [View.read_apply, hidx]
  exact congrFun (V_main_arg6 m c) y

/-- Window 7's block at every point is the whole of argument 7. -/
theorem iblk7_eq (c : Dev nD) (t : Fin cfg0.N) : (iblk m c 7 t : Vec Ideal S120x84 .f32) = m ((c : Thread nD τ).loc main_arg7) := by
  have h := idx_w7 t
  funext y
  have hidx : ((cfg0.win 7).blk t).view.emb y = y := by
    funext a
    apply Fin.ext
    match a with
    | ⟨0, _⟩ => show win0_7.index t (0 : Fin 2) * 120 + 1 * (y 0).val = (y 0).val; rw [h.1]; omega
    | ⟨1, _⟩ => show win0_7.index t (1 : Fin 2) * 84 + 1 * (y 1).val = (y 1).val; rw [h.2]; omega
  unfold iblk
  rw [View.read_apply, hidx]
  exact congrFun (V_main_arg7 m c) y

/-- Window 8's block at every point is the whole of argument 8. -/
theorem iblk8_eq (c : Dev nD) (t : Fin cfg0.N) : (iblk m c 8 t : Vec Ideal S1x84 .f32) = m ((c : Thread nD τ).loc main_arg8) := by
  have h := idx_w8 t
  funext y
  have hidx : ((cfg0.win 8).blk t).view.emb y = y := by
    funext a
    apply Fin.ext
    match a with
    | ⟨0, _⟩ => show win0_8.index t (0 : Fin 2) * 1 + 1 * (y 0).val = (y 0).val; rw [h.1]; omega
    | ⟨1, _⟩ => show win0_8.index t (1 : Fin 2) * 84 + 1 * (y 1).val = (y 1).val; rw [h.2]; omega
  unfold iblk
  rw [View.read_apply, hidx]
  exact congrFun (V_main_arg8 m c) y

/-- Window 9's block at every point is the whole of argument 9. -/
theorem iblk9_eq (c : Dev nD) (t : Fin cfg0.N) : (iblk m c 9 t : Vec Ideal S84x128 .f32) = m ((c : Thread nD τ).loc main_arg9) := by
  have h := idx_w9 t
  funext y
  have hidx : ((cfg0.win 9).blk t).view.emb y = y := by
    funext a
    apply Fin.ext
    match a with
    | ⟨0, _⟩ => show win0_9.index t (0 : Fin 2) * 84 + 1 * (y 0).val = (y 0).val; rw [h.1]; omega
    | ⟨1, _⟩ => show win0_9.index t (1 : Fin 2) * 128 + 1 * (y 1).val = (y 1).val; rw [h.2]; omega
  unfold iblk
  rw [View.read_apply, hidx]
  exact congrFun (V_main_arg9 m c) y

/-- Window 10's block at every point is the whole of argument 10. -/
theorem iblk10_eq (c : Dev nD) (t : Fin cfg0.N) : (iblk m c 10 t : Vec Ideal S1x128 .f32) = m ((c : Thread nD τ).loc main_arg10) := by
  have h := idx_w10 t
  funext y
  have hidx : ((cfg0.win 10).blk t).view.emb y = y := by
    funext a
    apply Fin.ext
    match a with
    | ⟨0, _⟩ => show win0_10.index t (0 : Fin 2) * 1 + 1 * (y 0).val = (y 0).val; rw [h.1]; omega
    | ⟨1, _⟩ => show win0_10.index t (1 : Fin 2) * 128 + 1 * (y 1).val = (y 1).val; rw [h.2]; omega
  unfold iblk
  rw [View.read_apply, hidx]
  exact congrFun (V_main_arg10 m c) y

end Cert.ReferenceIdeal.Side

end
-- ==== Proof.RefBlocks.lean ====
/-
  From the blocks to the array: the kernel's result array holds, for every image, its 128 logits.

  The result's block at grid point t is rows 8t … 8t + 7. Each point writes back its eight rows of the one array of
  logits, and the points' blocks cover all 16384 rows.
-/
import proofs.«103082_g2000604803448687_pallaspilot1_85_11_alg».proof.Proof.Gen.ReferenceIdeal.Frame
import proofs.«103082_g2000604803448687_pallaspilot1_85_11_alg».proof.Proof.Spec
import proofs.«103082_g2000604803448687_pallaspilot1_85_11_alg».proof.Proof.RefBlocksIn
import Idealize.ShloMosaic.Lib.Pipeline.Value

set_option Elab.async false

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

open Idealize.ShloMosaic.TcCoe Idealize.SL.Sem
open Idealize.ShloMosaic.Pipeline (Dat)

variable (m : (ℓ : Loc nD τ sig) → Buf (Elt Ideal) ℓ)

/-- What point t writes back is rows 8t … 8t + 7 of the logits of the argument arrays. -/
theorem flushed_eq (c : Dev nD) (t : Fin cfg0.N) :
    (dats m 0 c).flushed 11 t = ((cfg0.win 11).blk t).view.read (Elt Ideal) (G m c) := by
  have hN : cfg0.N = 2048 := N_0
  have htl := t.isLt
  obtain ⟨e4, e5⟩ := idx_out t
  have hpt : ∀ (l : Fin 8) (o : Fin 128) (i : S16384x128.Idx), (i 0).val = 8 * t.val + l.val → (i 1).val = o.val →
      out0_11 (F := Ideal) (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 l o) = G m c i :=
    fun l o i h0 h1 => point_eq (iblk m c 0 t) _ _ _ _ _ _ _ _ _ _ (m ((c : Thread nD τ).loc main_arg0)) t.val (by omega)
      (fun hh ww l tt => iblk0_apply m c t hh ww l tt _ rfl) (ix2 l o) i h0 h1
  show (cfg0.win 11).cut (grid0.coords t) ((dats m 0 c).after 11 t) = _
  rw [after0_11, iblk1_eq, iblk2_eq, iblk3_eq, iblk4_eq, iblk5_eq, iblk6_eq, iblk7_eq, iblk8_eq, iblk9_eq, iblk10_eq]
  generalize out0_11 (F := Ideal) (iblk m c 0 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = O at hpt ⊢
  generalize G m c = A at hpt ⊢
  funext j
  show O j = A (((cfg0.win 11).blk t).view.emb j)
  have hj : (j : S8x128.Idx) = ix2 (j 0) (j 1) := eq_ix2 j
  refine (congrArg O hj).trans (hpt (j 0) (j 1) _ ?_ ?_)
  · show win0_11.index t (0 : Fin 2) * 8 + 1 * (j 0).val = 8 * t.val + (j 0).val
    rw [e4]; omega
  · show win0_11.index t (1 : Fin 2) * 128 + 1 * (j 1).val = (j 1).val
    rw [e5]; omega

/-- An index of the result array is in point t's block iff each coordinate is in the block's range on its axis. -/
theorem mem_blk (t : Fin cfg0.N) (i : S16384x128.Idx) :
    i ∈ ((cfg0.win 11).blk t).view.set
      ↔ ∀ a : Fin 2, win0_11.index t a * S8x128.size a ≤ (i a).val ∧ (i a).val < win0_11.index t a * S8x128.size a + S8x128.size a := by
  show i ∈ ((View.whole main_v4).slice (win0_11.rect t)).set ↔ _
  rw [View.set_slice_whole, Rect.mem_set_unit]
  exact Iff.rfl

/-- Row r of the result array is covered by point r / 8. -/
theorem cover (i : S16384x128.Idx) : ∃ t : Fin cfg0.N, (cfg0.win 11).flush t = true ∧ i ∈ ((cfg0.win 11).blk t).view.set := by
  have hN : cfg0.N = 2048 := N_0
  have hi0 : (i 0).val < 16384 := (i 0).isLt
  have hi1 : (i 1).val < 128 := (i 1).isLt
  refine ⟨⟨(i 0).val / 8, by omega⟩, flush0_11 _, ?_⟩
  obtain ⟨e4, e5⟩ := idx_out ⟨(i 0).val / 8, by omega⟩
  rw [mem_blk]
  intro a
  match a with
  | ⟨0, _⟩ =>
    show win0_11.index ⟨(i 0).val / 8, _⟩ (0 : Fin 2) * 8 ≤ (i 0).val ∧ (i 0).val < win0_11.index ⟨(i 0).val / 8, _⟩ (0 : Fin 2) * 8 + 8
    rw [e4]; show (i 0).val / 8 * 8 ≤ (i 0).val ∧ (i 0).val < (i 0).val / 8 * 8 + 8; omega
  | ⟨1, _⟩ =>
    show win0_11.index ⟨(i 0).val / 8, _⟩ (1 : Fin 2) * 128 ≤ (i 1).val ∧ (i 1).val < win0_11.index ⟨(i 0).val / 8, _⟩ (1 : Fin 2) * 128 + 128
    rw [e5]; omega

/-- The result array after the run holds the logits of the argument arrays. -/
theorem final (c : Dev nD) : (dats m 0 c).arrAt 11 cfg0.N = G m c :=
  (dats m 0 c).arrAt_eq_of_cover 11 (G m c) (fun t _ => flushed_eq m c t) (cover)

end Cert.ReferenceIdeal.Side

end
-- ==== Proof.RefRun.lean ====
/-
  The reference program's run, read: every weakly fair execution ends with the result array at the first ten logits of
  every image of the argument batch under the argument weights, and with the arguments unchanged.

  The host operation after the kernel keeps columns 0 … 9 of the kernel's [16384, 128] result.
-/
import proofs.«103082_g2000604803448687_pallaspilot1_85_11_alg».proof.Proof.Gen.ReferenceIdeal.Frame
import proofs.«103082_g2000604803448687_pallaspilot1_85_11_alg».proof.Proof.Spec
import proofs.«103082_g2000604803448687_pallaspilot1_85_11_alg».proof.Proof.RefBlocks
import Idealize.ShloMosaic.Lib.Pipeline.Value

noncomputable section

namespace Cert.ReferenceIdeal.Side

open Idealize.ShloMosaic Idealize.ShloMosaic.ValueIdx Cert.ReferenceIdeal Cert.ReferenceIdeal.Gen Cert.LeNet
open Cert.ReferenceIdeal.Side.Layout Cert.ReferenceIdeal.Side.Mat

open Idealize.ShloMosaic.TcCoe Idealize.SL.Sem Idealize.ShloMosaic.StableHlo
open Idealize.ShloMosaic.Pipeline (Dat)

/-- The first ten columns of the logits are the network's result. -/
theorem slice_logits (x : Arr ⟨4, ![16384, 1, 28, 28]⟩) (w1 : Arr ⟨2, ![64, 96]⟩) (b1 : Arr ⟨2, ![1, 96]⟩) (w2 : Arr ⟨2, ![216, 64]⟩)
    (b2 : Arr ⟨2, ![1, 64]⟩) (wf1 : Arr ⟨2, ![256, 120]⟩) (bf1 : Arr ⟨2, ![1, 120]⟩) (wf2 : Arr ⟨2, ![120, 84]⟩)
    (bf2 : Arr ⟨2, ![1, 84]⟩) (wf3 : Arr ⟨2, ![84, 128]⟩) (bf3 : Arr ⟨2, ![1, 128]⟩) :
    extractStridedSlice S16384x10 ![0, 0] (logits x w1 b1 w2 b2 wf1 bf1 wf2 bf2 wf3 bf3) slices_S16384x128_S16384x10_0_0
      = result x w1 b1 w2 b2 wf1 bf1 wf2 bf2 wf3 bf3 := by
  funext i
  obtain ⟨a, j, rfl⟩ : ∃ (a : Fin 16384) (j : Fin 10), i = ix2 a j := ⟨i 0, i 1, eq_ix2 i⟩
  have hj := j.isLt
  refine (slice2_axis1_apply 0 _ _ a j (⟨j.val, by omega⟩ : Fin 128) (Nat.zero_add _).symm).trans ?_
  rfl

variable (m : (ℓ : Loc nD τ sig) → Buf (Elt Ideal) ℓ) (ρ : Dev nD → PrngReg)

/-- The result buffer after the host operation that follows the kernel. -/
theorem tail_v5 (c : Dev nD) :
    Pipeline.afterTail₀ cfgs (dats m) 0 (V0 m) [hostOps1] c main_v5
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v5) = _
  after_results
  rw [show Pipeline.withArrays spec0 c (V0 m c) (fun w => (dats m 0 c).arrAt w cfg0.N) (Proc.devRef .tc main_v4) = G m c from
    (Pipeline.withArrays_arr spec0 launch0.win.arr_inj c _ _ 11).trans (final m c)]
  exact slice_logits _ _ _ _ _ _ _ _ _ _ _

/-- The run, read. -/
theorem run : θ_run (defs (F := Ideal)) (onTc (τ := τ) (main (F := Ideal))) ⟨m, fun _ => 0, ρ⟩ (fun r => ∀ c : Dev nD,
      r.2.mem ((c.tc : Thread nD τ).loc main_v5) = Cert.LeNet.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩) (run_main m ρ)

end Cert.ReferenceIdeal.Side

end
-- ==== Proof.lean ====
/-
  A fused LeNet-5 forward pass in two arrangements computes one function.

  The reference program stages eight images per grid point with the batch along the rows; the kernel stages 256 images
  per grid point with the batch along the lanes, works on transposed matrices, and pads the first pooled stage from
  24 to 32 rows with zero weights so that both poolings are maxima over aligned row groups. At the ideal values a
  change of float format is the identity, so both programs are exact expressions of the image and the packed weights:
  each is read, entry by entry, as the specification Cert.LeNet.result — the first ten logits of every image — using
  only that + and · are commutative and associative and that the zero rows contribute 0 · x = 0 and 0 + x = x; no
  finiteness of the inputs is needed. The three frames are the generated ones (all three programs launch one kernel
  whose body loads and stores whole blocks); the kernel's idealization rewrote nothing, so that conjunct is trivial.
-/
import proofs.«103082_g2000604803448687_pallaspilot1_85_11_alg».proof.Defs
import proofs.«103082_g2000604803448687_pallaspilot1_85_11_alg».proof.Proof.Gen.Kernel
import proofs.«103082_g2000604803448687_pallaspilot1_85_11_alg».proof.Proof.Gen.Kernel.Frame
import proofs.«103082_g2000604803448687_pallaspilot1_85_11_alg».proof.Proof.Gen.KernelIdeal
import proofs.«103082_g2000604803448687_pallaspilot1_85_11_alg».proof.Proof.Gen.KernelIdeal.Frame
import proofs.«103082_g2000604803448687_pallaspilot1_85_11_alg».proof.Proof.Gen.ReferenceIdeal
import proofs.«103082_g2000604803448687_pallaspilot1_85_11_alg».proof.Proof.Gen.ReferenceIdeal.Frame
import proofs.«103082_g2000604803448687_pallaspilot1_85_11_alg».proof.Proof.Gen.Pre_finite_inputs
import proofs.«103082_g2000604803448687_pallaspilot1_85_11_alg».proof.Proof.BodyBlock
import proofs.«103082_g2000604803448687_pallaspilot1_85_11_alg».proof.Proof.KerRun
import proofs.«103082_g2000604803448687_pallaspilot1_85_11_alg».proof.Proof.RefRun
import Idealize.ShloMosaic.Adequacy
import Idealize.ShloMosaic.Init

noncomputable section

namespace Cert.Proof

open Idealize.ShloMosaic Idealize.SL.Sem

/-- Both idealized programs end with the network's result on the (agreeing) arguments. -/
theorem algebraic : Cert.algebraic_KernelIdeal_ReferenceIdeal := by
  intro m ρ m' ρ' _ hagree
  refine ⟨fun c => Cert.LeNet.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Side.run Cert.KernelIdeal.Body.block_spec m ρ, ?_⟩
  refine (θ_run Cert.ReferenceIdeal.defs _ _).mono (fun r h c => ⟨?_, (h c).2⟩) (Cert.ReferenceIdeal.Side.run m' ρ')
  rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
